-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S4096 : Shape := ⟨1, ![4096]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel

variable [Facts]

def fn {F : FTy → Type} [FloatOps F] (main_arg0 : FVec F S50000x64 .f32) (main_arg1 : FVec F S50000x64 .f32) (main_arg2 : IVec S2x1600000 32) (main_arg3 : IVec S4096 32) (main_arg4 : IVec S4096 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S50000x64 : Shape := ⟨2, ![50000, 64]⟩
abbrev S2x1600000 : Shape := ⟨2, ![2, 1600000]⟩
abbrev S4096 : Shape := ⟨1, ![4096]⟩
abbrev S1x1600000 : Shape := ⟨2, ![1, 1600000]⟩
abbrev S1600000 : Shape := ⟨1, ![1600000]⟩
abbrev S_ : Shape := ⟨0, ![]⟩
abbrev S3200000 : Shape := ⟨1, ![3200000]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S6400x64 : Shape := ⟨2, ![6400, 64]⟩
abbrev S6400x1 : Shape := ⟨2, ![6400, 1]⟩
abbrev S2000x64 : Shape := ⟨2, ![2000, 64]⟩
abbrev S4096x1 : Shape := ⟨2, ![4096, 1]⟩
abbrev S4096x64 : Shape := ⟨2, ![4096, 64]⟩

abbrev nBuf : Space → Nat
  | .hbm => 134
  | .vmem => 39
  | .smem => 0
  | _ => 0

abbrev hbmTy0_0 (i : Nat) : BufTy := match i % 128 with
  | 0 => ⟨S50000x64, .f32⟩
  | 1 => ⟨S50000x64, .f32⟩
  | 2 => ⟨S2x1600000, .i32⟩
  | 3 => ⟨S4096, .i32⟩
  | 4 => ⟨S4096, .i32⟩
  | 5 => ⟨S1x1600000, .i32⟩
  | 6 => ⟨S1600000, .i32⟩
  | 7 => ⟨S1x1600000, .i32⟩
  | 8 => ⟨S1600000, .i32⟩
  | 9 => ⟨S_, .i32⟩
  | 10 => ⟨S1600000, .i32⟩
  | 11 => ⟨S1600000, .i32⟩
  | 12 => ⟨S3200000, .i32⟩
  | 13 => ⟨S3200000, .i32⟩
  | 14 => ⟨S_, .f32⟩
  | 15 => ⟨S3200000, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S100000x64, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x64, .f32⟩
  | 60 => ⟨S3200000x1, .f32⟩
  | 61 => ⟨S3200000x64, .f32⟩
  | 62 => ⟨S_, .f32⟩
  | 63 => ⟨S100000x64, .f32⟩
  | 64 => ⟨S3200000x1, .i32⟩
  | 65 => ⟨S100000x64, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S3200000x64, .f32⟩
  | 75 => ⟨S3200000x1, .f32⟩
  | 76 => ⟨S3200000x64, .f32⟩
  | 77 => ⟨S_, .f32⟩
  | 78 => ⟨S100000x64, .f32⟩
  | 79 => ⟨S3200000x1, .i32⟩
  | 80 => ⟨S100000x64, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000x64, .f32⟩
  | 90 => ⟨S3200000x1, .f32⟩
  | 91 => ⟨S3200000x64, .f32⟩
  | 92 => ⟨S_, .f32⟩
  | 93 => ⟨S100000x64, .f32⟩
  | 94 => ⟨S3200000x1, .i32⟩
  | 95 => ⟨S100000x64, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000x64, .f32⟩
  | 105 => ⟨S3200000x1, .f32⟩
  | 106 => ⟨S3200000x64, .f32⟩
  | 107 => ⟨S_, .f32⟩
  | 108 => ⟨S100000x64, .f32⟩
  | 109 => ⟨S3200000x1, .i32⟩
  | 110 => ⟨S100000x64, .f32⟩
  | 111 => ⟨S100000x64, .f32⟩
  | 112 => ⟨S50000x64, .f32⟩
  | 113 => ⟨S50000x64, .f32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S4096x64, .f32⟩
  | 123 => ⟨S_, .i32⟩
  | 124 => ⟨S4096, .i32⟩
  | 125 => ⟨S4096, .i1⟩
  | 126 => ⟨S_, .i32⟩
  | 127 => ⟨S4096, .i32⟩
  | _ => ⟨S50000x64, .f32⟩

abbrev hbmTy0_1 (i : Nat) : BufTy := match i % 128 with
  | 0 => ⟨S4096, .i32⟩
  | 1 => ⟨S4096, .i32⟩
  | 2 => ⟨S4096x1, .i32⟩
  | 3 => ⟨S4096x64, .f32⟩
  | 4 => ⟨S4096x1, .f32⟩
  | 5 => ⟨S4096, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S6400x64, .f32⟩
  | .local _ .vmem, ⟨1, _⟩ => ⟨S6400x64, .f32⟩
  | .local _ .vmem, ⟨2, _⟩ => ⟨S6400x1, .f32⟩
  | .local _ .vmem, ⟨3, _⟩ => ⟨S6400x1, .f32⟩
  | .local _ .vmem, ⟨4, _⟩ => ⟨S6400x64, .f32⟩
  | .local _ .vmem, ⟨5, _⟩ => ⟨S6400x64, .f32⟩
  | .local _ .vmem, ⟨6, _⟩ => ⟨S6400x64, .f32⟩
  | .local _ .vmem, ⟨7, _⟩ => ⟨S6400x64, .f32⟩
  | .local _ .vmem, ⟨8, _⟩ => ⟨S6400x1, .f32⟩
  | .local _ .vmem, ⟨9, _⟩ => ⟨S6400x1, .f32⟩
  | .local _ .vmem, ⟨10, _⟩ => ⟨S6400x64, .f32⟩
  | .local _ .vmem, ⟨11, _⟩ => ⟨S6400x64, .f32⟩
  | .local _ .vmem, ⟨12, _⟩ => ⟨S6400x64, .f32⟩
  | .local _ .vmem, ⟨13, _⟩ => ⟨S6400x64, .f32⟩
  | .local _ .vmem, ⟨14, _⟩ => ⟨S6400x1, .f32⟩
  | .local _ .vmem, ⟨15, _⟩ => ⟨S6400x1, .f32⟩
  | .local _ .vmem, ⟨16, _⟩ => ⟨S6400x64, .f32⟩
  | .local _ .vmem, ⟨17, _⟩ => ⟨S6400x64, .f32⟩
  | .local _ .vmem, ⟨18, _⟩ => ⟨S6400x64, .f32⟩
  | .local _ .vmem, ⟨19, _⟩ => ⟨S6400x64, .f32⟩
  | .local _ .vmem, ⟨20, _⟩ => ⟨S6400x1, .f32⟩
  | .local _ .vmem, ⟨21, _⟩ => ⟨S6400x1, .f32⟩
  | .local _ .vmem, ⟨22, _⟩ => ⟨S6400x64, .f32⟩
  | .local _ .vmem, ⟨23, _⟩ => ⟨S6400x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S4096x64, .f32⟩
  | .local _ .vmem, ⟨37, _⟩ => ⟨S4096x64, .f32⟩
  | .local _ .vmem, ⟨38, _⟩ => ⟨S4096x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_11 : Ref sig .tc := ⟨.hbm, 66, rfl⟩
abbrev main_v46 : Ref sig .tc := ⟨.hbm, 67, rfl⟩
abbrev main_v47 : Ref sig .tc := ⟨.hbm, 68, rfl⟩
abbrev main_c_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_14 : Ref sig .tc := ⟨.hbm, 81, rfl⟩
abbrev main_v58 : Ref sig .tc := ⟨.hbm, 82, rfl⟩
abbrev main_v59 : Ref sig .tc := ⟨.hbm, 83, rfl⟩
abbrev main_c_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_17 : Ref sig .tc := ⟨.hbm, 96, rfl⟩
abbrev main_v70 : Ref sig .tc := ⟨.hbm, 97, rfl⟩
abbrev main_v71 : Ref sig .tc := ⟨.hbm, 98, rfl⟩
abbrev main_c_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_19 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_20 : Ref sig .tc := ⟨.hbm, 114, rfl⟩
abbrev main_v85 : Ref sig .tc := ⟨.hbm, 115, rfl⟩
abbrev main_v86 : Ref sig .tc := ⟨.hbm, 116, rfl⟩
abbrev main_c_21 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_22 : Ref sig .tc := ⟨.hbm, 123, rfl⟩
abbrev main_v92 : Ref sig .tc := ⟨.hbm, 124, rfl⟩
abbrev main_v93 : Ref sig .tc := ⟨.hbm, 125, rfl⟩
abbrev main_c_23 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg1_0 : Ref sig .tc := ⟨.vmem, 37, rfl⟩
abbrev cc5_stg2_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35
abbrev cc5_sem0_0 : DmaSem sig := 36
abbrev cc5_sem1_0 : DmaSem sig := 37
abbrev cc5_sem2_0 : DmaSem sig := 38

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![500], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6400x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S4096x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S4096x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S4096x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  concatenates_S1600000_S1600000_S3200000_d0 : Shape.Concatenates [S1600000, S1600000] S3200000 0
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S50000x64_S50000x64_S100000x64_d0 : Shape.Concatenates [S50000x64, S50000x64] S100000x64 0
  shapeCasts_S3200000_S3200000x1 : S3200000.ShapeCasts S3200000x1
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x64 : S6400x1.Broadcasts S6400x64
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  slices_S100000x64_S50000x64_0_0 : S100000x64.Slices ![0, 0] S50000x64
  slices_S100000x64_S50000x64_50000_0 : S100000x64.Slices ![50000, 0] S50000x64
  bcast_S_S4096 : S_.BroadcastsInDim S4096 (![] : Fin 0 → Fin S4096.rank)
  bcast_S4096_S4096x1_0 : S4096.BroadcastsInDim S4096x1 (![0] : Fin 1 → Fin S4096x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096 : S4096x1.ShapeCasts S4096
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S3200000x64.size a
  hwx0_0 : ∀ i : grid0.Coords, EltTy.bits .f32 = 32 ∨ (Rect.block (s := S3200000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S3200000x1.size a
  hwx0_1 : ∀ i : grid0.Coords, EltTy.bits .f32 = 32 ∨ (Rect.block (s := S3200000x1) S6400x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S3200000x64.size a
  hwx0_2 : ∀ i : grid0.Coords, EltTy.bits .f32 = 32 ∨ (Rect.block (s := S3200000x64) S6400x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S3200000x64.size a
  hwx1_0 : ∀ i : grid1.Coords, EltTy.bits .f32 = 32 ∨ (Rect.block (s := S3200000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S3200000x1.size a
  hwx1_1 : ∀ i : grid1.Coords, EltTy.bits .f32 = 32 ∨ (Rect.block (s := S3200000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x64.size a ≤ S3200000x64.size a
  hwx1_2 : ∀ i : grid1.Coords, EltTy.bits .f32 = 32 ∨ (Rect.block (s := S3200000x64) S6400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S3200000x64.size a
  hwx2_0 : ∀ i : grid2.Coords, EltTy.bits .f32 = 32 ∨ (Rect.block (s := S3200000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x1.size a ≤ S3200000x1.size a
  hwx2_1 : ∀ i : grid2.Coords, EltTy.bits .f32 = 32 ∨ (Rect.block (s := S3200000x1) S6400x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x64.size a ≤ S3200000x64.size a
  hwx2_2 : ∀ i : grid2.Coords, EltTy.bits .f32 = 32 ∨ (Rect.block (s := S3200000x64) S6400x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x64.size a ≤ S3200000x64.size a
  hwx3_0 : ∀ i : grid3.Coords, EltTy.bits .f32 = 32 ∨ (Rect.block (s := S3200000x64) S6400x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x1.size a ≤ S3200000x1.size a
  hwx3_1 : ∀ i : grid3.Coords, EltTy.bits .f32 = 32 ∨ (Rect.block (s := S3200000x1) S6400x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6400x64.size a ≤ S3200000x64.size a
  hwx3_2 : ∀ i : grid3.Coords, EltTy.bits .f32 = 32 ∨ (Rect.block (s := S3200000x64) S6400x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S100000x64.size a
  hwx4_3 : ∀ i : grid4.Coords, EltTy.bits .f32 = 32 ∨ (Rect.block (s := S100000x64) S2000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S100000x64.size a
  hwx4_4 : ∀ i : grid4.Coords, EltTy.bits .f32 = 32 ∨ (Rect.block (s := S100000x64) S2000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S100000x64.size a
  hwx4_5 : ∀ i : grid4.Coords, EltTy.bits .f32 = 32 ∨ (Rect.block (s := S100000x64) S2000x64.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S4096x64.size a ≤ S4096x64.size a
  hwx5_0 : ∀ i : grid5.Coords, EltTy.bits .f32 = 32 ∨ (Rect.block (s := S4096x64) S4096x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x64.size a ≤ S4096x64.size a
  hwx5_1 : ∀ i : grid5.Coords, EltTy.bits .f32 = 32 ∨ (Rect.block (s := S4096x64) S4096x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S4096x1.size a ≤ S4096x1.size a
  hwx5_2 : ∀ i : grid5.Coords, EltTy.bits .f32 = 32 ∨ (Rect.block (s := S4096x1) S4096x1.size (cc5_transform_2 i) (hinb5_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v40) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S6400x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S6400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S6400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S6400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S6400x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S6400x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S6400x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v33) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S2000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v81) S2000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v82) S2000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v91) S4096x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v98) S4096x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S4096x1.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S4096 : Shape := ⟨1, ![4096]⟩
abbrev S1x1600000 : Shape := ⟨2, ![1, 1600000]⟩
abbrev S1600000 : Shape := ⟨1, ![1600000]⟩
abbrev S_ : Shape := ⟨0, ![]⟩
abbrev S3200000 : Shape := ⟨1, ![3200000]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S100000x1x64 : Shape := ⟨3, ![100000, 1, 64]⟩
abbrev S100000x5x64 : Shape := ⟨3, ![100000, 5, 64]⟩
abbrev S4096x1 : Shape := ⟨2, ![4096, 1]⟩
abbrev S4096x64 : Shape := ⟨2, ![4096, 64]⟩

abbrev nBuf : Space → Nat
  | .hbm => 149
  | .vmem => 0
  | .smem => 0
  | _ => 0

abbrev hbmTy0_0 (i : Nat) : BufTy := match i % 128 with
  | 0 => ⟨S50000x64, .f32⟩
  | 1 => ⟨S50000x64, .f32⟩
  | 2 => ⟨S2x1600000, .i32⟩
  | 3 => ⟨S4096, .i32⟩
  | 4 => ⟨S4096, .i32⟩
  | 5 => ⟨S1x1600000, .i32⟩
  | 6 => ⟨S1600000, .i32⟩
  | 7 => ⟨S1x1600000, .i32⟩
  | 8 => ⟨S1600000, .i32⟩
  | 9 => ⟨S_, .i32⟩
  | 10 => ⟨S1600000, .i32⟩
  | 11 => ⟨S1600000, .i32⟩
  | 12 => ⟨S3200000, .i32⟩
  | 13 => ⟨S3200000, .i32⟩
  | 14 => ⟨S_, .f32⟩
  | 15 => ⟨S3200000, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S100000x64, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x64, .f32⟩
  | 60 => ⟨S3200000x1, .f32⟩
  | 61 => ⟨S3200000x64, .f32⟩
  | 62 => ⟨S3200000x64, .f32⟩
  | 63 => ⟨S_, .f32⟩
  | 64 => ⟨S100000x64, .f32⟩
  | 65 => ⟨S3200000x1, .i32⟩
  | 66 => ⟨S100000x64, .f32⟩
  | 67 => ⟨S_, .i32⟩
  | 68 => ⟨S3200000, .i32⟩
  | 69 => ⟨S3200000, .i1⟩
  | 70 => ⟨S_, .i32⟩
  | 71 => ⟨S3200000, .i32⟩
  | 72 => ⟨S3200000, .i32⟩
  | 73 => ⟨S3200000, .i32⟩
  | 74 => ⟨S3200000x1, .i32⟩
  | 75 => ⟨S3200000x64, .f32⟩
  | 76 => ⟨S3200000x1, .f32⟩
  | 77 => ⟨S3200000x64, .f32⟩
  | 78 => ⟨S3200000x64, .f32⟩
  | 79 => ⟨S_, .f32⟩
  | 80 => ⟨S100000x64, .f32⟩
  | 81 => ⟨S3200000x1, .i32⟩
  | 82 => ⟨S100000x64, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000x64, .f32⟩
  | 92 => ⟨S3200000x1, .f32⟩
  | 93 => ⟨S3200000x64, .f32⟩
  | 94 => ⟨S3200000x64, .f32⟩
  | 95 => ⟨S_, .f32⟩
  | 96 => ⟨S100000x64, .f32⟩
  | 97 => ⟨S3200000x1, .i32⟩
  | 98 => ⟨S100000x64, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x64, .f32⟩
  | 108 => ⟨S3200000x1, .f32⟩
  | 109 => ⟨S3200000x64, .f32⟩
  | 110 => ⟨S3200000x64, .f32⟩
  | 111 => ⟨S_, .f32⟩
  | 112 => ⟨S100000x64, .f32⟩
  | 113 => ⟨S3200000x1, .i32⟩
  | 114 => ⟨S100000x64, .f32⟩
  | 115 => ⟨S100000x1x64, .f32⟩
  | 116 => ⟨S100000x1x64, .f32⟩
  | 117 => ⟨S100000x1x64, .f32⟩
  | 118 => ⟨S100000x1x64, .f32⟩
  | 119 => ⟨S100000x1x64, .f32⟩
  | 120 => ⟨S100000x5x64, .f32⟩
  | 121 => ⟨S_, .f32⟩
  | 122 => ⟨S100000x64, .f32⟩
  | 123 => ⟨S_, .f32⟩
  | 124 => ⟨S100000x64, .f32⟩
  | 125 => ⟨S100000x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S4096x1, .i32⟩
  | 8 => ⟨S4096x64, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S4096x64, .f32⟩
  | 18 => ⟨S4096x64, .f32⟩
  | 19 => ⟨S_, .f32⟩
  | 20 => ⟨S4096, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_c_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_14 : Ref sig .tc := ⟨.hbm, 83, rfl⟩
abbrev main_v60 : Ref sig .tc := ⟨.hbm, 84, rfl⟩
abbrev main_v61 : Ref sig .tc := ⟨.hbm, 85, rfl⟩
abbrev main_c_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_17 : Ref sig .tc := ⟨.hbm, 99, rfl⟩
abbrev main_v73 : Ref sig .tc := ⟨.hbm, 100, rfl⟩
abbrev main_v74 : Ref sig .tc := ⟨.hbm, 101, rfl⟩
abbrev main_c_18 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_19 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_20 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_22 : Ref sig .tc := ⟨.hbm, 128, rfl⟩
abbrev main_v97 : Ref sig .tc := ⟨.hbm, 129, rfl⟩
abbrev main_v98 : Ref sig .tc := ⟨.hbm, 130, rfl⟩
abbrev main_c_23 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_24 : Ref sig .tc := ⟨.hbm, 137, rfl⟩
abbrev main_v104 : Ref sig .tc := ⟨.hbm, 138, rfl⟩
abbrev main_v105 : Ref sig .tc := ⟨.hbm, 139, rfl⟩
abbrev main_c_25 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_26 : Ref sig .tc := ⟨.hbm, 147, rfl⟩
abbrev main_v112 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  concatenates_S1600000_S1600000_S3200000_d0 : Shape.Concatenates [S1600000, S1600000] S3200000 0
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S50000x64_S50000x64_S100000x64_d0 : Shape.Concatenates [S50000x64, S50000x64] S100000x64 0
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x64_S100000x1x64_0_2 : S100000x64.BroadcastsInDim S100000x1x64 (![0, 2] : Fin 2 → Fin S100000x1x64.rank)
  concatenates_S100000x1x64_S100000x1x64_S100000x1x64_S100000x1x64_S100000x1x64_S100000x5x64_d1 : Shape.Concatenates [S100000x1x64, S100000x1x64, S100000x1x64, S100000x1x64, S100000x1x64] S100000x5x64 1
  reducesTo_S100000x5x64_S100000x64_d1 : S100000x5x64.ReducesTo [1] S100000x64
  h_S_ : 0 < S_.numel
  slices_S100000x64_S50000x64_0_0 : S100000x64.Slices ![0, 0] S50000x64
  slices_S100000x64_S50000x64_50000_0 : S100000x64.Slices ![50000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S50000x64_S4096x1_S4096x64_1_0_n_n_0_1_164_wf : GatherDims.WF S50000x64 S4096x1 S4096x64 [1] [0] [] [0] [] 1 ![1, 64]

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.ResultRun.lean ====
/-
  The idealized kernel's run with its RESULT named.

  The program is fifteen segments: stretches of host operations around six pipelined regions. The buffer contents at
  each boundary are a fold from the launch memory (`Gen.W0` … `Gen.W15`): a stretch applies its operations, a region
  leaves its arrays at what its write-backs fold to and every other buffer as it found it. Every weakly fair execution
  ends with every unscoped buffer at the last boundary's contents `Gen.W15`; here that fact is read at the result
  buffer as well as at the five arguments, so that the value of the result can be computed from the fold.
-/
import proofs.«156087_j3118146257022_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the five argument arrays as launched. -/
theorem run : θ_run defs (onTc (τ := τ) (main (F := F))) ⟨m, fun _ => 0, ρ⟩ (fun r => ∀ c : Dev nD,
      r.2.mem ((c.tc : Thread nD τ).loc main_v100) = W15 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v100 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c)⟩)

end Cert.KernelIdeal.ResultRun

end
-- ==== Proof.ScaleSpec.lean ====
/-
  Scaling the edge messages: the whole-array function the four scaling regions compute.

  A message array has one row of 64 channels per directed edge; the weights are a column with one entry per edge.
  Every entry of row e is multiplied by the weight of edge e. Inside a region a block of 6400 rows is multiplied by
  the matching 6400 weights, the column spread along the channels; that is the same rule, read inside the block.
-/
import proofs.«156087_j3118146257022_1_alg».proof.Proof.Gen.KernelIdeal
import Idealize.ShloMosaic.Lib.Pipeline.Value
import Idealize.ShloMosaic.Lib.ValueIdx

noncomputable section

namespace Cert.KernelIdeal.Scale

open Cert.KernelIdeal Idealize.ShloMosaic Idealize.ShloMosaic.TcCoe

variable {F : FTy → Type} [FloatOps F]

/-- The origin of a two-axis block. -/
theorem origin2 : (![0, 0] : Fin 2 → Nat) = fun _ => 0 := funext fun a => by fin_cases a <;> rfl

/-- The weight entry that belongs to the row of a message entry. -/
def rowOf (i : S3200000x64.Idx) : S3200000x1.Idx := fun a => match a with
  | ⟨0, _⟩ => ⟨(i 0).val, (i 0).isLt⟩
  | ⟨1, _⟩ => ⟨0, Nat.one_pos⟩

/-- The same inside a block of 6400 rows. -/
def rowOfBlk (y : S6400x64.Idx) : S6400x1.Idx := fun a => match a with
  | ⟨0, _⟩ => ⟨(y 0).val, (y 0).isLt⟩
  | ⟨1, _⟩ => ⟨0, Nat.one_pos⟩

/-- Every message entry times the weight of its edge. -/
def scaled (x : S3200000x64.Idx → Elt F .f32) (w : S3200000x1.Idx → Elt F .f32) : S3200000x64.Idx → Elt F .f32 :=
  fun i => FloatOps.mulf (x i) (w (rowOf i))

/-- A block times its weights column spread along the channels, read at an entry: the entry times its row's weight.
    The two casts are to the shape the operand already has. -/
theorem block_scaled (x0 : S6400x64.Idx → Elt F .f32) (x1 : S6400x1.Idx → Elt F .f32)
    (h0 : S6400x64.ShapeCasts S6400x64) (h1 : S6400x1.ShapeCasts S6400x1) (hb : S6400x1.Broadcasts S6400x64) (y : S6400x64.Idx) :
    mulf (shapeCast S6400x64 x0 h0) (broadcastTo S6400x64 (shapeCast S6400x1 x1 h1) hb) y = FloatOps.mulf (x0 y) (x1 (rowOfBlk y)) := by
  show FloatOps.mulf (shapeCast S6400x64 x0 h0 y) (broadcastTo S6400x64 (shapeCast S6400x1 x1 h1) hb y) = _
  rw [shapeCast_self, shapeCast_self]
  have hbc : broadcastTo S6400x64 x1 hb y = x1 (rowOfBlk y) :=
    broadcastTo_apply x1 hb y (rowOfBlk y) (fun a => match a with
      | ⟨0, _⟩ => by show (y 0).val = if (6400 : Nat) = 1 then 0 else (y 0).val; rw [if_neg (by decide)]
      | ⟨1, _⟩ => by show (0 : Nat) = if (1 : Nat) = 1 then 0 else (y 1).val; rw [if_pos rfl])
  rw [hbc]

end Cert.KernelIdeal.Scale

end
-- ==== Proof.Stages.lean ====
/-
  The two programs as compositions of the same stages.

  Both programs build the same graph data from the edge list (target rows, source columns, edge weights), start from
  the same stacked embedding table, and propagate four times: gather the source rows, multiply each gathered row by its
  edge weight, scatter-add into the target rows. They differ in how a layer multiplies (a pipelined region over a
  reshaped weights column, against a host multiply by the weights spread over the channels), in how the five layers are
  averaged, and in how the final row-wise dot products are summed. This module names the stages, so that the gather and
  the scatter-add are never opened, and proves the first of the three bridges: the two layer steps are the same
  function, at any float instance — a row's weight is read at the same edge either way.
-/
import proofs.«156087_j3118146257022_1_alg».proof.Proof.Gen.KernelIdeal
import proofs.«156087_j3118146257022_1_alg».proof.Proof.Gen.ReferenceIdeal
import proofs.«156087_j3118146257022_1_alg».proof.Proof.ScaleSpec
import proofs.«156087_j3118146257022_1_alg».proof.Proof.Gen.KernelIdeal.Skeleton
import Idealize.ShloMosaic.Lib.Pipeline.Value
import Idealize.ShloMosaic.Lib.ValueIdx

noncomputable section

namespace Cert.KernelIdeal.Stages

open Cert.KernelIdeal Cert.KernelIdeal.Gen Idealize.ShloMosaic Idealize.ShloMosaic.TcCoe

variable {F : FTy → Type} [FloatOps F] [Named F]

/-- Scatter-add the messages into their target rows, starting from a zero table. -/
def scatterRows (rows : (⟨S3200000, .i32⟩ : BufTy).Contents (Elt F)) (msg : (⟨S3200000x64, .f32⟩ : BufTy).Contents (Elt F)) : (⟨S100000x64, .f32⟩ : BufTy).Contents (Elt F) :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 rows) msg

/-- Gather the source row of every edge (a negative index counted from the end, as the indexing operator does). -/
def gatherCols (cols : (⟨S3200000, .i32⟩ : BufTy).Contents (Elt F)) (x : (⟨S100000x64, .f32⟩ : BufTy).Contents (Elt F)) : (⟨S3200000x64, .f32⟩ : BufTy).Contents (Elt F) :=
  Host.gather gather_S100000x64_S3200000x1_S3200000x64_1_0_n_n_0_1_164 x
    (broadcastInDim S3200000x1 ![0] bcast_S3200000_S3200000x1_0
      (select (cmpi .slt cols (broadcastInDim S3200000 ![] bcast_S_S3200000 (constantI S_ 32 0#32)))
        (addi cols (broadcastInDim S3200000 ![] bcast_S_S3200000 (constantI S_ 32 100000#32))) cols))

/-- The edge weights reshaped into a column. -/
def weightsCol (w : (⟨S3200000, .f32⟩ : BufTy).Contents (Elt F)) : (⟨S3200000x1, .f32⟩ : BufTy).Contents (Elt F) :=
  shapeCast _ w shapeCasts_S3200000_S3200000x1

/-- The edge weights spread over the 64 channels: a column first, then along the channels. -/
def weightsWide (w : (⟨S3200000, .f32⟩ : BufTy).Contents (Elt F)) : (⟨S3200000x64, .f32⟩ : BufTy).Contents (Elt F) :=
  broadcastInDim S3200000x64 ![0, 1] Cert.ReferenceIdeal.Gen.bcast_S3200000x1_S3200000x64_0_1
    (broadcastInDim S3200000x1 ![0] bcast_S3200000_S3200000x1_0 w)

/-- One propagation as the kernel does it: the gathered rows scaled by the weights column, then scattered. -/
def layerK (rows cols : (⟨S3200000, .i32⟩ : BufTy).Contents (Elt F)) (w : (⟨S3200000, .f32⟩ : BufTy).Contents (Elt F)) (x : (⟨S100000x64, .f32⟩ : BufTy).Contents (Elt F)) : (⟨S100000x64, .f32⟩ : BufTy).Contents (Elt F) :=
  scatterRows rows (Scale.scaled (gatherCols cols x) (weightsCol w))

/-- One propagation as the reference does it: the gathered rows times the spread weights, then scattered. -/
def layerR (rows cols : (⟨S3200000, .i32⟩ : BufTy).Contents (Elt F)) (w : (⟨S3200000, .f32⟩ : BufTy).Contents (Elt F)) (x : (⟨S100000x64, .f32⟩ : BufTy).Contents (Elt F)) : (⟨S100000x64, .f32⟩ : BufTy).Contents (Elt F) :=
  scatterRows rows (mulf (gatherCols cols x) (weightsWide w))

/-- The edge an entry of the message array belongs to. -/
def edgeOf (i : S3200000x64.Idx) : S3200000.Idx := fun a => match a with
  | ⟨0, _⟩ => ⟨(i 0).val, (i 0).isLt⟩

/-- The weights column at the row of an entry is the weight of the entry's edge. -/
theorem weightsCol_apply (w : (⟨S3200000, .f32⟩ : BufTy).Contents (Elt F)) (i : S3200000x64.Idx) :
    weightsCol w (Scale.rowOf i) = w (edgeOf i) := by
  unfold weightsCol
  refine shapeCast_apply w shapeCasts_S3200000_S3200000x1 (Scale.rowOf i) (edgeOf i) ?_
  rw [Shape.rowMajor_val_one, Shape.rowMajor_val_two]
  show (i 0).val = (i 0).val * 1 + 0
  omega

/-- The spread weights at an entry are the weight of the entry's edge. -/
theorem weightsWide_apply (w : (⟨S3200000, .f32⟩ : BufTy).Contents (Elt F)) (i : S3200000x64.Idx) :
    weightsWide w i = w (edgeOf i) := by
  unfold weightsWide
  have h1 := broadcastInDim_apply (![0, 1] : Fin 2 → Fin 2) Cert.ReferenceIdeal.Gen.bcast_S3200000x1_S3200000x64_0_1
    (broadcastInDim S3200000x1 ![0] bcast_S3200000_S3200000x1_0 w) i (Scale.rowOf i) (fun a => match a with
      | ⟨0, _⟩ => by show (i 0).val = if (3200000 : Nat) = 1 then 0 else (i 0).val; rw [if_neg (by decide)]
      | ⟨1, _⟩ => by show (0 : Nat) = if (1 : Nat) = 1 then 0 else (i 1).val; rw [if_pos rfl])
  have h2 := broadcastInDim_apply (![0] : Fin 1 → Fin 2) bcast_S3200000_S3200000x1_0 w (Scale.rowOf i) (edgeOf i) (fun a => match a with
      | ⟨0, _⟩ => by show (i 0).val = if (3200000 : Nat) = 1 then 0 else (i 0).val; rw [if_neg (by decide)])
  exact h1.trans h2

/-- THE FIRST BRIDGE: the two layer steps are one function. -/
theorem layer_eq (rows cols : (⟨S3200000, .i32⟩ : BufTy).Contents (Elt F)) (w : (⟨S3200000, .f32⟩ : BufTy).Contents (Elt F)) (x : (⟨S100000x64, .f32⟩ : BufTy).Contents (Elt F)) :
    layerK rows cols w x = layerR rows cols w x := by
  unfold layerK layerR
  refine congrArg (scatterRows rows) (funext fun i => ?_)
  show FloatOps.mulf (gatherCols cols x i) (weightsCol w (Scale.rowOf i)) = FloatOps.mulf (gatherCols cols x i) (weightsWide w i)
  rw [weightsCol_apply, weightsWide_apply]

/-- The rows of the pooled table's first half that the user indices name. -/
def pickUsers (p : (⟨S100000x64, .f32⟩ : BufTy).Contents (Elt F)) (u : (⟨S4096, .i32⟩ : BufTy).Contents (Elt F)) : (⟨S4096x64, .f32⟩ : BufTy).Contents (Elt F) :=
  Host.gather gather_S50000x64_S4096x1_S4096x64_1_0_n_n_0_1_164
    (extractStridedSlice S50000x64 ![0, 0] p slices_S100000x64_S50000x64_0_0)
    (broadcastInDim S4096x1 ![0] bcast_S4096_S4096x1_0
      (select (cmpi .slt u (broadcastInDim S4096 ![] bcast_S_S4096 (constantI S_ 32 0#32)))
        (addi u (broadcastInDim S4096 ![] bcast_S_S4096 (constantI S_ 32 50000#32))) u))

/-- The rows of the pooled table's second half that the item indices name. -/
def pickItems (p : (⟨S100000x64, .f32⟩ : BufTy).Contents (Elt F)) (v : (⟨S4096, .i32⟩ : BufTy).Contents (Elt F)) : (⟨S4096x64, .f32⟩ : BufTy).Contents (Elt F) :=
  Host.gather gather_S50000x64_S4096x1_S4096x64_1_0_n_n_0_1_164
    (extractStridedSlice S50000x64 ![50000, 0] p slices_S100000x64_S50000x64_50000_0)
    (broadcastInDim S4096x1 ![0] bcast_S4096_S4096x1_0
      (select (cmpi .slt v (broadcastInDim S4096 ![] bcast_S_S4096 (constantI S_ 32 0#32)))
        (addi v (broadcastInDim S4096 ![] bcast_S_S4096 (constantI S_ 32 50000#32))) v))

/-- The kernel's score: the region's [4096, 1] column of row sums, reshaped to [4096]. -/
def scoreK (u v : (⟨S4096x64, .f32⟩ : BufTy).Contents (Elt F)) : (⟨S4096, .f32⟩ : BufTy).Contents (Elt F) :=
  shapeCast _ (k5_pay1 u v) shapeCasts_S4096x1_S4096

end Cert.KernelIdeal.Stages

namespace Cert.ReferenceIdeal.Stages

open Cert.ReferenceIdeal Cert.ReferenceIdeal.Gen Idealize.ShloMosaic Idealize.ShloMosaic.TcCoe

variable {F : FTy → Type} [FloatOps F]

/-- A layer as one slice of the stack: [100000, 64] read as [100000, 1, 64]. -/
def asSlice (x : (⟨S100000x64, .f32⟩ : BufTy).Contents (Elt F)) : (⟨S100000x1x64, .f32⟩ : BufTy).Contents (Elt F) :=
  broadcastInDim S100000x1x64 ![0, 2] bcast_S100000x64_S100000x1x64_0_2 x

/-- The reference's mean: the five layers stacked along a new axis, summed along it from zero, divided by 5.0. -/
def meanR (a b c d e : (⟨S100000x64, .f32⟩ : BufTy).Contents (Elt F)) : (⟨S100000x64, .f32⟩ : BufTy).Contents (Elt F) :=
  Host.divf
    (Host.reduceAdd
      (concatenate S100000x5x64 1 [⟨S100000x1x64, asSlice a⟩, ⟨S100000x1x64, asSlice b⟩, ⟨S100000x1x64, asSlice c⟩, ⟨S100000x1x64, asSlice d⟩, ⟨S100000x1x64, asSlice e⟩]
        concatenates_S100000x1x64_S100000x1x64_S100000x1x64_S100000x1x64_S100000x1x64_S100000x5x64_d1)
      (constant S_ .f32 0x00000000#32) reducesTo_S100000x5x64_S100000x64_d1 h_S_)
    (broadcastInDim S100000x64 ![] bcast_S_S100000x64 (constant S_ .f32 0x40A00000#32))

/-- The reference's score: the two [4096, 64] operands multiplied entry by entry, each row summed from zero. -/
def scoreR (u v : (⟨S4096x64, .f32⟩ : BufTy).Contents (Elt F)) : (⟨S4096, .f32⟩ : BufTy).Contents (Elt F) :=
  Host.reduceAdd (mulf u v) (constant S_ .f32 0x00000000#32) reducesTo_S4096x64_S4096_d1 h_S_

end Cert.ReferenceIdeal.Stages

end
-- ==== Proof.ScaleRegion0.lean ====
/-
  Scaling region 0: the array it leaves is the whole-array rule `Scale.scaled` of the two arrays it reads.

  The grid has 500 points; point t reads rows 6400·t … 6400·t + 6399 of the messages and of the weights column and
  writes the same rows of the result. So what point t writes back is block t of the rule applied to the whole arrays,
  and since the 500 blocks tile the 3,200,000 rows, the result array ends holding the rule everywhere.
  Stated at any contents `V` the region may be entered with.
-/
import proofs.«156087_j3118146257022_1_alg».proof.Proof.Gen.KernelIdeal.Frame
import proofs.«156087_j3118146257022_1_alg».proof.Proof.ScaleSpec
import Idealize.ShloMosaic.Lib.Pipeline.Value

set_option maxRecDepth 16384

noncomputable section

namespace Cert.KernelIdeal.Scale

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

/-- The three windows move together: at point t each is at block row t, block column 0. Decided over the grid. -/
theorem grid_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The body's stored value at an entry of the block: the message entry times its row's weight. -/
theorem pay0_apply (x0 : Vec F S6400x64 .f32) (x1 : Vec F S6400x1 .f32) (y : S6400x64.Idx) :
    k0_pay1 x0 x1 y = FloatOps.mulf (x0 y) (x1 (rowOfBlk y)) := by
  unfold k0_pay1
  exact block_scaled x0 x1 _ _ _ y

/-- What point t writes back is block t of the rule applied to the arrays the region found. -/
theorem flushed0 (c : Dev nD) (t : Fin cfg0.N) :
    (dat0 V c).flushed 2 t = ((cfg0.win 2).blk t).view.read (Elt F) (scaled (V c main_v40) (V c main_v41)) := by
  show (cfg0.win 2).cut (grid0.coords t) ((dat0 V c).after 2 t) = _
  rw [after0_2]
  unfold out0_2
  rw [View.canon_unit_zero origin2]
  simp only [View.ld_unit_zero (S := S6400x64) origin2, View.ld_unit_zero (S := S6400x1) origin2]
  obtain ⟨e0, e1, e2, e3, e4, e5⟩ := grid_facts0 t
  funext j
  show k0_pay1 (iblk0 V c 0 t) (iblk0 V c 1 t) j = scaled (V c main_v40) (V c main_v41) (((cfg0.win 2).blk t).view.emb j)
  refine (pay0_apply (iblk0 V c 0 t) (iblk0 V c 1 t) j).trans ?_
  show FloatOps.mulf (V c main_v40 (((cfg0.win 0).blk t).view.emb j)) (V c main_v41 (((cfg0.win 1).blk t).view.emb (rowOfBlk j)))
     = FloatOps.mulf (V c main_v40 (((cfg0.win 2).blk t).view.emb j)) (V c main_v41 (rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 6400 + 1 * (j 0).val = win0_2.index t (0 : Fin 2) * 6400 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (rowOfBlk j) = rowOf (((cfg0.win 2).blk t).view.emb j) := by
    funext a; apply Fin.ext
    match a with
    | ⟨0, _⟩ => show win0_1.index t (0 : Fin 2) * 6400 + 1 * (j 0).val = win0_2.index t (0 : Fin 2) * 6400 + 1 * (j 0).val; omega
    | ⟨1, _⟩ => show win0_1.index t (1 : Fin 2) * 1 + 1 * 0 = 0; omega
  rw [h0, h1]

/-- An entry of the result array is in point t's block iff its row is among the block's 6400 rows. -/
theorem mem_blk0 (t : Fin cfg0.N) (i : S3200000x64.Idx) :
    i ∈ ((cfg0.win 2).blk t).view.set ↔ ∀ a : Fin 2, win0_2.index t a * S6400x64.size a ≤ (i a).val ∧ (i a).val < win0_2.index t a * S6400x64.size a + S6400x64.size a := by
  show i ∈ ((View.whole main_v42).slice (win0_2.rect t)).set ↔ _
  rw [View.set_slice_whole, Rect.mem_set_unit]
  exact Iff.rfl

/-- Every entry is in some point's block: row r is in block r / 6400. -/
theorem cover0 (i : S3200000x64.Idx) :
    ∃ t : Fin cfg0.N, (cfg0.win 2).flush t = true ∧ i ∈ ((cfg0.win 2).blk t).view.set := by
  have hN : grid0.N = 500 := N_0
  have hi0 : (i 0).val < 3200000 := (i 0).isLt
  have hi1 : (i 1).val < 64 := (i 1).isLt
  have hlt : (i 0).val / 6400 < grid0.N := by rw [hN]; omega
  refine ⟨⟨(i 0).val / 6400, hlt⟩, flush0_2 _, ?_⟩
  rw [mem_blk0]
  obtain ⟨e0, e1, e2, e3, e4, e5⟩ := grid_facts0 ⟨(i 0).val / 6400, hlt⟩
  have e4' : win0_2.index ⟨(i 0).val / 6400, hlt⟩ (0 : Fin 2) = (i 0).val / 6400 := e4
  intro a
  match a with
  | ⟨0, _⟩ =>
    show win0_2.index ⟨(i 0).val / 6400, hlt⟩ (0 : Fin 2) * 6400 ≤ (i 0).val ∧ (i 0).val < win0_2.index ⟨(i 0).val / 6400, hlt⟩ (0 : Fin 2) * 6400 + 6400
    omega
  | ⟨1, _⟩ =>
    show win0_2.index ⟨(i 0).val / 6400, hlt⟩ (1 : Fin 2) * 64 ≤ (i 1).val ∧ (i 1).val < win0_2.index ⟨(i 0).val / 6400, hlt⟩ (1 : Fin 2) * 64 + 64
    omega

/-- The result array after the region: every message entry times the weight of its edge. -/
theorem final0 (c : Dev nD) : (dat0 V c).arrAt 2 cfg0.N = scaled (V c main_v40) (V c main_v41) :=
  (dat0 V c).arrAt_eq_of_cover 2 (scaled (V c main_v40) (V c main_v41)) (fun t _ => flushed0 V c t) (cover0)

end Cert.KernelIdeal.Scale

end
-- ==== Proof.ScaleRegion1.lean ====
/-
  Scaling region 1: the array it leaves is the whole-array rule `Scale.scaled` of the two arrays it reads.

  The grid has 500 points; point t reads rows 6400·t … 6400·t + 6399 of the messages and of the weights column and
  writes the same rows of the result. So what point t writes back is block t of the rule applied to the whole arrays,
  and since the 500 blocks tile the 3,200,000 rows, the result array ends holding the rule everywhere.
  Stated at any contents `V` the region may be entered with.
-/
import proofs.«156087_j3118146257022_1_alg».proof.Proof.Gen.KernelIdeal.Frame
import proofs.«156087_j3118146257022_1_alg».proof.Proof.ScaleSpec
import Idealize.ShloMosaic.Lib.Pipeline.Value

set_option maxRecDepth 16384

noncomputable section

namespace Cert.KernelIdeal.Scale

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

/-- The three windows move together: at point t each is at block row t, block column 0. Decided over the grid. -/
theorem grid_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's stored value at an entry of the block: the message entry times its row's weight. -/
theorem pay1_apply (x0 : Vec F S6400x64 .f32) (x1 : Vec F S6400x1 .f32) (y : S6400x64.Idx) :
    k1_pay1 x0 x1 y = FloatOps.mulf (x0 y) (x1 (rowOfBlk y)) := by
  unfold k1_pay1
  exact block_scaled x0 x1 _ _ _ y

/-- What point t writes back is block t of the rule applied to the arrays the region found. -/
theorem flushed1 (c : Dev nD) (t : Fin cfg1.N) :
    (dat1 V c).flushed 2 t = ((cfg1.win 2).blk t).view.read (Elt F) (scaled (V c main_v52) (V c main_v53)) := by
  show (cfg1.win 2).cut (grid1.coords t) ((dat1 V c).after 2 t) = _
  rw [after1_2]
  unfold out1_2
  rw [View.canon_unit_zero origin2]
  simp only [View.ld_unit_zero (S := S6400x64) origin2, View.ld_unit_zero (S := S6400x1) origin2]
  obtain ⟨e0, e1, e2, e3, e4, e5⟩ := grid_facts1 t
  funext j
  show k1_pay1 (iblk1 V c 0 t) (iblk1 V c 1 t) j = scaled (V c main_v52) (V c main_v53) (((cfg1.win 2).blk t).view.emb j)
  refine (pay1_apply (iblk1 V c 0 t) (iblk1 V c 1 t) j).trans ?_
  show FloatOps.mulf (V c main_v52 (((cfg1.win 0).blk t).view.emb j)) (V c main_v53 (((cfg1.win 1).blk t).view.emb (rowOfBlk j)))
     = FloatOps.mulf (V c main_v52 (((cfg1.win 2).blk t).view.emb j)) (V c main_v53 (rowOf (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 6400 + 1 * (j 0).val = win1_2.index t (0 : Fin 2) * 6400 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (rowOfBlk j) = rowOf (((cfg1.win 2).blk t).view.emb j) := by
    funext a; apply Fin.ext
    match a with
    | ⟨0, _⟩ => show win1_1.index t (0 : Fin 2) * 6400 + 1 * (j 0).val = win1_2.index t (0 : Fin 2) * 6400 + 1 * (j 0).val; omega
    | ⟨1, _⟩ => show win1_1.index t (1 : Fin 2) * 1 + 1 * 0 = 0; omega
  rw [h0, h1]

/-- An entry of the result array is in point t's block iff its row is among the block's 6400 rows. -/
theorem mem_blk1 (t : Fin cfg1.N) (i : S3200000x64.Idx) :
    i ∈ ((cfg1.win 2).blk t).view.set ↔ ∀ a : Fin 2, win1_2.index t a * S6400x64.size a ≤ (i a).val ∧ (i a).val < win1_2.index t a * S6400x64.size a + S6400x64.size a := by
  show i ∈ ((View.whole main_v54).slice (win1_2.rect t)).set ↔ _
  rw [View.set_slice_whole, Rect.mem_set_unit]
  exact Iff.rfl

/-- Every entry is in some point's block: row r is in block r / 6400. -/
theorem cover1 (i : S3200000x64.Idx) :
    ∃ t : Fin cfg1.N, (cfg1.win 2).flush t = true ∧ i ∈ ((cfg1.win 2).blk t).view.set := by
  have hN : grid1.N = 500 := N_1
  have hi0 : (i 0).val < 3200000 := (i 0).isLt
  have hi1 : (i 1).val < 64 := (i 1).isLt
  have hlt : (i 0).val / 6400 < grid1.N := by rw [hN]; omega
  refine ⟨⟨(i 0).val / 6400, hlt⟩, flush1_2 _, ?_⟩
  rw [mem_blk1]
  obtain ⟨e0, e1, e2, e3, e4, e5⟩ := grid_facts1 ⟨(i 0).val / 6400, hlt⟩
  have e4' : win1_2.index ⟨(i 0).val / 6400, hlt⟩ (0 : Fin 2) = (i 0).val / 6400 := e4
  intro a
  match a with
  | ⟨0, _⟩ =>
    show win1_2.index ⟨(i 0).val / 6400, hlt⟩ (0 : Fin 2) * 6400 ≤ (i 0).val ∧ (i 0).val < win1_2.index ⟨(i 0).val / 6400, hlt⟩ (0 : Fin 2) * 6400 + 6400
    omega
  | ⟨1, _⟩ =>
    show win1_2.index ⟨(i 0).val / 6400, hlt⟩ (1 : Fin 2) * 64 ≤ (i 1).val ∧ (i 1).val < win1_2.index ⟨(i 0).val / 6400, hlt⟩ (1 : Fin 2) * 64 + 64
    omega

/-- The result array after the region: every message entry times the weight of its edge. -/
theorem final1 (c : Dev nD) : (dat1 V c).arrAt 2 cfg1.N = scaled (V c main_v52) (V c main_v53) :=
  (dat1 V c).arrAt_eq_of_cover 2 (scaled (V c main_v52) (V c main_v53)) (fun t _ => flushed1 V c t) (cover1)

end Cert.KernelIdeal.Scale

end
-- ==== Proof.ScaleRegion2.lean ====
/-
  Scaling region 2: the array it leaves is the whole-array rule `Scale.scaled` of the two arrays it reads.

  The grid has 500 points; point t reads rows 6400·t … 6400·t + 6399 of the messages and of the weights column and
  writes the same rows of the result. So what point t writes back is block t of the rule applied to the whole arrays,
  and since the 500 blocks tile the 3,200,000 rows, the result array ends holding the rule everywhere.
  Stated at any contents `V` the region may be entered with.
-/
import proofs.«156087_j3118146257022_1_alg».proof.Proof.Gen.KernelIdeal.Frame
import proofs.«156087_j3118146257022_1_alg».proof.Proof.ScaleSpec
import Idealize.ShloMosaic.Lib.Pipeline.Value

set_option maxRecDepth 16384

noncomputable section

namespace Cert.KernelIdeal.Scale

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

/-- The three windows move together: at point t each is at block row t, block column 0. Decided over the grid. -/
theorem grid_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The body's stored value at an entry of the block: the message entry times its row's weight. -/
theorem pay2_apply (x0 : Vec F S6400x64 .f32) (x1 : Vec F S6400x1 .f32) (y : S6400x64.Idx) :
    k2_pay1 x0 x1 y = FloatOps.mulf (x0 y) (x1 (rowOfBlk y)) := by
  unfold k2_pay1
  exact block_scaled x0 x1 _ _ _ y

/-- What point t writes back is block t of the rule applied to the arrays the region found. -/
theorem flushed2 (c : Dev nD) (t : Fin cfg2.N) :
    (dat2 V c).flushed 2 t = ((cfg2.win 2).blk t).view.read (Elt F) (scaled (V c main_v64) (V c main_v65)) := by
  show (cfg2.win 2).cut (grid2.coords t) ((dat2 V c).after 2 t) = _
  rw [after2_2]
  unfold out2_2
  rw [View.canon_unit_zero origin2]
  simp only [View.ld_unit_zero (S := S6400x64) origin2, View.ld_unit_zero (S := S6400x1) origin2]
  obtain ⟨e0, e1, e2, e3, e4, e5⟩ := grid_facts2 t
  funext j
  show k2_pay1 (iblk2 V c 0 t) (iblk2 V c 1 t) j = scaled (V c main_v64) (V c main_v65) (((cfg2.win 2).blk t).view.emb j)
  refine (pay2_apply (iblk2 V c 0 t) (iblk2 V c 1 t) j).trans ?_
  show FloatOps.mulf (V c main_v64 (((cfg2.win 0).blk t).view.emb j)) (V c main_v65 (((cfg2.win 1).blk t).view.emb (rowOfBlk j)))
     = FloatOps.mulf (V c main_v64 (((cfg2.win 2).blk t).view.emb j)) (V c main_v65 (rowOf (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 6400 + 1 * (j 0).val = win2_2.index t (0 : Fin 2) * 6400 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (rowOfBlk j) = rowOf (((cfg2.win 2).blk t).view.emb j) := by
    funext a; apply Fin.ext
    match a with
    | ⟨0, _⟩ => show win2_1.index t (0 : Fin 2) * 6400 + 1 * (j 0).val = win2_2.index t (0 : Fin 2) * 6400 + 1 * (j 0).val; omega
    | ⟨1, _⟩ => show win2_1.index t (1 : Fin 2) * 1 + 1 * 0 = 0; omega
  rw [h0, h1]

/-- An entry of the result array is in point t's block iff its row is among the block's 6400 rows. -/
theorem mem_blk2 (t : Fin cfg2.N) (i : S3200000x64.Idx) :
    i ∈ ((cfg2.win 2).blk t).view.set ↔ ∀ a : Fin 2, win2_2.index t a * S6400x64.size a ≤ (i a).val ∧ (i a).val < win2_2.index t a * S6400x64.size a + S6400x64.size a := by
  show i ∈ ((View.whole main_v66).slice (win2_2.rect t)).set ↔ _
  rw [View.set_slice_whole, Rect.mem_set_unit]
  exact Iff.rfl

/-- Every entry is in some point's block: row r is in block r / 6400. -/
theorem cover2 (i : S3200000x64.Idx) :
    ∃ t : Fin cfg2.N, (cfg2.win 2).flush t = true ∧ i ∈ ((cfg2.win 2).blk t).view.set := by
  have hN : grid2.N = 500 := N_2
  have hi0 : (i 0).val < 3200000 := (i 0).isLt
  have hi1 : (i 1).val < 64 := (i 1).isLt
  have hlt : (i 0).val / 6400 < grid2.N := by rw [hN]; omega
  refine ⟨⟨(i 0).val / 6400, hlt⟩, flush2_2 _, ?_⟩
  rw [mem_blk2]
  obtain ⟨e0, e1, e2, e3, e4, e5⟩ := grid_facts2 ⟨(i 0).val / 6400, hlt⟩
  have e4' : win2_2.index ⟨(i 0).val / 6400, hlt⟩ (0 : Fin 2) = (i 0).val / 6400 := e4
  intro a
  match a with
  | ⟨0, _⟩ =>
    show win2_2.index ⟨(i 0).val / 6400, hlt⟩ (0 : Fin 2) * 6400 ≤ (i 0).val ∧ (i 0).val < win2_2.index ⟨(i 0).val / 6400, hlt⟩ (0 : Fin 2) * 6400 + 6400
    omega
  | ⟨1, _⟩ =>
    show win2_2.index ⟨(i 0).val / 6400, hlt⟩ (1 : Fin 2) * 64 ≤ (i 1).val ∧ (i 1).val < win2_2.index ⟨(i 0).val / 6400, hlt⟩ (1 : Fin 2) * 64 + 64
    omega

/-- The result array after the region: every message entry times the weight of its edge. -/
theorem final2 (c : Dev nD) : (dat2 V c).arrAt 2 cfg2.N = scaled (V c main_v64) (V c main_v65) :=
  (dat2 V c).arrAt_eq_of_cover 2 (scaled (V c main_v64) (V c main_v65)) (fun t _ => flushed2 V c t) (cover2)

end Cert.KernelIdeal.Scale

end
-- ==== Proof.ScaleRegion3.lean ====
/-
  Scaling region 3: the array it leaves is the whole-array rule `Scale.scaled` of the two arrays it reads.

  The grid has 500 points; point t reads rows 6400·t … 6400·t + 6399 of the messages and of the weights column and
  writes the same rows of the result. So what point t writes back is block t of the rule applied to the whole arrays,
  and since the 500 blocks tile the 3,200,000 rows, the result array ends holding the rule everywhere.
  Stated at any contents `V` the region may be entered with.
-/
import proofs.«156087_j3118146257022_1_alg».proof.Proof.Gen.KernelIdeal.Frame
import proofs.«156087_j3118146257022_1_alg».proof.Proof.ScaleSpec
import Idealize.ShloMosaic.Lib.Pipeline.Value

set_option maxRecDepth 16384

noncomputable section

namespace Cert.KernelIdeal.Scale

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

/-- The three windows move together: at point t each is at block row t, block column 0. Decided over the grid. -/
theorem grid_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The body's stored value at an entry of the block: the message entry times its row's weight. -/
theorem pay3_apply (x0 : Vec F S6400x64 .f32) (x1 : Vec F S6400x1 .f32) (y : S6400x64.Idx) :
    k3_pay1 x0 x1 y = FloatOps.mulf (x0 y) (x1 (rowOfBlk y)) := by
  unfold k3_pay1
  exact block_scaled x0 x1 _ _ _ y

/-- What point t writes back is block t of the rule applied to the arrays the region found. -/
theorem flushed3 (c : Dev nD) (t : Fin cfg3.N) :
    (dat3 V c).flushed 2 t = ((cfg3.win 2).blk t).view.read (Elt F) (scaled (V c main_v76) (V c main_v77)) := by
  show (cfg3.win 2).cut (grid3.coords t) ((dat3 V c).after 2 t) = _
  rw [after3_2]
  unfold out3_2
  rw [View.canon_unit_zero origin2]
  simp only [View.ld_unit_zero (S := S6400x64) origin2, View.ld_unit_zero (S := S6400x1) origin2]
  obtain ⟨e0, e1, e2, e3, e4, e5⟩ := grid_facts3 t
  funext j
  show k3_pay1 (iblk3 V c 0 t) (iblk3 V c 1 t) j = scaled (V c main_v76) (V c main_v77) (((cfg3.win 2).blk t).view.emb j)
  refine (pay3_apply (iblk3 V c 0 t) (iblk3 V c 1 t) j).trans ?_
  show FloatOps.mulf (V c main_v76 (((cfg3.win 0).blk t).view.emb j)) (V c main_v77 (((cfg3.win 1).blk t).view.emb (rowOfBlk j)))
     = FloatOps.mulf (V c main_v76 (((cfg3.win 2).blk t).view.emb j)) (V c main_v77 (rowOf (((cfg3.win 2).blk t).view.emb j)))
  have h0 : ((cfg3.win 0).blk t).view.emb j = ((cfg3.win 2).blk t).view.emb j := by
    funext a; apply Fin.ext
    match a with
    | ⟨0, _⟩ => show win3_0.index t (0 : Fin 2) * 6400 + 1 * (j 0).val = win3_2.index t (0 : Fin 2) * 6400 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (rowOfBlk j) = rowOf (((cfg3.win 2).blk t).view.emb j) := by
    funext a; apply Fin.ext
    match a with
    | ⟨0, _⟩ => show win3_1.index t (0 : Fin 2) * 6400 + 1 * (j 0).val = win3_2.index t (0 : Fin 2) * 6400 + 1 * (j 0).val; omega
    | ⟨1, _⟩ => show win3_1.index t (1 : Fin 2) * 1 + 1 * 0 = 0; omega
  rw [h0, h1]

/-- An entry of the result array is in point t's block iff its row is among the block's 6400 rows. -/
theorem mem_blk3 (t : Fin cfg3.N) (i : S3200000x64.Idx) :
    i ∈ ((cfg3.win 2).blk t).view.set ↔ ∀ a : Fin 2, win3_2.index t a * S6400x64.size a ≤ (i a).val ∧ (i a).val < win3_2.index t a * S6400x64.size a + S6400x64.size a := by
  show i ∈ ((View.whole main_v78).slice (win3_2.rect t)).set ↔ _
  rw [View.set_slice_whole, Rect.mem_set_unit]
  exact Iff.rfl

/-- Every entry is in some point's block: row r is in block r / 6400. -/
theorem cover3 (i : S3200000x64.Idx) :
    ∃ t : Fin cfg3.N, (cfg3.win 2).flush t = true ∧ i ∈ ((cfg3.win 2).blk t).view.set := by
  have hN : grid3.N = 500 := N_3
  have hi0 : (i 0).val < 3200000 := (i 0).isLt
  have hi1 : (i 1).val < 64 := (i 1).isLt
  have hlt : (i 0).val / 6400 < grid3.N := by rw [hN]; omega
  refine ⟨⟨(i 0).val / 6400, hlt⟩, flush3_2 _, ?_⟩
  rw [mem_blk3]
  obtain ⟨e0, e1, e2, e3, e4, e5⟩ := grid_facts3 ⟨(i 0).val / 6400, hlt⟩
  have e4' : win3_2.index ⟨(i 0).val / 6400, hlt⟩ (0 : Fin 2) = (i 0).val / 6400 := e4
  intro a
  match a with
  | ⟨0, _⟩ =>
    show win3_2.index ⟨(i 0).val / 6400, hlt⟩ (0 : Fin 2) * 6400 ≤ (i 0).val ∧ (i 0).val < win3_2.index ⟨(i 0).val / 6400, hlt⟩ (0 : Fin 2) * 6400 + 6400
    omega
  | ⟨1, _⟩ =>
    show win3_2.index ⟨(i 0).val / 6400, hlt⟩ (1 : Fin 2) * 64 ≤ (i 1).val ∧ (i 1).val < win3_2.index ⟨(i 0).val / 6400, hlt⟩ (1 : Fin 2) * 64 + 64
    omega

/-- The result array after the region: every message entry times the weight of its edge. -/
theorem final3 (c : Dev nD) : (dat3 V c).arrAt 2 cfg3.N = scaled (V c main_v76) (V c main_v77) :=
  (dat3 V c).arrAt_eq_of_cover 2 (scaled (V c main_v76) (V c main_v77)) (fun t _ => flushed3 V c t) (cover3)

end Cert.KernelIdeal.Scale

end
-- ==== Proof.PoolRegion.lean ====
/-
  The mean-pool region: the array it leaves is, entry by entry, the five layers added left to right and multiplied by
  the named constant (which denotes 1/5 at the ideal instance).

  The grid has 50 points; point t reads rows 2000·t … 2000·t + 1999 of each of the five layers and writes the same
  rows of the result. So what point t writes back is block t of the entrywise rule applied to the whole arrays, and
  since the 50 blocks tile the 100,000 rows the result array ends holding the rule everywhere.
  Stated at any contents `V` the region may be entered with, and at any float instance.
-/
import proofs.«156087_j3118146257022_1_alg».proof.Proof.Gen.KernelIdeal.Frame
import proofs.«156087_j3118146257022_1_alg».proof.Proof.ScaleSpec
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.SL.Sem
open Idealize.ShloMosaic.Pipeline (Dat)
open Cert.KernelIdeal.Scale (origin2)

variable {F : FTy → Type} [FloatOps F] [Named F]
variable (V : (c : Dev nD) → (b : Ref sig .tc) → Buf (Elt F) ((c : Thread nD τ).loc b))

/-- The five layers added left to right, times the named fifth, entry by entry. -/
def pooled (a b c d e : S100000x64.Idx → Elt F .f32) : S100000x64.Idx → Elt F .f32 :=
  fun i => FloatOps.mulf (FloatOps.addf (FloatOps.addf (FloatOps.addf (FloatOps.addf (a i) (b i)) (c i)) (d i)) (e i))
    (Named.named κ "inv_5" (φ := .f32) 0x3E4CCCCD#32)

/-- All six windows move together: at point t each is at block row t, block column 0. Decided over the grid. -/
theorem grid_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The body's stored value at an entry of the block: the five blocks' entries added, times the named fifth.
    (The casts are to the shape the operand already has; the constant is spread over the block.) -/
theorem pay_apply (x0 x1 x2 x3 x4 : Vec F S2000x64 .f32) (y : S2000x64.Idx) :
    k4_pay1 x0 x1 x2 x3 x4 y = FloatOps.mulf (FloatOps.addf (FloatOps.addf (FloatOps.addf (FloatOps.addf (x0 y) (x1 y)) (x2 y)) (x3 y)) (x4 y))
      (Named.named κ "inv_5" (φ := .f32) 0x3E4CCCCD#32) := by
  unfold k4_pay1
  simp only [shapeCast_self]
  rfl

/-- What point t writes back is block t of the rule applied to the arrays the region found. -/
theorem flushed (c : Dev nD) (t : Fin cfg4.N) :
    (dat4 V c).flushed 5 t = ((cfg4.win 5).blk t).view.read (Elt F)
      (pooled (V c main_v33) (V c main_v45) (V c main_v57) (V c main_v69) (V c main_v81)) := by
  show (cfg4.win 5).cut (grid4.coords t) ((dat4 V c).after 5 t) = _
  rw [after4_5]
  unfold out4_5
  rw [View.canon_unit_zero origin2]
  simp only [View.ld_unit_zero (S := S2000x64) origin2]
  obtain ⟨a0, a1, b0, b1, c0, c1, d0, d1, e0, e1, o0, o1⟩ := grid_facts t
  funext j
  show k4_pay1 (iblk4 V c 0 t) (iblk4 V c 1 t) (iblk4 V c 2 t) (iblk4 V c 3 t) (iblk4 V c 4 t) j
     = pooled (V c main_v33) (V c main_v45) (V c main_v57) (V c main_v69) (V c main_v81) (((cfg4.win 5).blk t).view.emb j)
  refine (pay_apply (iblk4 V c 0 t) (iblk4 V c 1 t) (iblk4 V c 2 t) (iblk4 V c 3 t) (iblk4 V c 4 t) j).trans ?_
  show FloatOps.mulf (FloatOps.addf (FloatOps.addf (FloatOps.addf (FloatOps.addf
        (V c main_v33 (((cfg4.win 0).blk t).view.emb j)) (V c main_v45 (((cfg4.win 1).blk t).view.emb j)))
        (V c main_v57 (((cfg4.win 2).blk t).view.emb j))) (V c main_v69 (((cfg4.win 3).blk t).view.emb j)))
        (V c main_v81 (((cfg4.win 4).blk t).view.emb j))) (Named.named κ "inv_5" (φ := .f32) 0x3E4CCCCD#32)
     = FloatOps.mulf (FloatOps.addf (FloatOps.addf (FloatOps.addf (FloatOps.addf
        (V c main_v33 (((cfg4.win 5).blk t).view.emb j)) (V c main_v45 (((cfg4.win 5).blk t).view.emb j)))
        (V c main_v57 (((cfg4.win 5).blk t).view.emb j))) (V c main_v69 (((cfg4.win 5).blk t).view.emb j)))
        (V c main_v81 (((cfg4.win 5).blk t).view.emb j))) (Named.named κ "inv_5" (φ := .f32) 0x3E4CCCCD#32)
  have h0 : ((cfg4.win 0).blk t).view.emb j = ((cfg4.win 5).blk t).view.emb j := by
    funext a; apply Fin.ext
    match a with
    | ⟨0, _⟩ => show win4_0.index t (0 : Fin 2) * 2000 + 1 * (j 0).val = win4_5.index t (0 : Fin 2) * 2000 + 1 * (j 0).val; omega
    | ⟨1, _⟩ => show win4_0.index t (1 : Fin 2) * 64 + 1 * (j 1).val = win4_5.index t (1 : Fin 2) * 64 + 1 * (j 1).val; omega
  have h1 : ((cfg4.win 1).blk t).view.emb j = ((cfg4.win 5).blk t).view.emb j := by
    funext a; apply Fin.ext
    match a with
    | ⟨0, _⟩ => show win4_1.index t (0 : Fin 2) * 2000 + 1 * (j 0).val = win4_5.index t (0 : Fin 2) * 2000 + 1 * (j 0).val; omega
    | ⟨1, _⟩ => show win4_1.index t (1 : Fin 2) * 64 + 1 * (j 1).val = win4_5.index t (1 : Fin 2) * 64 + 1 * (j 1).val; omega
  have h2 : ((cfg4.win 2).blk t).view.emb j = ((cfg4.win 5).blk t).view.emb j := by
    funext a; apply Fin.ext
    match a with
    | ⟨0, _⟩ => show win4_2.index t (0 : Fin 2) * 2000 + 1 * (j 0).val = win4_5.index t (0 : Fin 2) * 2000 + 1 * (j 0).val; omega
    | ⟨1, _⟩ => show win4_2.index t (1 : Fin 2) * 64 + 1 * (j 1).val = win4_5.index t (1 : Fin 2) * 64 + 1 * (j 1).val; omega
  have h3 : ((cfg4.win 3).blk t).view.emb j = ((cfg4.win 5).blk t).view.emb j := by
    funext a; apply Fin.ext
    match a with
    | ⟨0, _⟩ => show win4_3.index t (0 : Fin 2) * 2000 + 1 * (j 0).val = win4_5.index t (0 : Fin 2) * 2000 + 1 * (j 0).val; omega
    | ⟨1, _⟩ => show win4_3.index t (1 : Fin 2) * 64 + 1 * (j 1).val = win4_5.index t (1 : Fin 2) * 64 + 1 * (j 1).val; omega
  have h4 : ((cfg4.win 4).blk t).view.emb j = ((cfg4.win 5).blk t).view.emb j := by
    funext a; apply Fin.ext
    match a with
    | ⟨0, _⟩ => show win4_4.index t (0 : Fin 2) * 2000 + 1 * (j 0).val = win4_5.index t (0 : Fin 2) * 2000 + 1 * (j 0).val; omega
    | ⟨1, _⟩ => show win4_4.index t (1 : Fin 2) * 64 + 1 * (j 1).val = win4_5.index t (1 : Fin 2) * 64 + 1 * (j 1).val; omega
  rw [h0, h1, h2, h3, h4]

/-- An entry of the result array is in point t's block iff its row is among the block's 2000 rows. -/
theorem mem_blk (t : Fin cfg4.N) (i : S100000x64.Idx) :
    i ∈ ((cfg4.win 5).blk t).view.set ↔ ∀ a : Fin 2, win4_5.index t a * S2000x64.size a ≤ (i a).val ∧ (i a).val < win4_5.index t a * S2000x64.size a + S2000x64.size a := by
  show i ∈ ((View.whole main_v82).slice (win4_5.rect t)).set ↔ _
  rw [View.set_slice_whole, Rect.mem_set_unit]
  exact Iff.rfl

/-- Every entry is in some point's block: row r is in block r / 2000. -/
theorem cover (i : S100000x64.Idx) :
    ∃ t : Fin cfg4.N, (cfg4.win 5).flush t = true ∧ i ∈ ((cfg4.win 5).blk t).view.set := by
  have hN : grid4.N = 50 := N_4
  have hi0 : (i 0).val < 100000 := (i 0).isLt
  have hi1 : (i 1).val < 64 := (i 1).isLt
  have hlt : (i 0).val / 2000 < grid4.N := by rw [hN]; omega
  refine ⟨⟨(i 0).val / 2000, hlt⟩, flush4_5 _, ?_⟩
  rw [mem_blk]
  obtain ⟨a0, a1, b0, b1, c0, c1, d0, d1, e0, e1, o0, o1⟩ := grid_facts ⟨(i 0).val / 2000, hlt⟩
  have o0' : win4_5.index ⟨(i 0).val / 2000, hlt⟩ (0 : Fin 2) = (i 0).val / 2000 := o0
  intro a
  match a with
  | ⟨0, _⟩ =>
    show win4_5.index ⟨(i 0).val / 2000, hlt⟩ (0 : Fin 2) * 2000 ≤ (i 0).val ∧ (i 0).val < win4_5.index ⟨(i 0).val / 2000, hlt⟩ (0 : Fin 2) * 2000 + 2000
    omega
  | ⟨1, _⟩ =>
    show win4_5.index ⟨(i 0).val / 2000, hlt⟩ (1 : Fin 2) * 64 ≤ (i 1).val ∧ (i 1).val < win4_5.index ⟨(i 0).val / 2000, hlt⟩ (1 : Fin 2) * 64 + 64
    omega

/-- The result array after the region: the entrywise rule of the five layers. -/
theorem final (c : Dev nD) : (dat4 V c).arrAt 5 cfg4.N
    = pooled (V c main_v33) (V c main_v45) (V c main_v57) (V c main_v69) (V c main_v81) :=
  (dat4 V c).arrAt_eq_of_cover 5 (pooled (V c main_v33) (V c main_v45) (V c main_v57) (V c main_v69) (V c main_v81))
    (fun t _ => flushed V c t) cover

end Cert.KernelIdeal.Pool

end
-- ==== Proof.DotRegion.lean ====
/-
  The dot-product region: one grid point, whose blocks are the whole arrays. The array it leaves is the body's stored
  value — the two [4096, 64] operands multiplied entry by entry, each row summed over its 64 channels, the sums laid
  out as a [4096, 1] column — of the two arrays the region found.
  Stated at any contents `V` the region may be entered with, and at any float instance.
-/
import proofs.«156087_j3118146257022_1_alg».proof.Proof.Gen.KernelIdeal.Frame
import proofs.«156087_j3118146257022_1_alg».proof.Proof.ScaleSpec
import Idealize.ShloMosaic.Lib.Pipeline.Value

set_option maxRecDepth 16384

noncomputable section

namespace Cert.KernelIdeal.Dot

open Cert.KernelIdeal Cert.KernelIdeal.Gen
open Idealize.ShloMosaic Idealize.ShloMosaic.TcCoe Idealize.SL.Sem
open Idealize.ShloMosaic.Pipeline (Dat)
open Cert.KernelIdeal.Scale (origin2)

variable {F : FTy → Type} [FloatOps F] [Named F]
variable (V : (c : Dev nD) → (b : Ref sig .tc) → Buf (Elt F) ((c : Thread nD τ).loc b))

/-- Every window sits at block (0, 0) at the grid's one point. -/
theorem grid_facts : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- The first operand's block is its whole array. -/
theorem in0_whole (c : Dev nD) (t : Fin cfg5.N) :
    (iblk5 V c 0 t : S4096x64.Idx → Elt F .f32) = V c main_v91 := by
  obtain ⟨a0, a1, b0, b1, o0, o1⟩ := grid_facts t
  funext y
  show (V c main_v91 : S4096x64.Idx → Elt F .f32) (((cfg5.win 0).blk t).view.emb y) = (V c main_v91 : S4096x64.Idx → Elt F .f32) y
  refine congrArg (V c main_v91 : S4096x64.Idx → Elt F .f32) ?_
  funext a; apply Fin.ext
  match a with
  | ⟨0, _⟩ => show win5_0.index t (0 : Fin 2) * 4096 + 1 * (y 0).val = (y 0).val; omega
  | ⟨1, _⟩ => show win5_0.index t (1 : Fin 2) * 64 + 1 * (y 1).val = (y 1).val; omega

/-- The second operand's block is its whole array. -/
theorem in1_whole (c : Dev nD) (t : Fin cfg5.N) :
    (iblk5 V c 1 t : S4096x64.Idx → Elt F .f32) = V c main_v98 := by
  obtain ⟨a0, a1, b0, b1, o0, o1⟩ := grid_facts t
  funext y
  show (V c main_v98 : S4096x64.Idx → Elt F .f32) (((cfg5.win 1).blk t).view.emb y) = (V c main_v98 : S4096x64.Idx → Elt F .f32) y
  refine congrArg (V c main_v98 : S4096x64.Idx → Elt F .f32) ?_
  funext a; apply Fin.ext
  match a with
  | ⟨0, _⟩ => show win5_1.index t (0 : Fin 2) * 4096 + 1 * (y 0).val = (y 0).val; omega
  | ⟨1, _⟩ => show win5_1.index t (1 : Fin 2) * 64 + 1 * (y 1).val = (y 1).val; omega

/-- What the one point writes back is (the one block of) the stored value of the whole arrays. -/
theorem flushed (c : Dev nD) (t : Fin cfg5.N) :
    (dat5 V c).flushed 2 t = ((cfg5.win 2).blk t).view.read (Elt F) (k5_pay1 (V c main_v91) (V c main_v98)) := by
  show (cfg5.win 2).cut (grid5.coords t) ((dat5 V c).after 2 t) = _
  rw [after5_2]
  unfold out5_2
  rw [View.canon_unit_zero origin2]
  simp only [View.ld_unit_zero (S := S4096x64) origin2]
  rw [in0_whole V c t, in1_whole V c t]
  obtain ⟨a0, a1, b0, b1, o0, o1⟩ := grid_facts t
  funext j
  show k5_pay1 (V c main_v91) (V c main_v98) j = k5_pay1 (V c main_v91) (V c main_v98) (((cfg5.win 2).blk t).view.emb j)
  refine congrArg (k5_pay1 (V c main_v91) (V c main_v98)) ?_
  funext a; apply Fin.ext
  match a with
  | ⟨0, _⟩ => show (j 0).val = win5_2.index t (0 : Fin 2) * 4096 + 1 * (j 0).val; omega
  | ⟨1, _⟩ => show (j 1).val = win5_2.index t (1 : Fin 2) * 1 + 1 * (j 1).val; omega

/-- An entry of the result column is in the one block iff it is inside the block's extents (it always is). -/
theorem mem_blk (t : Fin cfg5.N) (i : S4096x1.Idx) :
    i ∈ ((cfg5.win 2).blk t).view.set ↔ ∀ a : Fin 2, win5_2.index t a * S4096x1.size a ≤ (i a).val ∧ (i a).val < win5_2.index t a * S4096x1.size a + S4096x1.size a := by
  show i ∈ ((View.whole main_v99).slice (win5_2.rect t)).set ↔ _
  rw [View.set_slice_whole, Rect.mem_set_unit]
  exact Iff.rfl

/-- The one block covers the result column. -/
theorem cover (i : S4096x1.Idx) :
    ∃ t : Fin cfg5.N, (cfg5.win 2).flush t = true ∧ i ∈ ((cfg5.win 2).blk t).view.set := by
  have hi0 : (i 0).val < 4096 := (i 0).isLt
  have hi1 : (i 1).val < 1 := (i 1).isLt
  refine ⟨t5_0, flush5_2 _, ?_⟩
  rw [mem_blk]
  obtain ⟨a0, a1, b0, b1, o0, o1⟩ := grid_facts t5_0
  intro a
  match a with
  | ⟨0, _⟩ =>
    show win5_2.index t5_0 (0 : Fin 2) * 4096 ≤ (i 0).val ∧ (i 0).val < win5_2.index t5_0 (0 : Fin 2) * 4096 + 4096
    omega
  | ⟨1, _⟩ =>
    show win5_2.index t5_0 (1 : Fin 2) * 1 ≤ (i 1).val ∧ (i 1).val < win5_2.index t5_0 (1 : Fin 2) * 1 + 1
    omega

/-- The result column after the region: the stored value of the two arrays the region found. -/
theorem final (c : Dev nD) : (dat5 V c).arrAt 2 cfg5.N = k5_pay1 (V c main_v91) (V c main_v98) :=
  (dat5 V c).arrAt_eq_of_cover 2 (k5_pay1 (V c main_v91) (V c main_v98)) (fun t _ => flushed V c t) cover

end Cert.KernelIdeal.Dot

end
-- ==== Proof.KernelFold.lean ====
/-
  The kernel's result, computed from the fold of its boundary contents.

  Between regions the host operations are read one stretch at a time, at any contents the stretch may start from: a
  stretch scatters the scaled messages into the next layer, prepares the next layer's gathered rows, and reshapes the
  weights into a column; buffers it does not write keep their contents. A region leaves its output array at its
  whole-array rule and every other buffer as it was. Chaining these from the third boundary (where the graph data and the
  stacked embedding table are ready) to the last gives the result buffer as the score of the picked rows of the pooled
  table of the five layers — all as named stages of the graph data, the table and the two index arguments.
-/
import proofs.«156087_j3118146257022_1_alg».proof.Proof.Gen.KernelIdeal.Frame
import proofs.«156087_j3118146257022_1_alg».proof.Proof.Stages
import proofs.«156087_j3118146257022_1_alg».proof.Proof.ScaleRegion0
import proofs.«156087_j3118146257022_1_alg».proof.Proof.ScaleRegion1
import proofs.«156087_j3118146257022_1_alg».proof.Proof.ScaleRegion2
import proofs.«156087_j3118146257022_1_alg».proof.Proof.ScaleRegion3
import proofs.«156087_j3118146257022_1_alg».proof.Proof.PoolRegion
import proofs.«156087_j3118146257022_1_alg».proof.Proof.DotRegion
import Idealize.ShloMosaic.Lib.StableHlo.Run

set_option maxRecDepth 16384
-- reading a stretch of host operations rewrites once per (operation, buffer) pair
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F] [Named F]

/-! ## One stretch of host operations, from any contents -/

section Stretches

variable (W : Valuation τ sig (Elt F))

/-- Before the first region: the gathered rows of the table, and the weights column. -/
theorem pre_gather : after hostOps0_2 W (Proc.devRef .tc main_v40)
    = Stages.gatherCols (after hostOps0_2 W (Proc.devRef .tc main_v7)) (after hostOps0_2 W (Proc.devRef .tc main_v33)) := by
  simp only [hostOps0_2]; after_results <;> rfl
theorem pre_w : after hostOps0_2 W (Proc.devRef .tc main_v41) = Stages.weightsCol (after hostOps0_2 W (Proc.devRef .tc main_v32)) := by
  simp only [hostOps0_2]; after_results <;> rfl

/-- Stretch 1: the next layer, its gathered rows, the weights column. -/
theorem s1_layer : after hostOps1 W (Proc.devRef .tc main_v45) = Stages.scatterRows (W (Proc.devRef .tc main_v6)) (W (Proc.devRef .tc main_v42)) := by
  simp only [hostOps1]; after_results <;> rfl
theorem s1_gather : after hostOps1 W (Proc.devRef .tc main_v52)
    = Stages.gatherCols (W (Proc.devRef .tc main_v7)) (Stages.scatterRows (W (Proc.devRef .tc main_v6)) (W (Proc.devRef .tc main_v42))) := by
  simp only [hostOps1]; after_results <;> rfl
theorem s1_w : after hostOps1 W (Proc.devRef .tc main_v53) = Stages.weightsCol (W (Proc.devRef .tc main_v32)) := by
  simp only [hostOps1]; after_results <;> rfl

/-- Stretch 2: the next layer, its gathered rows, the weights column. -/
theorem s2_layer : after hostOps2 W (Proc.devRef .tc main_v57) = Stages.scatterRows (W (Proc.devRef .tc main_v6)) (W (Proc.devRef .tc main_v54)) := by
  simp only [hostOps2]; after_results <;> rfl
theorem s2_gather : after hostOps2 W (Proc.devRef .tc main_v64)
    = Stages.gatherCols (W (Proc.devRef .tc main_v7)) (Stages.scatterRows (W (Proc.devRef .tc main_v6)) (W (Proc.devRef .tc main_v54))) := by
  simp only [hostOps2]; after_results <;> rfl
theorem s2_w : after hostOps2 W (Proc.devRef .tc main_v65) = Stages.weightsCol (W (Proc.devRef .tc main_v32)) := by
  simp only [hostOps2]; after_results <;> rfl

/-- Stretch 3: the next layer, its gathered rows, the weights column. -/
theorem s3_layer : after hostOps3 W (Proc.devRef .tc main_v69) = Stages.scatterRows (W (Proc.devRef .tc main_v6)) (W (Proc.devRef .tc main_v66)) := by
  simp only [hostOps3]; after_results <;> rfl
theorem s3_gather : after hostOps3 W (Proc.devRef .tc main_v76)
    = Stages.gatherCols (W (Proc.devRef .tc main_v7)) (Stages.scatterRows (W (Proc.devRef .tc main_v6)) (W (Proc.devRef .tc main_v66))) := by
  simp only [hostOps3]; after_results <;> rfl
theorem s3_w : after hostOps3 W (Proc.devRef .tc main_v77) = Stages.weightsCol (W (Proc.devRef .tc main_v32)) := by
  simp only [hostOps3]; after_results <;> rfl

/-- Stretch 4: the last layer. -/
theorem s4_layer : after hostOps4 W (Proc.devRef .tc main_v81) = Stages.scatterRows (W (Proc.devRef .tc main_v6)) (W (Proc.devRef .tc main_v78)) := by
  simp only [hostOps4]; after_results <;> rfl

/-- Stretch 5: the picked user rows and item rows of the pooled table. -/
theorem s5_users : after hostOps5 W (Proc.devRef .tc main_v91) = Stages.pickUsers (W (Proc.devRef .tc main_v82)) (W (Proc.devRef .tc main_arg3)) := by
  simp only [hostOps5]; after_results <;> rfl
theorem s5_items : after hostOps5 W (Proc.devRef .tc main_v98) = Stages.pickItems (W (Proc.devRef .tc main_v82)) (W (Proc.devRef .tc main_arg4)) := by
  simp only [hostOps5]; after_results <;> rfl

/-- Stretch 6: the result column reshaped to a vector. -/
theorem s6_result : after hostOps6 W (Proc.devRef .tc main_v100) = shapeCast _ (W (Proc.devRef .tc main_v99)) shapeCasts_S4096x1_S4096 := by
  simp only [hostOps6]; after_results <;> rfl

/-- Buffers a stretch does not write keep their contents. -/
theorem k1_v6 : after hostOps1 W (Proc.devRef .tc main_v6) = W (Proc.devRef .tc main_v6) := by
  simp only [hostOps1]; after_results <;> rfl
theorem k1_v7 : after hostOps1 W (Proc.devRef .tc main_v7) = W (Proc.devRef .tc main_v7) := by
  simp only [hostOps1]; after_results <;> rfl
theorem k1_v32 : after hostOps1 W (Proc.devRef .tc main_v32) = W (Proc.devRef .tc main_v32) := by
  simp only [hostOps1]; after_results <;> rfl
theorem k1_v33 : after hostOps1 W (Proc.devRef .tc main_v33) = W (Proc.devRef .tc main_v33) := by
  simp only [hostOps1]; after_results <;> rfl
theorem k1_arg3 : after hostOps1 W (Proc.devRef .tc main_arg3) = W (Proc.devRef .tc main_arg3) := by
  simp only [hostOps1]; after_results <;> rfl
theorem k1_arg4 : after hostOps1 W (Proc.devRef .tc main_arg4) = W (Proc.devRef .tc main_arg4) := by
  simp only [hostOps1]; after_results <;> rfl
theorem k2_v6 : after hostOps2 W (Proc.devRef .tc main_v6) = W (Proc.devRef .tc main_v6) := by
  simp only [hostOps2]; after_results <;> rfl
theorem k2_v7 : after hostOps2 W (Proc.devRef .tc main_v7) = W (Proc.devRef .tc main_v7) := by
  simp only [hostOps2]; after_results <;> rfl
theorem k2_v32 : after hostOps2 W (Proc.devRef .tc main_v32) = W (Proc.devRef .tc main_v32) := by
  simp only [hostOps2]; after_results <;> rfl
theorem k2_v33 : after hostOps2 W (Proc.devRef .tc main_v33) = W (Proc.devRef .tc main_v33) := by
  simp only [hostOps2]; after_results <;> rfl
theorem k2_v45 : after hostOps2 W (Proc.devRef .tc main_v45) = W (Proc.devRef .tc main_v45) := by
  simp only [hostOps2]; after_results <;> rfl
theorem k2_arg3 : after hostOps2 W (Proc.devRef .tc main_arg3) = W (Proc.devRef .tc main_arg3) := by
  simp only [hostOps2]; after_results <;> rfl
theorem k2_arg4 : after hostOps2 W (Proc.devRef .tc main_arg4) = W (Proc.devRef .tc main_arg4) := by
  simp only [hostOps2]; after_results <;> rfl
theorem k3_v6 : after hostOps3 W (Proc.devRef .tc main_v6) = W (Proc.devRef .tc main_v6) := by
  simp only [hostOps3]; after_results <;> rfl
theorem k3_v33 : after hostOps3 W (Proc.devRef .tc main_v33) = W (Proc.devRef .tc main_v33) := by
  simp only [hostOps3]; after_results <;> rfl
theorem k3_v45 : after hostOps3 W (Proc.devRef .tc main_v45) = W (Proc.devRef .tc main_v45) := by
  simp only [hostOps3]; after_results <;> rfl
theorem k3_v57 : after hostOps3 W (Proc.devRef .tc main_v57) = W (Proc.devRef .tc main_v57) := by
  simp only [hostOps3]; after_results <;> rfl
theorem k3_arg3 : after hostOps3 W (Proc.devRef .tc main_arg3) = W (Proc.devRef .tc main_arg3) := by
  simp only [hostOps3]; after_results <;> rfl
theorem k3_arg4 : after hostOps3 W (Proc.devRef .tc main_arg4) = W (Proc.devRef .tc main_arg4) := by
  simp only [hostOps3]; after_results <;> rfl
theorem k4_v33 : after hostOps4 W (Proc.devRef .tc main_v33) = W (Proc.devRef .tc main_v33) := by
  simp only [hostOps4]; after_results <;> rfl
theorem k4_v45 : after hostOps4 W (Proc.devRef .tc main_v45) = W (Proc.devRef .tc main_v45) := by
  simp only [hostOps4]; after_results <;> rfl
theorem k4_v57 : after hostOps4 W (Proc.devRef .tc main_v57) = W (Proc.devRef .tc main_v57) := by
  simp only [hostOps4]; after_results <;> rfl
theorem k4_v69 : after hostOps4 W (Proc.devRef .tc main_v69) = W (Proc.devRef .tc main_v69) := by
  simp only [hostOps4]; after_results <;> rfl
theorem k4_arg3 : after hostOps4 W (Proc.devRef .tc main_arg3) = W (Proc.devRef .tc main_arg3) := by
  simp only [hostOps4]; after_results <;> rfl
theorem k4_arg4 : after hostOps4 W (Proc.devRef .tc main_arg4) = W (Proc.devRef .tc main_arg4) := by
  simp only [hostOps4]; after_results <;> rfl

end Stretches

/-! ## The chain of boundaries -/

variable (m : (ℓ : Loc nD τ sig) → Buf (Elt F) ℓ) (ρ : Dev nD → PrngReg)

/-- The graph data, the stacked table and the two index arguments, as the third boundary holds them. -/
def rows (c : Dev nD) : (⟨S3200000, .i32⟩ : BufTy).Contents (Elt F) := W3 m ρ c (Proc.devRef .tc main_v6)
def cols (c : Dev nD) : (⟨S3200000, .i32⟩ : BufTy).Contents (Elt F) := W3 m ρ c (Proc.devRef .tc main_v7)
def weights (c : Dev nD) : (⟨S3200000, .f32⟩ : BufTy).Contents (Elt F) := W3 m ρ c (Proc.devRef .tc main_v32)
def table (c : Dev nD) : (⟨S100000x64, .f32⟩ : BufTy).Contents (Elt F) := W3 m ρ c (Proc.devRef .tc main_v33)
def users (c : Dev nD) : (⟨S4096, .i32⟩ : BufTy).Contents (Elt F) := W3 m ρ c (Proc.devRef .tc main_arg3)
def items (c : Dev nD) : (⟨S4096, .i32⟩ : BufTy).Contents (Elt F) := W3 m ρ c (Proc.devRef .tc main_arg4)

/-- The four propagated layers, the pooled table and the result, as stages of those. -/
def layer1 (c : Dev nD) : (⟨S100000x64, .f32⟩ : BufTy).Contents (Elt F) := Stages.layerK (rows m ρ c) (cols m ρ c) (weights m ρ c) (table m ρ c)
def layer2 (c : Dev nD) : (⟨S100000x64, .f32⟩ : BufTy).Contents (Elt F) := Stages.layerK (rows m ρ c) (cols m ρ c) (weights m ρ c) (layer1 m ρ c)
def layer3 (c : Dev nD) : (⟨S100000x64, .f32⟩ : BufTy).Contents (Elt F) := Stages.layerK (rows m ρ c) (cols m ρ c) (weights m ρ c) (layer2 m ρ c)
def layer4 (c : Dev nD) : (⟨S100000x64, .f32⟩ : BufTy).Contents (Elt F) := Stages.layerK (rows m ρ c) (cols m ρ c) (weights m ρ c) (layer3 m ρ c)
def pooledTable (c : Dev nD) : (⟨S100000x64, .f32⟩ : BufTy).Contents (Elt F) :=
  Pool.pooled (table m ρ c) (layer1 m ρ c) (layer2 m ρ c) (layer3 m ρ c) (layer4 m ρ c)
def result (c : Dev nD) : (⟨S4096, .f32⟩ : BufTy).Contents (Elt F) :=
  Stages.scoreK (Stages.pickUsers (pooledTable m ρ c) (users m ρ c)) (Stages.pickItems (pooledTable m ρ c) (items m ρ c))

/-- The pooling rule respects equal layers. -/
theorem pooled_congr {a a' b b' c c' d d' e e' : S100000x64.Idx → Elt F .f32}
    (ha : a = a') (hb : b = b') (hc : c = c') (hd : d = d') (he : e = e') :
    Pool.pooled a b c d e = Pool.pooled a' b' c' d' e' := by
  subst ha hb hc hd he; rfl

/-! ### Boundary 3: before the first region -/
theorem at3_v40 (c : Dev nD) : W3 m ρ c (Proc.devRef .tc main_v40) = Stages.gatherCols (cols m ρ c) (table m ρ c) := pre_gather (W2 m ρ c)
theorem at3_v41 (c : Dev nD) : W3 m ρ c (Proc.devRef .tc main_v41) = Stages.weightsCol (weights m ρ c) := pre_w (W2 m ρ c)
theorem at3_v6 (c : Dev nD) : W3 m ρ c (Proc.devRef .tc main_v6) = rows m ρ c := rfl
theorem at3_v7 (c : Dev nD) : W3 m ρ c (Proc.devRef .tc main_v7) = cols m ρ c := rfl
theorem at3_v32 (c : Dev nD) : W3 m ρ c (Proc.devRef .tc main_v32) = weights m ρ c := rfl
theorem at3_v33 (c : Dev nD) : W3 m ρ c (Proc.devRef .tc main_v33) = table m ρ c := rfl
theorem at3_arg3 (c : Dev nD) : W3 m ρ c (Proc.devRef .tc main_arg3) = users m ρ c := rfl
theorem at3_arg4 (c : Dev nD) : W3 m ρ c (Proc.devRef .tc main_arg4) = items m ρ c := rfl

/-! ### Boundary 4: after scaling region 0 -/
theorem at4_v42 (c : Dev nD) : W4 m ρ c (Proc.devRef .tc main_v42)
    = Scale.scaled (Stages.gatherCols (cols m ρ c) (table m ρ c)) (Stages.weightsCol (weights m ρ c)) :=
  (W4_arr m ρ c 2).trans ((Scale.final0 (V3 m ρ) c).trans (congrArg₂ Scale.scaled (at3_v40 m ρ c) (at3_v41 m ρ c)))
theorem at4_v6 (c : Dev nD) : W4 m ρ c (Proc.devRef .tc main_v6) = rows m ρ c := (W4_of_ne m ρ c main_v6 (by decide)).trans (at3_v6 m ρ c)
theorem at4_v7 (c : Dev nD) : W4 m ρ c (Proc.devRef .tc main_v7) = cols m ρ c := (W4_of_ne m ρ c main_v7 (by decide)).trans (at3_v7 m ρ c)
theorem at4_v32 (c : Dev nD) : W4 m ρ c (Proc.devRef .tc main_v32) = weights m ρ c := (W4_of_ne m ρ c main_v32 (by decide)).trans (at3_v32 m ρ c)
theorem at4_v33 (c : Dev nD) : W4 m ρ c (Proc.devRef .tc main_v33) = table m ρ c := (W4_of_ne m ρ c main_v33 (by decide)).trans (at3_v33 m ρ c)
theorem at4_arg3 (c : Dev nD) : W4 m ρ c (Proc.devRef .tc main_arg3) = users m ρ c := (W4_of_ne m ρ c main_arg3 (by decide)).trans (at3_arg3 m ρ c)
theorem at4_arg4 (c : Dev nD) : W4 m ρ c (Proc.devRef .tc main_arg4) = items m ρ c := (W4_of_ne m ρ c main_arg4 (by decide)).trans (at3_arg4 m ρ c)

/-! ### Boundary 5: after stretch 1 -/
theorem at5_v45 (c : Dev nD) : W5 m ρ c (Proc.devRef .tc main_v45) = layer1 m ρ c :=
  (s1_layer (W4 m ρ c)).trans (congrArg₂ Stages.scatterRows (at4_v6 m ρ c) (at4_v42 m ρ c))
theorem at5_v52 (c : Dev nD) : W5 m ρ c (Proc.devRef .tc main_v52) = Stages.gatherCols (cols m ρ c) (layer1 m ρ c) :=
  (s1_gather (W4 m ρ c)).trans (congrArg₂ Stages.gatherCols (at4_v7 m ρ c) (congrArg₂ Stages.scatterRows (at4_v6 m ρ c) (at4_v42 m ρ c)))
theorem at5_v53 (c : Dev nD) : W5 m ρ c (Proc.devRef .tc main_v53) = Stages.weightsCol (weights m ρ c) :=
  (s1_w (W4 m ρ c)).trans (congrArg Stages.weightsCol (at4_v32 m ρ c))
theorem at5_v6 (c : Dev nD) : W5 m ρ c (Proc.devRef .tc main_v6) = rows m ρ c := (k1_v6 (W4 m ρ c)).trans (at4_v6 m ρ c)
theorem at5_v7 (c : Dev nD) : W5 m ρ c (Proc.devRef .tc main_v7) = cols m ρ c := (k1_v7 (W4 m ρ c)).trans (at4_v7 m ρ c)
theorem at5_v32 (c : Dev nD) : W5 m ρ c (Proc.devRef .tc main_v32) = weights m ρ c := (k1_v32 (W4 m ρ c)).trans (at4_v32 m ρ c)
theorem at5_v33 (c : Dev nD) : W5 m ρ c (Proc.devRef .tc main_v33) = table m ρ c := (k1_v33 (W4 m ρ c)).trans (at4_v33 m ρ c)
theorem at5_arg3 (c : Dev nD) : W5 m ρ c (Proc.devRef .tc main_arg3) = users m ρ c := (k1_arg3 (W4 m ρ c)).trans (at4_arg3 m ρ c)
theorem at5_arg4 (c : Dev nD) : W5 m ρ c (Proc.devRef .tc main_arg4) = items m ρ c := (k1_arg4 (W4 m ρ c)).trans (at4_arg4 m ρ c)

/-! ### Boundary 6: after scaling region 1 -/
theorem at6_v54 (c : Dev nD) : W6 m ρ c (Proc.devRef .tc main_v54)
    = Scale.scaled (Stages.gatherCols (cols m ρ c) (layer1 m ρ c)) (Stages.weightsCol (weights m ρ c)) :=
  (W6_arr m ρ c 2).trans ((Scale.final1 (V5 m ρ) c).trans (congrArg₂ Scale.scaled (at5_v52 m ρ c) (at5_v53 m ρ c)))
theorem at6_v6 (c : Dev nD) : W6 m ρ c (Proc.devRef .tc main_v6) = rows m ρ c := (W6_of_ne m ρ c main_v6 (by decide)).trans (at5_v6 m ρ c)
theorem at6_v7 (c : Dev nD) : W6 m ρ c (Proc.devRef .tc main_v7) = cols m ρ c := (W6_of_ne m ρ c main_v7 (by decide)).trans (at5_v7 m ρ c)
theorem at6_v32 (c : Dev nD) : W6 m ρ c (Proc.devRef .tc main_v32) = weights m ρ c := (W6_of_ne m ρ c main_v32 (by decide)).trans (at5_v32 m ρ c)
theorem at6_v33 (c : Dev nD) : W6 m ρ c (Proc.devRef .tc main_v33) = table m ρ c := (W6_of_ne m ρ c main_v33 (by decide)).trans (at5_v33 m ρ c)
theorem at6_v45 (c : Dev nD) : W6 m ρ c (Proc.devRef .tc main_v45) = layer1 m ρ c := (W6_of_ne m ρ c main_v45 (by decide)).trans (at5_v45 m ρ c)
theorem at6_arg3 (c : Dev nD) : W6 m ρ c (Proc.devRef .tc main_arg3) = users m ρ c := (W6_of_ne m ρ c main_arg3 (by decide)).trans (at5_arg3 m ρ c)
theorem at6_arg4 (c : Dev nD) : W6 m ρ c (Proc.devRef .tc main_arg4) = items m ρ c := (W6_of_ne m ρ c main_arg4 (by decide)).trans (at5_arg4 m ρ c)

/-! ### Boundary 7: after stretch 2 -/
theorem at7_v57 (c : Dev nD) : W7 m ρ c (Proc.devRef .tc main_v57) = layer2 m ρ c :=
  (s2_layer (W6 m ρ c)).trans (congrArg₂ Stages.scatterRows (at6_v6 m ρ c) (at6_v54 m ρ c))
theorem at7_v64 (c : Dev nD) : W7 m ρ c (Proc.devRef .tc main_v64) = Stages.gatherCols (cols m ρ c) (layer2 m ρ c) :=
  (s2_gather (W6 m ρ c)).trans (congrArg₂ Stages.gatherCols (at6_v7 m ρ c) (congrArg₂ Stages.scatterRows (at6_v6 m ρ c) (at6_v54 m ρ c)))
theorem at7_v65 (c : Dev nD) : W7 m ρ c (Proc.devRef .tc main_v65) = Stages.weightsCol (weights m ρ c) :=
  (s2_w (W6 m ρ c)).trans (congrArg Stages.weightsCol (at6_v32 m ρ c))
theorem at7_v6 (c : Dev nD) : W7 m ρ c (Proc.devRef .tc main_v6) = rows m ρ c := (k2_v6 (W6 m ρ c)).trans (at6_v6 m ρ c)
theorem at7_v7 (c : Dev nD) : W7 m ρ c (Proc.devRef .tc main_v7) = cols m ρ c := (k2_v7 (W6 m ρ c)).trans (at6_v7 m ρ c)
theorem at7_v32 (c : Dev nD) : W7 m ρ c (Proc.devRef .tc main_v32) = weights m ρ c := (k2_v32 (W6 m ρ c)).trans (at6_v32 m ρ c)
theorem at7_v33 (c : Dev nD) : W7 m ρ c (Proc.devRef .tc main_v33) = table m ρ c := (k2_v33 (W6 m ρ c)).trans (at6_v33 m ρ c)
theorem at7_v45 (c : Dev nD) : W7 m ρ c (Proc.devRef .tc main_v45) = layer1 m ρ c := (k2_v45 (W6 m ρ c)).trans (at6_v45 m ρ c)
theorem at7_arg3 (c : Dev nD) : W7 m ρ c (Proc.devRef .tc main_arg3) = users m ρ c := (k2_arg3 (W6 m ρ c)).trans (at6_arg3 m ρ c)
theorem at7_arg4 (c : Dev nD) : W7 m ρ c (Proc.devRef .tc main_arg4) = items m ρ c := (k2_arg4 (W6 m ρ c)).trans (at6_arg4 m ρ c)

/-! ### Boundary 8: after scaling region 2 -/
theorem at8_v66 (c : Dev nD) : W8 m ρ c (Proc.devRef .tc main_v66)
    = Scale.scaled (Stages.gatherCols (cols m ρ c) (layer2 m ρ c)) (Stages.weightsCol (weights m ρ c)) :=
  (W8_arr m ρ c 2).trans ((Scale.final2 (V7 m ρ) c).trans (congrArg₂ Scale.scaled (at7_v64 m ρ c) (at7_v65 m ρ c)))
theorem at8_v6 (c : Dev nD) : W8 m ρ c (Proc.devRef .tc main_v6) = rows m ρ c := (W8_of_ne m ρ c main_v6 (by decide)).trans (at7_v6 m ρ c)
theorem at8_v7 (c : Dev nD) : W8 m ρ c (Proc.devRef .tc main_v7) = cols m ρ c := (W8_of_ne m ρ c main_v7 (by decide)).trans (at7_v7 m ρ c)
theorem at8_v32 (c : Dev nD) : W8 m ρ c (Proc.devRef .tc main_v32) = weights m ρ c := (W8_of_ne m ρ c main_v32 (by decide)).trans (at7_v32 m ρ c)
theorem at8_v33 (c : Dev nD) : W8 m ρ c (Proc.devRef .tc main_v33) = table m ρ c := (W8_of_ne m ρ c main_v33 (by decide)).trans (at7_v33 m ρ c)
theorem at8_v45 (c : Dev nD) : W8 m ρ c (Proc.devRef .tc main_v45) = layer1 m ρ c := (W8_of_ne m ρ c main_v45 (by decide)).trans (at7_v45 m ρ c)
theorem at8_v57 (c : Dev nD) : W8 m ρ c (Proc.devRef .tc main_v57) = layer2 m ρ c := (W8_of_ne m ρ c main_v57 (by decide)).trans (at7_v57 m ρ c)
theorem at8_arg3 (c : Dev nD) : W8 m ρ c (Proc.devRef .tc main_arg3) = users m ρ c := (W8_of_ne m ρ c main_arg3 (by decide)).trans (at7_arg3 m ρ c)
theorem at8_arg4 (c : Dev nD) : W8 m ρ c (Proc.devRef .tc main_arg4) = items m ρ c := (W8_of_ne m ρ c main_arg4 (by decide)).trans (at7_arg4 m ρ c)

/-! ### Boundary 9: after stretch 3 -/
theorem at9_v69 (c : Dev nD) : W9 m ρ c (Proc.devRef .tc main_v69) = layer3 m ρ c :=
  (s3_layer (W8 m ρ c)).trans (congrArg₂ Stages.scatterRows (at8_v6 m ρ c) (at8_v66 m ρ c))
theorem at9_v76 (c : Dev nD) : W9 m ρ c (Proc.devRef .tc main_v76) = Stages.gatherCols (cols m ρ c) (layer3 m ρ c) :=
  (s3_gather (W8 m ρ c)).trans (congrArg₂ Stages.gatherCols (at8_v7 m ρ c) (congrArg₂ Stages.scatterRows (at8_v6 m ρ c) (at8_v66 m ρ c)))
theorem at9_v77 (c : Dev nD) : W9 m ρ c (Proc.devRef .tc main_v77) = Stages.weightsCol (weights m ρ c) :=
  (s3_w (W8 m ρ c)).trans (congrArg Stages.weightsCol (at8_v32 m ρ c))
theorem at9_v6 (c : Dev nD) : W9 m ρ c (Proc.devRef .tc main_v6) = rows m ρ c := (k3_v6 (W8 m ρ c)).trans (at8_v6 m ρ c)
theorem at9_v33 (c : Dev nD) : W9 m ρ c (Proc.devRef .tc main_v33) = table m ρ c := (k3_v33 (W8 m ρ c)).trans (at8_v33 m ρ c)
theorem at9_v45 (c : Dev nD) : W9 m ρ c (Proc.devRef .tc main_v45) = layer1 m ρ c := (k3_v45 (W8 m ρ c)).trans (at8_v45 m ρ c)
theorem at9_v57 (c : Dev nD) : W9 m ρ c (Proc.devRef .tc main_v57) = layer2 m ρ c := (k3_v57 (W8 m ρ c)).trans (at8_v57 m ρ c)
theorem at9_arg3 (c : Dev nD) : W9 m ρ c (Proc.devRef .tc main_arg3) = users m ρ c := (k3_arg3 (W8 m ρ c)).trans (at8_arg3 m ρ c)
theorem at9_arg4 (c : Dev nD) : W9 m ρ c (Proc.devRef .tc main_arg4) = items m ρ c := (k3_arg4 (W8 m ρ c)).trans (at8_arg4 m ρ c)

/-! ### Boundary 10: after scaling region 3 -/
theorem at10_v78 (c : Dev nD) : W10 m ρ c (Proc.devRef .tc main_v78)
    = Scale.scaled (Stages.gatherCols (cols m ρ c) (layer3 m ρ c)) (Stages.weightsCol (weights m ρ c)) :=
  (W10_arr m ρ c 2).trans ((Scale.final3 (V9 m ρ) c).trans (congrArg₂ Scale.scaled (at9_v76 m ρ c) (at9_v77 m ρ c)))
theorem at10_v6 (c : Dev nD) : W10 m ρ c (Proc.devRef .tc main_v6) = rows m ρ c := (W10_of_ne m ρ c main_v6 (by decide)).trans (at9_v6 m ρ c)
theorem at10_v33 (c : Dev nD) : W10 m ρ c (Proc.devRef .tc main_v33) = table m ρ c := (W10_of_ne m ρ c main_v33 (by decide)).trans (at9_v33 m ρ c)
theorem at10_v45 (c : Dev nD) : W10 m ρ c (Proc.devRef .tc main_v45) = layer1 m ρ c := (W10_of_ne m ρ c main_v45 (by decide)).trans (at9_v45 m ρ c)
theorem at10_v57 (c : Dev nD) : W10 m ρ c (Proc.devRef .tc main_v57) = layer2 m ρ c := (W10_of_ne m ρ c main_v57 (by decide)).trans (at9_v57 m ρ c)
theorem at10_v69 (c : Dev nD) : W10 m ρ c (Proc.devRef .tc main_v69) = layer3 m ρ c := (W10_of_ne m ρ c main_v69 (by decide)).trans (at9_v69 m ρ c)
theorem at10_arg3 (c : Dev nD) : W10 m ρ c (Proc.devRef .tc main_arg3) = users m ρ c := (W10_of_ne m ρ c main_arg3 (by decide)).trans (at9_arg3 m ρ c)
theorem at10_arg4 (c : Dev nD) : W10 m ρ c (Proc.devRef .tc main_arg4) = items m ρ c := (W10_of_ne m ρ c main_arg4 (by decide)).trans (at9_arg4 m ρ c)

/-! ### Boundary 11: after stretch 4 -/
theorem at11_v81 (c : Dev nD) : W11 m ρ c (Proc.devRef .tc main_v81) = layer4 m ρ c :=
  (s4_layer (W10 m ρ c)).trans (congrArg₂ Stages.scatterRows (at10_v6 m ρ c) (at10_v78 m ρ c))
theorem at11_v33 (c : Dev nD) : W11 m ρ c (Proc.devRef .tc main_v33) = table m ρ c := (k4_v33 (W10 m ρ c)).trans (at10_v33 m ρ c)
theorem at11_v45 (c : Dev nD) : W11 m ρ c (Proc.devRef .tc main_v45) = layer1 m ρ c := (k4_v45 (W10 m ρ c)).trans (at10_v45 m ρ c)
theorem at11_v57 (c : Dev nD) : W11 m ρ c (Proc.devRef .tc main_v57) = layer2 m ρ c := (k4_v57 (W10 m ρ c)).trans (at10_v57 m ρ c)
theorem at11_v69 (c : Dev nD) : W11 m ρ c (Proc.devRef .tc main_v69) = layer3 m ρ c := (k4_v69 (W10 m ρ c)).trans (at10_v69 m ρ c)
theorem at11_arg3 (c : Dev nD) : W11 m ρ c (Proc.devRef .tc main_arg3) = users m ρ c := (k4_arg3 (W10 m ρ c)).trans (at10_arg3 m ρ c)
theorem at11_arg4 (c : Dev nD) : W11 m ρ c (Proc.devRef .tc main_arg4) = items m ρ c := (k4_arg4 (W10 m ρ c)).trans (at10_arg4 m ρ c)

/-! ### Boundary 12: after the mean-pool region -/
theorem at12_v82 (c : Dev nD) : W12 m ρ c (Proc.devRef .tc main_v82) = pooledTable m ρ c :=
  (W12_arr m ρ c 5).trans ((Pool.final (V11 m ρ) c).trans
    (pooled_congr (at11_v33 m ρ c) (at11_v45 m ρ c) (at11_v57 m ρ c) (at11_v69 m ρ c) (at11_v81 m ρ c)))
theorem at12_arg3 (c : Dev nD) : W12 m ρ c (Proc.devRef .tc main_arg3) = users m ρ c := (W12_of_ne m ρ c main_arg3 (by decide)).trans (at11_arg3 m ρ c)
theorem at12_arg4 (c : Dev nD) : W12 m ρ c (Proc.devRef .tc main_arg4) = items m ρ c := (W12_of_ne m ρ c main_arg4 (by decide)).trans (at11_arg4 m ρ c)

/-! ### Boundary 13: after stretch 5 -/
theorem at13_v91 (c : Dev nD) : W13 m ρ c (Proc.devRef .tc main_v91) = Stages.pickUsers (pooledTable m ρ c) (users m ρ c) :=
  (s5_users (W12 m ρ c)).trans (congrArg₂ Stages.pickUsers (at12_v82 m ρ c) (at12_arg3 m ρ c))
theorem at13_v98 (c : Dev nD) : W13 m ρ c (Proc.devRef .tc main_v98) = Stages.pickItems (pooledTable m ρ c) (items m ρ c) :=
  (s5_items (W12 m ρ c)).trans (congrArg₂ Stages.pickItems (at12_v82 m ρ c) (at12_arg4 m ρ c))

/-! ### Boundary 14: after the dot-product region -/
theorem at14_v99 (c : Dev nD) : W14 m ρ c (Proc.devRef .tc main_v99)
    = k5_pay1 (Stages.pickUsers (pooledTable m ρ c) (users m ρ c)) (Stages.pickItems (pooledTable m ρ c) (items m ρ c)) :=
  (W14_arr m ρ c 2).trans ((Dot.final (V13 m ρ) c).trans (congrArg₂ k5_pay1 (at13_v91 m ρ c) (at13_v98 m ρ c)))

/-! ### The last boundary: the result -/
/-- THE KERNEL'S RESULT: the score of the picked rows of the pooled table of the five layers. -/
theorem at15_result (c : Dev nD) : W15 m ρ c (Proc.devRef .tc main_v100) = result m ρ c :=
  (s6_result (W14 m ρ c)).trans (congrArg (fun x => shapeCast _ x shapeCasts_S4096x1_S4096) (at14_v99 m ρ c))

end Cert.KernelIdeal.Fold

end
-- ==== Proof.LibAfterAppend.lean ====
/-
  A general fact about straight lines of host operations: the buffer contents after two lines run one after the other
  are the second line's fold over the first line's fold. (A line's fold applies its operations' results in order, so
  this is the fold of a concatenation.) With it a long program is read one stretch at a time.
-/
import Idealize.ShloMosaic.Lib.StableHlo.Run

noncomputable section

namespace Idealize.ShloMosaic.StableHlo

variable {τ : Topo} {sig : RefSig} {Val : EltTy → Type}

/-- The contents after `l₁ ++ l₂` from `V` are the contents after `l₂` from the contents after `l₁` from `V`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of two lines holds of every operation of their concatenation. -/
theorem forall_append_of {p : HloOp τ sig Val → Prop} {l₁ l₂ : List (HloOp τ sig Val)}
    (h₁ : l₁.Forall p) (h₂ : l₂.Forall p) : (l₁ ++ l₂).Forall p :=
  List.forall_iff_forall_mem.mpr fun op hop => (List.mem_append.mp hop).elim
    (List.forall_iff_forall_mem.mp h₁ op) (List.forall_iff_forall_mem.mp h₂ op)

end Idealize.ShloMosaic.StableHlo

end
-- ==== Proof.RefRun.lean ====
/-
  The reference program's run, one stretch of host operations at a time.

  The reference is a straight line of 144 host operations. They are listed here in eight stretches, in program order:
  the graph data and the stacked table; four propagations; the mean of the five layers; the picks; the score. The
  program IS the line run in order, so every weakly fair execution terminates with every buffer at the fold of the
  operations' results over the launch contents; and the fold of the whole line is the stretches' folds composed.
-/
import proofs.«156087_j3118146257022_1_alg».proof.Proof.Gen.ReferenceIdeal
import proofs.«156087_j3118146257022_1_alg».proof.Proof.LibAfterAppend
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 0–54: the graph data (target rows, source columns, edge weights), the stacked table and its first gathered rows. -/
abbrev opsGraph : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 50000#32),
    unary main_c main_v4 (broadcastInDim S1600000 ![] bcast_S_S1600000 : (⟨S_, .i32⟩ : BufTy).Contents (Elt F) → (⟨S1600000, .i32⟩ : BufTy).Contents (Elt F)),
    binary main_v3 main_v4 main_v5 (addi : (⟨S1600000, .i32⟩ : BufTy).Contents (Elt F) → (⟨S1600000, .i32⟩ : BufTy).Contents (Elt F) → (⟨S1600000, .i32⟩ : BufTy).Contents (Elt F)),
    binary main_v1 main_v5 main_v6 ((fun a b => concatenate S3200000 0 [⟨S1600000, a⟩, ⟨S1600000, b⟩] concatenates_S1600000_S1600000_S3200000_d0) : (⟨S1600000, .i32⟩ : BufTy).Contents (Elt F) → (⟨S1600000, .i32⟩ : BufTy).Contents (Elt F) → (⟨S3200000, .i32⟩ : BufTy).Contents (Elt F)),
    binary main_v5 main_v1 main_v7 ((fun a b => concatenate S3200000 0 [⟨S1600000, a⟩, ⟨S1600000, b⟩] concatenates_S1600000_S1600000_S3200000_d0) : (⟨S1600000, .i32⟩ : BufTy).Contents (Elt F) → (⟨S1600000, .i32⟩ : BufTy).Contents (Elt F) → (⟨S3200000, .i32⟩ : BufTy).Contents (Elt F)),
    nullary main_cst (constant S_ .f32 0x3F800000#32),
    unary main_cst main_v8 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3200000x1 ![0] bcast_S3200000_S3200000x1_0 : (⟨S3200000, .i32⟩ : BufTy).Contents (Elt F) → (⟨S3200000x1, .i32⟩ : BufTy).Contents (Elt F)),
    ternary main_v9 main_v10 main_v8 main_v11 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c_4 (constantI S_ 32 0#32),
    unary main_c_4 main_v18 (broadcastInDim S3200000 ![] bcast_S_S3200000 : (⟨S_, .i32⟩ : BufTy).Contents (Elt F) → (⟨S3200000, .i32⟩ : BufTy).Contents (Elt F)),
    binary main_v6 main_v18 main_v19 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 100000#32),
    unary main_c_5 main_v20 (broadcastInDim S3200000 ![] bcast_S_S3200000 : (⟨S_, .i32⟩ : BufTy).Contents (Elt F) → (⟨S3200000, .i32⟩ : BufTy).Contents (Elt F)),
    binary main_v6 main_v20 main_v21 (addi : (⟨S3200000, .i32⟩ : BufTy).Contents (Elt F) → (⟨S3200000, .i32⟩ : BufTy).Contents (Elt F) → (⟨S3200000, .i32⟩ : BufTy).Contents (Elt F)),
    ternary main_v19 main_v21 main_v6 main_v22 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v22 main_v23 (broadcastInDim S3200000x1 ![0] bcast_S3200000_S3200000x1_0 : (⟨S3200000, .i32⟩ : BufTy).Contents (Elt F) → (⟨S3200000x1, .i32⟩ : BufTy).Contents (Elt F)),
    binary main_v17 main_v23 main_v24 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_6 (constantI S_ 32 0#32),
    unary main_c_6 main_v25 (broadcastInDim S3200000 ![] bcast_S_S3200000 : (⟨S_, .i32⟩ : BufTy).Contents (Elt F) → (⟨S3200000, .i32⟩ : BufTy).Contents (Elt F)),
    binary main_v7 main_v25 main_v26 (cmpi .slt : (⟨S3200000, .i32⟩ : BufTy).Contents (Elt F) → (⟨S3200000, .i32⟩ : BufTy).Contents (Elt F) → (⟨S3200000, .i1⟩ : BufTy).Contents (Elt F)),
    nullary main_c_7 (constantI S_ 32 100000#32),
    unary main_c_7 main_v27 (broadcastInDim S3200000 ![] bcast_S_S3200000 : (⟨S_, .i32⟩ : BufTy).Contents (Elt F) → (⟨S3200000, .i32⟩ : BufTy).Contents (Elt F)),
    binary main_v7 main_v27 main_v28 (addi : (⟨S3200000, .i32⟩ : BufTy).Contents (Elt F) → (⟨S3200000, .i32⟩ : BufTy).Contents (Elt F) → (⟨S3200000, .i32⟩ : BufTy).Contents (Elt F)),
    ternary main_v26 main_v28 main_v7 main_v29 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v29 main_v30 (broadcastInDim S3200000x1 ![0] bcast_S3200000_S3200000x1_0 : (⟨S3200000, .i32⟩ : BufTy).Contents (Elt F) → (⟨S3200000x1, .i32⟩ : BufTy).Contents (Elt F)),
    binary main_v17 main_v30 main_v31 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v24 main_v31 main_v32 (mulf : (⟨S3200000, .f32⟩ : BufTy).Contents (Elt F) → (⟨S3200000, .f32⟩ : BufTy).Contents (Elt F) → (⟨S3200000, .f32⟩ : BufTy).Contents (Elt F)),
    binary main_arg0 main_arg1 main_v33 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)),
    nullary main_c_8 (constantI S_ 32 0#32),
    unary main_c_8 main_v34 (broadcastInDim S3200000 ![] bcast_S_S3200000 : (⟨S_, .i32⟩ : BufTy).Contents (Elt F) → (⟨S3200000, .i32⟩ : BufTy).Contents (Elt F)),
    binary main_v7 main_v34 main_v35 (cmpi .slt : (⟨S3200000, .i32⟩ : BufTy).Contents (Elt F) → (⟨S3200000, .i32⟩ : BufTy).Contents (Elt F) → (⟨S3200000, .i1⟩ : BufTy).Contents (Elt F)),
    nullary main_c_9 (constantI S_ 32 100000#32),
    unary main_c_9 main_v36 (broadcastInDim S3200000 ![] bcast_S_S3200000 : (⟨S_, .i32⟩ : BufTy).Contents (Elt F) → (⟨S3200000, .i32⟩ : BufTy).Contents (Elt F)),
    binary main_v7 main_v36 main_v37 (addi : (⟨S3200000, .i32⟩ : BufTy).Contents (Elt F) → (⟨S3200000, .i32⟩ : BufTy).Contents (Elt F) → (⟨S3200000, .i32⟩ : BufTy).Contents (Elt F)),
    ternary main_v35 main_v37 main_v7 main_v38 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v38 main_v39 (broadcastInDim S3200000x1 ![0] bcast_S3200000_S3200000x1_0 : (⟨S3200000, .i32⟩ : BufTy).Contents (Elt F) → (⟨S3200000x1, .i32⟩ : BufTy).Contents (Elt F)),
    binary main_v33 main_v39 main_v40 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)) ]

/-- Operations 55–70: the first propagated layer and its gathered rows. -/
abbrev opsLayer1 : List (HloOp τ sig (Elt F)) :=
  [ unary main_v32 main_v41 (broadcastInDim S3200000x1 ![0] bcast_S3200000_S3200000x1_0 : (⟨S3200000, .f32⟩ : BufTy).Contents (Elt F) → (⟨S3200000x1, .f32⟩ : BufTy).Contents (Elt F)),
    unary main_v41 main_v42 (broadcastInDim S3200000x64 ![0, 1] bcast_S3200000x1_S3200000x64_0_1 : (⟨S3200000x1, .f32⟩ : BufTy).Contents (Elt F) → (⟨S3200000x64, .f32⟩ : BufTy).Contents (Elt F)),
    binary main_v40 main_v42 main_v43 (mulf : (⟨S3200000x64, .f32⟩ : BufTy).Contents (Elt F) → (⟨S3200000x64, .f32⟩ : BufTy).Contents (Elt F) → (⟨S3200000x64, .f32⟩ : BufTy).Contents (Elt F)),
    nullary main_cst_10 (constant S_ .f32 0x00000000#32),
    unary main_cst_10 main_v44 (broadcastInDim S100000x64 ![] bcast_S_S100000x64 : (⟨S_, .f32⟩ : BufTy).Contents (Elt F) → (⟨S100000x64, .f32⟩ : BufTy).Contents (Elt F)),
    unary main_v6 main_v45 (broadcastInDim S3200000x1 ![0] bcast_S3200000_S3200000x1_0 : (⟨S3200000, .i32⟩ : BufTy).Contents (Elt F) → (⟨S3200000x1, .i32⟩ : BufTy).Contents (Elt F)),
    ternary main_v44 main_v45 main_v43 main_v46 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    nullary main_c_11 (constantI S_ 32 0#32),
    unary main_c_11 main_v47 (broadcastInDim S3200000 ![] bcast_S_S3200000 : (⟨S_, .i32⟩ : BufTy).Contents (Elt F) → (⟨S3200000, .i32⟩ : BufTy).Contents (Elt F)),
    binary main_v7 main_v47 main_v48 (cmpi .slt : (⟨S3200000, .i32⟩ : BufTy).Contents (Elt F) → (⟨S3200000, .i32⟩ : BufTy).Contents (Elt F) → (⟨S3200000, .i1⟩ : BufTy).Contents (Elt F)),
    nullary main_c_12 (constantI S_ 32 100000#32),
    unary main_c_12 main_v49 (broadcastInDim S3200000 ![] bcast_S_S3200000 : (⟨S_, .i32⟩ : BufTy).Contents (Elt F) → (⟨S3200000, .i32⟩ : BufTy).Contents (Elt F)),
    binary main_v7 main_v49 main_v50 (addi : (⟨S3200000, .i32⟩ : BufTy).Contents (Elt F) → (⟨S3200000, .i32⟩ : BufTy).Contents (Elt F) → (⟨S3200000, .i32⟩ : BufTy).Contents (Elt F)),
    ternary main_v48 main_v50 main_v7 main_v51 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v51 main_v52 (broadcastInDim S3200000x1 ![0] bcast_S3200000_S3200000x1_0 : (⟨S3200000, .i32⟩ : BufTy).Contents (Elt F) → (⟨S3200000x1, .i32⟩ : BufTy).Contents (Elt F)),
    binary main_v46 main_v52 main_v53 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)) ]

/-- Operations 71–86: the second propagated layer and its gathered rows. -/
abbrev opsLayer2 : List (HloOp τ sig (Elt F)) :=
  [ unary main_v32 main_v54 (broadcastInDim S3200000x1 ![0] bcast_S3200000_S3200000x1_0 : (⟨S3200000, .f32⟩ : BufTy).Contents (Elt F) → (⟨S3200000x1, .f32⟩ : BufTy).Contents (Elt F)),
    unary main_v54 main_v55 (broadcastInDim S3200000x64 ![0, 1] bcast_S3200000x1_S3200000x64_0_1 : (⟨S3200000x1, .f32⟩ : BufTy).Contents (Elt F) → (⟨S3200000x64, .f32⟩ : BufTy).Contents (Elt F)),
    binary main_v53 main_v55 main_v56 (mulf : (⟨S3200000x64, .f32⟩ : BufTy).Contents (Elt F) → (⟨S3200000x64, .f32⟩ : BufTy).Contents (Elt F) → (⟨S3200000x64, .f32⟩ : BufTy).Contents (Elt F)),
    nullary main_cst_13 (constant S_ .f32 0x00000000#32),
    unary main_cst_13 main_v57 (broadcastInDim S100000x64 ![] bcast_S_S100000x64 : (⟨S_, .f32⟩ : BufTy).Contents (Elt F) → (⟨S100000x64, .f32⟩ : BufTy).Contents (Elt F)),
    unary main_v6 main_v58 (broadcastInDim S3200000x1 ![0] bcast_S3200000_S3200000x1_0 : (⟨S3200000, .i32⟩ : BufTy).Contents (Elt F) → (⟨S3200000x1, .i32⟩ : BufTy).Contents (Elt F)),
    ternary main_v57 main_v58 main_v56 main_v59 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    nullary main_c_14 (constantI S_ 32 0#32),
    unary main_c_14 main_v60 (broadcastInDim S3200000 ![] bcast_S_S3200000 : (⟨S_, .i32⟩ : BufTy).Contents (Elt F) → (⟨S3200000, .i32⟩ : BufTy).Contents (Elt F)),
    binary main_v7 main_v60 main_v61 (cmpi .slt : (⟨S3200000, .i32⟩ : BufTy).Contents (Elt F) → (⟨S3200000, .i32⟩ : BufTy).Contents (Elt F) → (⟨S3200000, .i1⟩ : BufTy).Contents (Elt F)),
    nullary main_c_15 (constantI S_ 32 100000#32),
    unary main_c_15 main_v62 (broadcastInDim S3200000 ![] bcast_S_S3200000 : (⟨S_, .i32⟩ : BufTy).Contents (Elt F) → (⟨S3200000, .i32⟩ : BufTy).Contents (Elt F)),
    binary main_v7 main_v62 main_v63 (addi : (⟨S3200000, .i32⟩ : BufTy).Contents (Elt F) → (⟨S3200000, .i32⟩ : BufTy).Contents (Elt F) → (⟨S3200000, .i32⟩ : BufTy).Contents (Elt F)),
    ternary main_v61 main_v63 main_v7 main_v64 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v64 main_v65 (broadcastInDim S3200000x1 ![0] bcast_S3200000_S3200000x1_0 : (⟨S3200000, .i32⟩ : BufTy).Contents (Elt F) → (⟨S3200000x1, .i32⟩ : BufTy).Contents (Elt F)),
    binary main_v59 main_v65 main_v66 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)) ]

/-- Operations 87–102: the third propagated layer and its gathered rows. -/
abbrev opsLayer3 : List (HloOp τ sig (Elt F)) :=
  [ unary main_v32 main_v67 (broadcastInDim S3200000x1 ![0] bcast_S3200000_S3200000x1_0 : (⟨S3200000, .f32⟩ : BufTy).Contents (Elt F) → (⟨S3200000x1, .f32⟩ : BufTy).Contents (Elt F)),
    unary main_v67 main_v68 (broadcastInDim S3200000x64 ![0, 1] bcast_S3200000x1_S3200000x64_0_1 : (⟨S3200000x1, .f32⟩ : BufTy).Contents (Elt F) → (⟨S3200000x64, .f32⟩ : BufTy).Contents (Elt F)),
    binary main_v66 main_v68 main_v69 (mulf : (⟨S3200000x64, .f32⟩ : BufTy).Contents (Elt F) → (⟨S3200000x64, .f32⟩ : BufTy).Contents (Elt F) → (⟨S3200000x64, .f32⟩ : BufTy).Contents (Elt F)),
    nullary main_cst_16 (constant S_ .f32 0x00000000#32),
    unary main_cst_16 main_v70 (broadcastInDim S100000x64 ![] bcast_S_S100000x64 : (⟨S_, .f32⟩ : BufTy).Contents (Elt F) → (⟨S100000x64, .f32⟩ : BufTy).Contents (Elt F)),
    unary main_v6 main_v71 (broadcastInDim S3200000x1 ![0] bcast_S3200000_S3200000x1_0 : (⟨S3200000, .i32⟩ : BufTy).Contents (Elt F) → (⟨S3200000x1, .i32⟩ : BufTy).Contents (Elt F)),
    ternary main_v70 main_v71 main_v69 main_v72 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    nullary main_c_17 (constantI S_ 32 0#32),
    unary main_c_17 main_v73 (broadcastInDim S3200000 ![] bcast_S_S3200000 : (⟨S_, .i32⟩ : BufTy).Contents (Elt F) → (⟨S3200000, .i32⟩ : BufTy).Contents (Elt F)),
    binary main_v7 main_v73 main_v74 (cmpi .slt : (⟨S3200000, .i32⟩ : BufTy).Contents (Elt F) → (⟨S3200000, .i32⟩ : BufTy).Contents (Elt F) → (⟨S3200000, .i1⟩ : BufTy).Contents (Elt F)),
    nullary main_c_18 (constantI S_ 32 100000#32),
    unary main_c_18 main_v75 (broadcastInDim S3200000 ![] bcast_S_S3200000 : (⟨S_, .i32⟩ : BufTy).Contents (Elt F) → (⟨S3200000, .i32⟩ : BufTy).Contents (Elt F)),
    binary main_v7 main_v75 main_v76 (addi : (⟨S3200000, .i32⟩ : BufTy).Contents (Elt F) → (⟨S3200000, .i32⟩ : BufTy).Contents (Elt F) → (⟨S3200000, .i32⟩ : BufTy).Contents (Elt F)),
    ternary main_v74 main_v76 main_v7 main_v77 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v77 main_v78 (broadcastInDim S3200000x1 ![0] bcast_S3200000_S3200000x1_0 : (⟨S3200000, .i32⟩ : BufTy).Contents (Elt F) → (⟨S3200000x1, .i32⟩ : BufTy).Contents (Elt F)),
    binary main_v72 main_v78 main_v79 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)) ]

/-- Operations 103–109: the fourth propagated layer. -/
abbrev opsLayer4 : List (HloOp τ sig (Elt F)) :=
  [ unary main_v32 main_v80 (broadcastInDim S3200000x1 ![0] bcast_S3200000_S3200000x1_0 : (⟨S3200000, .f32⟩ : BufTy).Contents (Elt F) → (⟨S3200000x1, .f32⟩ : BufTy).Contents (Elt F)),
    unary main_v80 main_v81 (broadcastInDim S3200000x64 ![0, 1] bcast_S3200000x1_S3200000x64_0_1 : (⟨S3200000x1, .f32⟩ : BufTy).Contents (Elt F) → (⟨S3200000x64, .f32⟩ : BufTy).Contents (Elt F)),
    binary main_v79 main_v81 main_v82 (mulf : (⟨S3200000x64, .f32⟩ : BufTy).Contents (Elt F) → (⟨S3200000x64, .f32⟩ : BufTy).Contents (Elt F) → (⟨S3200000x64, .f32⟩ : BufTy).Contents (Elt F)),
    nullary main_cst_19 (constant S_ .f32 0x00000000#32),
    unary main_cst_19 main_v83 (broadcastInDim S100000x64 ![] bcast_S_S100000x64 : (⟨S_, .f32⟩ : BufTy).Contents (Elt F) → (⟨S100000x64, .f32⟩ : BufTy).Contents (Elt F)),
    unary main_v6 main_v84 (broadcastInDim S3200000x1 ![0] bcast_S3200000_S3200000x1_0 : (⟨S3200000, .i32⟩ : BufTy).Contents (Elt F) → (⟨S3200000x1, .i32⟩ : BufTy).Contents (Elt F)),
    ternary main_v83 main_v84 main_v82 main_v85 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)) ]

/-- Operations 110–120: the mean of the five layers. -/
abbrev opsMean : List (HloOp τ sig (Elt F)) :=
  [ unary main_v33 main_v86 (broadcastInDim S100000x1x64 ![0, 2] bcast_S100000x64_S100000x1x64_0_2 : (⟨S100000x64, .f32⟩ : BufTy).Contents (Elt F) → (⟨S100000x1x64, .f32⟩ : BufTy).Contents (Elt F)),
    unary main_v46 main_v87 (broadcastInDim S100000x1x64 ![0, 2] bcast_S100000x64_S100000x1x64_0_2 : (⟨S100000x64, .f32⟩ : BufTy).Contents (Elt F) → (⟨S100000x1x64, .f32⟩ : BufTy).Contents (Elt F)),
    unary main_v59 main_v88 (broadcastInDim S100000x1x64 ![0, 2] bcast_S100000x64_S100000x1x64_0_2 : (⟨S100000x64, .f32⟩ : BufTy).Contents (Elt F) → (⟨S100000x1x64, .f32⟩ : BufTy).Contents (Elt F)),
    unary main_v72 main_v89 (broadcastInDim S100000x1x64 ![0, 2] bcast_S100000x64_S100000x1x64_0_2 : (⟨S100000x64, .f32⟩ : BufTy).Contents (Elt F) → (⟨S100000x1x64, .f32⟩ : BufTy).Contents (Elt F)),
    unary main_v85 main_v90 (broadcastInDim S100000x1x64 ![0, 2] bcast_S100000x64_S100000x1x64_0_2 : (⟨S100000x64, .f32⟩ : BufTy).Contents (Elt F) → (⟨S100000x1x64, .f32⟩ : BufTy).Contents (Elt F)),
    nary ![main_v86, main_v87, main_v88, main_v89, main_v90] main_v91 (fun u => concatenate S100000x5x64 1 [⟨S100000x1x64, u 0⟩, ⟨S100000x1x64, u 1⟩, ⟨S100000x1x64, u 2⟩, ⟨S100000x1x64, u 3⟩, ⟨S100000x1x64, u 4⟩] concatenates_S100000x1x64_S100000x1x64_S100000x1x64_S100000x1x64_S100000x1x64_S100000x5x64_d1),
    nullary main_cst_20 (constant S_ .f32 0x00000000#32),
    binary main_v91 main_cst_20 main_v92 ((fun x v => Host.reduceAdd x v reducesTo_S100000x5x64_S100000x64_d1 h_S_) : (⟨S100000x5x64, .f32⟩ : BufTy).Contents (Elt F) → (⟨S_, .f32⟩ : BufTy).Contents (Elt F) → (⟨S100000x64, .f32⟩ : BufTy).Contents (Elt F)),
    nullary main_cst_21 (constant S_ .f32 0x40A00000#32),
    unary main_cst_21 main_v93 (broadcastInDim S100000x64 ![] bcast_S_S100000x64 : (⟨S_, .f32⟩ : BufTy).Contents (Elt F) → (⟨S100000x64, .f32⟩ : BufTy).Contents (Elt F)),
    binary main_v92 main_v93 main_v94 (Host.divf : (⟨S100000x64, .f32⟩ : BufTy).Contents (Elt F) → (⟨S100000x64, .f32⟩ : BufTy).Contents (Elt F) → (⟨S100000x64, .f32⟩ : BufTy).Contents (Elt F)) ]

/-- Operations 121–140: the picked user rows and item rows. -/
abbrev opsPick : List (HloOp τ sig (Elt F)) :=
  [ unary main_v94 main_v95 ((extractStridedSlice S50000x64 ![0, 0] · slices_S100000x64_S50000x64_0_0) : (⟨S100000x64, .f32⟩ : BufTy).Contents (Elt F) → (⟨S50000x64, .f32⟩ : BufTy).Contents (Elt F)),
    unary main_v94 main_v96 ((extractStridedSlice S50000x64 ![50000, 0] · slices_S100000x64_S50000x64_50000_0) : (⟨S100000x64, .f32⟩ : BufTy).Contents (Elt F) → (⟨S50000x64, .f32⟩ : BufTy).Contents (Elt F)),
    nullary main_c_22 (constantI S_ 32 0#32),
    unary main_c_22 main_v97 (broadcastInDim S4096 ![] bcast_S_S4096 : (⟨S_, .i32⟩ : BufTy).Contents (Elt F) → (⟨S4096, .i32⟩ : BufTy).Contents (Elt F)),
    binary main_arg3 main_v97 main_v98 (cmpi .slt : (⟨S4096, .i32⟩ : BufTy).Contents (Elt F) → (⟨S4096, .i32⟩ : BufTy).Contents (Elt F) → (⟨S4096, .i1⟩ : BufTy).Contents (Elt F)),
    nullary main_c_23 (constantI S_ 32 50000#32),
    unary main_c_23 main_v99 (broadcastInDim S4096 ![] bcast_S_S4096 : (⟨S_, .i32⟩ : BufTy).Contents (Elt F) → (⟨S4096, .i32⟩ : BufTy).Contents (Elt F)),
    binary main_arg3 main_v99 main_v100 (addi : (⟨S4096, .i32⟩ : BufTy).Contents (Elt F) → (⟨S4096, .i32⟩ : BufTy).Contents (Elt F) → (⟨S4096, .i32⟩ : BufTy).Contents (Elt F)),
    ternary main_v98 main_v100 main_arg3 main_v101 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v101 main_v102 (broadcastInDim S4096x1 ![0] bcast_S4096_S4096x1_0 : (⟨S4096, .i32⟩ : BufTy).Contents (Elt F) → (⟨S4096x1, .i32⟩ : BufTy).Contents (Elt F)),
    binary main_v95 main_v102 main_v103 ((fun x i => Host.gather gather_S50000x64_S4096x1_S4096x64_1_0_n_n_0_1_164 x i) : (⟨S50000x64, .f32⟩ : BufTy).Contents (Elt F) → (⟨S4096x1, .i32⟩ : BufTy).Contents (Elt F) → (⟨S4096x64, .f32⟩ : BufTy).Contents (Elt F)),
    nullary main_c_24 (constantI S_ 32 0#32),
    unary main_c_24 main_v104 (broadcastInDim S4096 ![] bcast_S_S4096 : (⟨S_, .i32⟩ : BufTy).Contents (Elt F) → (⟨S4096, .i32⟩ : BufTy).Contents (Elt F)),
    binary main_arg4 main_v104 main_v105 (cmpi .slt : (⟨S4096, .i32⟩ : BufTy).Contents (Elt F) → (⟨S4096, .i32⟩ : BufTy).Contents (Elt F) → (⟨S4096, .i1⟩ : BufTy).Contents (Elt F)),
    nullary main_c_25 (constantI S_ 32 50000#32),
    unary main_c_25 main_v106 (broadcastInDim S4096 ![] bcast_S_S4096 : (⟨S_, .i32⟩ : BufTy).Contents (Elt F) → (⟨S4096, .i32⟩ : BufTy).Contents (Elt F)),
    binary main_arg4 main_v106 main_v107 (addi : (⟨S4096, .i32⟩ : BufTy).Contents (Elt F) → (⟨S4096, .i32⟩ : BufTy).Contents (Elt F) → (⟨S4096, .i32⟩ : BufTy).Contents (Elt F)),
    ternary main_v105 main_v107 main_arg4 main_v108 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v108 main_v109 (broadcastInDim S4096x1 ![0] bcast_S4096_S4096x1_0 : (⟨S4096, .i32⟩ : BufTy).Contents (Elt F) → (⟨S4096x1, .i32⟩ : BufTy).Contents (Elt F)),
    binary main_v96 main_v109 main_v110 ((fun x i => Host.gather gather_S50000x64_S4096x1_S4096x64_1_0_n_n_0_1_164 x i) : (⟨S50000x64, .f32⟩ : BufTy).Contents (Elt F) → (⟨S4096x1, .i32⟩ : BufTy).Contents (Elt F) → (⟨S4096x64, .f32⟩ : BufTy).Contents (Elt F)) ]

/-- Operations 141–143: the row-wise dot products. -/
abbrev opsScore : List (HloOp τ sig (Elt F)) :=
  [ binary main_v103 main_v110 main_v111 (mulf : (⟨S4096x64, .f32⟩ : BufTy).Contents (Elt F) → (⟨S4096x64, .f32⟩ : BufTy).Contents (Elt F) → (⟨S4096x64, .f32⟩ : BufTy).Contents (Elt F)),
    nullary main_cst_26 (constant S_ .f32 0x00000000#32),
    binary main_v111 main_cst_26 main_v112 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) ]

/-- The whole line. -/
abbrev ops : List (HloOp τ sig (Elt F)) :=
  opsGraph ++ opsLayer1 ++ opsLayer2 ++ opsLayer3 ++ opsLayer4 ++ opsMean ++ opsPick ++ opsScore

set_option maxRecDepth 8192 in
set_option maxHeartbeats 4000000 in
/-- The program is the line run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsGraph_sub : (opsGraph : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsGraph_fresh : (opsGraph : List (HloOp τ sig (Elt F))).Forall fun op => op.fresh = ∅ := by
  simp only [List.Forall]; repeat' constructor

set_option maxRecDepth 8192 in
theorem opsLayer1_sub : (opsLayer1 : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩
theorem opsLayer1_fresh : (opsLayer1 : List (HloOp τ sig (Elt F))).Forall fun op => op.fresh = ∅ := by
  simp only [List.Forall]; repeat' constructor

set_option maxRecDepth 8192 in
theorem opsLayer2_sub : (opsLayer2 : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩
theorem opsLayer2_fresh : (opsLayer2 : List (HloOp τ sig (Elt F))).Forall fun op => op.fresh = ∅ := by
  simp only [List.Forall]; repeat' constructor

set_option maxRecDepth 8192 in
theorem opsLayer3_sub : (opsLayer3 : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩
theorem opsLayer3_fresh : (opsLayer3 : List (HloOp τ sig (Elt F))).Forall fun op => op.fresh = ∅ := by
  simp only [List.Forall]; repeat' constructor

set_option maxRecDepth 8192 in
theorem opsLayer4_sub : (opsLayer4 : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub ..⟩
theorem opsLayer4_fresh : (opsLayer4 : List (HloOp τ sig (Elt F))).Forall fun op => op.fresh = ∅ := by
  simp only [List.Forall]; repeat' constructor

set_option maxRecDepth 8192 in
theorem opsMean_sub : (opsMean : List (HloOp τ sig (Elt F))).Forall fun op => op.bufs ⊆ tcRefs τ sig :=
  ⟨unary_bufs_sub .., unary_bufs_sub .., unary_bufs_sub .., unary_bufs_sub .., unary_bufs_sub .., nary_bufs_sub .., nullary_bufs_sub .., binary_bufs_sub .., nullary_bufs_sub .., unary_bufs_sub .., binary_bufs_sub ..⟩
theorem opsMean_fresh : (opsMean : List (HloOp τ sig (Elt F))).Forall fun op => op.fresh = ∅ := by
  simp only [List.Forall]; repeat' constructor

set_option maxRecDepth 8192 in
theorem opsPick_sub : (opsPick : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsPick_fresh : (opsPick : List (HloOp τ sig (Elt F))).Forall fun op => op.fresh = ∅ := by
  simp only [List.Forall]; repeat' constructor

set_option maxRecDepth 8192 in
theorem opsScore_sub : (opsScore : List (HloOp τ sig (Elt F))).Forall fun op => op.bufs ⊆ tcRefs τ sig :=
  ⟨binary_bufs_sub .., nullary_bufs_sub .., binary_bufs_sub ..⟩
theorem opsScore_fresh : (opsScore : List (HloOp τ sig (Elt F))).Forall fun op => op.fresh = ∅ := by
  simp only [List.Forall]; repeat' constructor

/-- Every operation touches TensorCore buffers only. -/
theorem ops_sub : (ops : List (HloOp τ sig (Elt F))).Forall fun op => op.bufs ⊆ tcRefs τ sig :=
  (forall_append_of (forall_append_of (forall_append_of (forall_append_of (forall_append_of (forall_append_of (forall_append_of opsGraph_sub opsLayer1_sub) opsLayer2_sub) opsLayer3_sub) opsLayer4_sub) opsMean_sub) opsPick_sub) opsScore_sub)
/-- No operation allocates a buffer. -/
theorem ops_fresh : (ops : List (HloOp τ sig (Elt F))).Forall fun op => op.fresh = ∅ :=
  (forall_append_of (forall_append_of (forall_append_of (forall_append_of (forall_append_of (forall_append_of (forall_append_of opsGraph_fresh opsLayer1_fresh) opsLayer2_fresh) opsLayer3_fresh) opsLayer4_fresh) opsMean_fresh) opsPick_fresh) opsScore_fresh)

/-- The fold of the whole line is the stretches' folds composed. -/
theorem after_ops (V : Valuation τ sig (Elt F)) :
    after ops V = after opsScore (after opsPick (after opsMean (after opsLayer4 (after opsLayer3 (after opsLayer2 (after opsLayer1 (after opsGraph V))))))) := by
  simp only [ops, after_append]

/-- Every weakly fair execution terminates, nothing faulting, with every buffer at the fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.HandRun

end
-- ==== Proof.RefFold.lean ====
/-
  The reference's result, computed from the fold of its eight stretches.

  Each stretch is read at any contents it may start from: a propagation multiplies the gathered rows by the weights spread
  over the channels and scatter-adds them into the next layer, then gathers that layer's rows for the next propagation;
  buffers a stretch does not write keep their contents. Chaining the stretches from the first (after which the graph
  data and the stacked table are ready) to the last gives the result buffer as the score of the picked rows of the mean
  of the five layers — as the same named stages the kernel's fold uses.
-/
import proofs.«156087_j3118146257022_1_alg».proof.Proof.RefRun
import proofs.«156087_j3118146257022_1_alg».proof.Proof.Stages

set_option maxRecDepth 16384
-- reading a stretch of host operations rewrites once per (operation, buffer) pair
set_option maxHeartbeats 4000000

noncomputable section

namespace Cert.ReferenceIdeal.Fold

open Cert.ReferenceIdeal Cert.ReferenceIdeal.Gen Cert.ReferenceIdeal.HandRun
open Idealize.ShloMosaic Idealize.ShloMosaic.TcCoe Idealize.SL.Sem Idealize.ShloMosaic.StableHlo

variable {F : FTy → Type} [FloatOps F] [Named F]

/-! ## One stretch of host operations, from any contents -/

section Stretches

variable (W : Valuation τ sig (Elt F))

/-- The first stretch ends with the gathered rows of the stacked table. -/
theorem g_gather : after opsGraph W (Proc.devRef .tc main_v40)
    = Cert.KernelIdeal.Stages.gatherCols (after opsGraph W (Proc.devRef .tc main_v7)) (after opsGraph W (Proc.devRef .tc main_v33)) := by
  simp only [opsGraph]; after_results_simp <;> rfl

/-- Propagation 1: the next layer, and its gathered rows. -/
theorem r1_layer : after opsLayer1 W (Proc.devRef .tc main_v46)
    = Cert.KernelIdeal.Stages.scatterRows (W (Proc.devRef .tc main_v6)) (mulf (W (Proc.devRef .tc main_v40)) (Cert.KernelIdeal.Stages.weightsWide (W (Proc.devRef .tc main_v32)))) := by
  simp only [opsLayer1]; after_results <;> rfl
theorem r1_gather : after opsLayer1 W (Proc.devRef .tc main_v53)
    = Cert.KernelIdeal.Stages.gatherCols (W (Proc.devRef .tc main_v7)) (Cert.KernelIdeal.Stages.scatterRows (W (Proc.devRef .tc main_v6)) (mulf (W (Proc.devRef .tc main_v40)) (Cert.KernelIdeal.Stages.weightsWide (W (Proc.devRef .tc main_v32))))) := by
  simp only [opsLayer1]; after_results <;> rfl

/-- Propagation 2: the next layer, and its gathered rows. -/
theorem r2_layer : after opsLayer2 W (Proc.devRef .tc main_v59)
    = Cert.KernelIdeal.Stages.scatterRows (W (Proc.devRef .tc main_v6)) (mulf (W (Proc.devRef .tc main_v53)) (Cert.KernelIdeal.Stages.weightsWide (W (Proc.devRef .tc main_v32)))) := by
  simp only [opsLayer2]; after_results <;> rfl
theorem r2_gather : after opsLayer2 W (Proc.devRef .tc main_v66)
    = Cert.KernelIdeal.Stages.gatherCols (W (Proc.devRef .tc main_v7)) (Cert.KernelIdeal.Stages.scatterRows (W (Proc.devRef .tc main_v6)) (mulf (W (Proc.devRef .tc main_v53)) (Cert.KernelIdeal.Stages.weightsWide (W (Proc.devRef .tc main_v32))))) := by
  simp only [opsLayer2]; after_results <;> rfl

/-- Propagation 3: the next layer, and its gathered rows. -/
theorem r3_layer : after opsLayer3 W (Proc.devRef .tc main_v72)
    = Cert.KernelIdeal.Stages.scatterRows (W (Proc.devRef .tc main_v6)) (mulf (W (Proc.devRef .tc main_v66)) (Cert.KernelIdeal.Stages.weightsWide (W (Proc.devRef .tc main_v32)))) := by
  simp only [opsLayer3]; after_results <;> rfl
theorem r3_gather : after opsLayer3 W (Proc.devRef .tc main_v79)
    = Cert.KernelIdeal.Stages.gatherCols (W (Proc.devRef .tc main_v7)) (Cert.KernelIdeal.Stages.scatterRows (W (Proc.devRef .tc main_v6)) (mulf (W (Proc.devRef .tc main_v66)) (Cert.KernelIdeal.Stages.weightsWide (W (Proc.devRef .tc main_v32))))) := by
  simp only [opsLayer3]; after_results <;> rfl

/-- Propagation 4: the last layer. -/
theorem r4_layer : after opsLayer4 W (Proc.devRef .tc main_v85)
    = Cert.KernelIdeal.Stages.scatterRows (W (Proc.devRef .tc main_v6)) (mulf (W (Proc.devRef .tc main_v79)) (Cert.KernelIdeal.Stages.weightsWide (W (Proc.devRef .tc main_v32)))) := by
  simp only [opsLayer4]; after_results <;> rfl

/-- The mean of the five layers. -/
theorem r_mean : after opsMean W (Proc.devRef .tc main_v94)
    = Cert.ReferenceIdeal.Stages.meanR (W (Proc.devRef .tc main_v33)) (W (Proc.devRef .tc main_v46)) (W (Proc.devRef .tc main_v59)) (W (Proc.devRef .tc main_v72)) (W (Proc.devRef .tc main_v85)) := by
  -- the five-operand concatenate reads its operands through a vector literal: evaluate the reads, then go on rewriting
  simp only [opsMean]; after_results
  beta_reduce
  simp only [Matrix.cons_val]
  rw [← after_nil W]
  after_results <;> rfl

/-- The picked user rows and item rows of the mean. -/
theorem r_users : after opsPick W (Proc.devRef .tc main_v103) = Cert.KernelIdeal.Stages.pickUsers (W (Proc.devRef .tc main_v94)) (W (Proc.devRef .tc main_arg3)) := by
  simp only [opsPick]; after_results <;> rfl
theorem r_items : after opsPick W (Proc.devRef .tc main_v110) = Cert.KernelIdeal.Stages.pickItems (W (Proc.devRef .tc main_v94)) (W (Proc.devRef .tc main_arg4)) := by
  simp only [opsPick]; after_results <;> rfl

/-- The score. -/
theorem r_score : after opsScore W (Proc.devRef .tc main_v112) = Cert.ReferenceIdeal.Stages.scoreR (W (Proc.devRef .tc main_v103)) (W (Proc.devRef .tc main_v110)) := by
  simp only [opsScore]; after_results <;> rfl

/-- Buffers a stretch does not write keep their contents. -/
theorem k_opsLayer1_v6 : after opsLayer1 W (Proc.devRef .tc main_v6) = W (Proc.devRef .tc main_v6) := by
  simp only [opsLayer1]; after_results <;> rfl
theorem k_opsLayer1_v7 : after opsLayer1 W (Proc.devRef .tc main_v7) = W (Proc.devRef .tc main_v7) := by
  simp only [opsLayer1]; after_results <;> rfl
theorem k_opsLayer1_v32 : after opsLayer1 W (Proc.devRef .tc main_v32) = W (Proc.devRef .tc main_v32) := by
  simp only [opsLayer1]; after_results <;> rfl
theorem k_opsLayer1_v33 : after opsLayer1 W (Proc.devRef .tc main_v33) = W (Proc.devRef .tc main_v33) := by
  simp only [opsLayer1]; after_results <;> rfl
theorem k_opsLayer1_arg3 : after opsLayer1 W (Proc.devRef .tc main_arg3) = W (Proc.devRef .tc main_arg3) := by
  simp only [opsLayer1]; after_results <;> rfl
theorem k_opsLayer1_arg4 : after opsLayer1 W (Proc.devRef .tc main_arg4) = W (Proc.devRef .tc main_arg4) := by
  simp only [opsLayer1]; after_results <;> rfl
theorem k_opsLayer2_v6 : after opsLayer2 W (Proc.devRef .tc main_v6) = W (Proc.devRef .tc main_v6) := by
  simp only [opsLayer2]; after_results <;> rfl
theorem k_opsLayer2_v7 : after opsLayer2 W (Proc.devRef .tc main_v7) = W (Proc.devRef .tc main_v7) := by
  simp only [opsLayer2]; after_results <;> rfl
theorem k_opsLayer2_v32 : after opsLayer2 W (Proc.devRef .tc main_v32) = W (Proc.devRef .tc main_v32) := by
  simp only [opsLayer2]; after_results <;> rfl
theorem k_opsLayer2_v33 : after opsLayer2 W (Proc.devRef .tc main_v33) = W (Proc.devRef .tc main_v33) := by
  simp only [opsLayer2]; after_results <;> rfl
theorem k_opsLayer2_v46 : after opsLayer2 W (Proc.devRef .tc main_v46) = W (Proc.devRef .tc main_v46) := by
  simp only [opsLayer2]; after_results <;> rfl
theorem k_opsLayer2_arg3 : after opsLayer2 W (Proc.devRef .tc main_arg3) = W (Proc.devRef .tc main_arg3) := by
  simp only [opsLayer2]; after_results <;> rfl
theorem k_opsLayer2_arg4 : after opsLayer2 W (Proc.devRef .tc main_arg4) = W (Proc.devRef .tc main_arg4) := by
  simp only [opsLayer2]; after_results <;> rfl
theorem k_opsLayer3_v6 : after opsLayer3 W (Proc.devRef .tc main_v6) = W (Proc.devRef .tc main_v6) := by
  simp only [opsLayer3]; after_results <;> rfl
theorem k_opsLayer3_v32 : after opsLayer3 W (Proc.devRef .tc main_v32) = W (Proc.devRef .tc main_v32) := by
  simp only [opsLayer3]; after_results <;> rfl
theorem k_opsLayer3_v33 : after opsLayer3 W (Proc.devRef .tc main_v33) = W (Proc.devRef .tc main_v33) := by
  simp only [opsLayer3]; after_results <;> rfl
theorem k_opsLayer3_v46 : after opsLayer3 W (Proc.devRef .tc main_v46) = W (Proc.devRef .tc main_v46) := by
  simp only [opsLayer3]; after_results <;> rfl
theorem k_opsLayer3_v59 : after opsLayer3 W (Proc.devRef .tc main_v59) = W (Proc.devRef .tc main_v59) := by
  simp only [opsLayer3]; after_results <;> rfl
theorem k_opsLayer3_arg3 : after opsLayer3 W (Proc.devRef .tc main_arg3) = W (Proc.devRef .tc main_arg3) := by
  simp only [opsLayer3]; after_results <;> rfl
theorem k_opsLayer3_arg4 : after opsLayer3 W (Proc.devRef .tc main_arg4) = W (Proc.devRef .tc main_arg4) := by
  simp only [opsLayer3]; after_results <;> rfl
theorem k_opsLayer4_v33 : after opsLayer4 W (Proc.devRef .tc main_v33) = W (Proc.devRef .tc main_v33) := by
  simp only [opsLayer4]; after_results <;> rfl
theorem k_opsLayer4_v46 : after opsLayer4 W (Proc.devRef .tc main_v46) = W (Proc.devRef .tc main_v46) := by
  simp only [opsLayer4]; after_results <;> rfl
theorem k_opsLayer4_v59 : after opsLayer4 W (Proc.devRef .tc main_v59) = W (Proc.devRef .tc main_v59) := by
  simp only [opsLayer4]; after_results <;> rfl
theorem k_opsLayer4_v72 : after opsLayer4 W (Proc.devRef .tc main_v72) = W (Proc.devRef .tc main_v72) := by
  simp only [opsLayer4]; after_results <;> rfl
theorem k_opsLayer4_arg3 : after opsLayer4 W (Proc.devRef .tc main_arg3) = W (Proc.devRef .tc main_arg3) := by
  simp only [opsLayer4]; after_results <;> rfl
theorem k_opsLayer4_arg4 : after opsLayer4 W (Proc.devRef .tc main_arg4) = W (Proc.devRef .tc main_arg4) := by
  simp only [opsLayer4]; after_results <;> rfl
theorem k_opsMean_arg3 : after opsMean W (Proc.devRef .tc main_arg3) = W (Proc.devRef .tc main_arg3) := by
  simp only [opsMean]; after_results <;> rfl
theorem k_opsMean_arg4 : after opsMean W (Proc.devRef .tc main_arg4) = W (Proc.devRef .tc main_arg4) := by
  simp only [opsMean]; after_results <;> rfl

end Stretches

/-! ## The chain of stretches -/

variable (m : (ℓ : Loc nD τ sig) → Buf (Elt F) ℓ)

/-- The contents after each stretch. -/
abbrev R1 (c : Dev nD) : Valuation τ sig (Elt F) := after opsGraph (launchContents m c)
abbrev R2 (c : Dev nD) : Valuation τ sig (Elt F) := after opsLayer1 (R1 m c)
abbrev R3 (c : Dev nD) : Valuation τ sig (Elt F) := after opsLayer2 (R2 m c)
abbrev R4 (c : Dev nD) : Valuation τ sig (Elt F) := after opsLayer3 (R3 m c)
abbrev R5 (c : Dev nD) : Valuation τ sig (Elt F) := after opsLayer4 (R4 m c)
abbrev R6 (c : Dev nD) : Valuation τ sig (Elt F) := after opsMean (R5 m c)
abbrev R7 (c : Dev nD) : Valuation τ sig (Elt F) := after opsPick (R6 m c)
abbrev R8 (c : Dev nD) : Valuation τ sig (Elt F) := after opsScore (R7 m c)

/-- The graph data, the stacked table and the two index arguments, as the first stretch leaves them. -/
def rows (c : Dev nD) : (⟨S3200000, .i32⟩ : BufTy).Contents (Elt F) := R1 m c (Proc.devRef .tc main_v6)
def cols (c : Dev nD) : (⟨S3200000, .i32⟩ : BufTy).Contents (Elt F) := R1 m c (Proc.devRef .tc main_v7)
def weights (c : Dev nD) : (⟨S3200000, .f32⟩ : BufTy).Contents (Elt F) := R1 m c (Proc.devRef .tc main_v32)
def table (c : Dev nD) : (⟨S100000x64, .f32⟩ : BufTy).Contents (Elt F) := R1 m c (Proc.devRef .tc main_v33)
def users (c : Dev nD) : (⟨S4096, .i32⟩ : BufTy).Contents (Elt F) := R1 m c (Proc.devRef .tc main_arg3)
def items (c : Dev nD) : (⟨S4096, .i32⟩ : BufTy).Contents (Elt F) := R1 m c (Proc.devRef .tc main_arg4)

/-- The four propagated layers, the mean and the result, as stages of those. -/
def layer1 (c : Dev nD) : (⟨S100000x64, .f32⟩ : BufTy).Contents (Elt F) := Cert.KernelIdeal.Stages.layerR (rows m c) (cols m c) (weights m c) (table m c)
def layer2 (c : Dev nD) : (⟨S100000x64, .f32⟩ : BufTy).Contents (Elt F) := Cert.KernelIdeal.Stages.layerR (rows m c) (cols m c) (weights m c) (layer1 m c)
def layer3 (c : Dev nD) : (⟨S100000x64, .f32⟩ : BufTy).Contents (Elt F) := Cert.KernelIdeal.Stages.layerR (rows m c) (cols m c) (weights m c) (layer2 m c)
def layer4 (c : Dev nD) : (⟨S100000x64, .f32⟩ : BufTy).Contents (Elt F) := Cert.KernelIdeal.Stages.layerR (rows m c) (cols m c) (weights m c) (layer3 m c)
def meanTable (c : Dev nD) : (⟨S100000x64, .f32⟩ : BufTy).Contents (Elt F) :=
  Cert.ReferenceIdeal.Stages.meanR (table m c) (layer1 m c) (layer2 m c) (layer3 m c) (layer4 m c)
def result (c : Dev nD) : (⟨S4096, .f32⟩ : BufTy).Contents (Elt F) :=
  Cert.ReferenceIdeal.Stages.scoreR (Cert.KernelIdeal.Stages.pickUsers (meanTable m c) (users m c)) (Cert.KernelIdeal.Stages.pickItems (meanTable m c) (items m c))

/-- The mean respects equal layers. -/
theorem mean_congr {a a' b b' c c' d d' e e' : (⟨S100000x64, .f32⟩ : BufTy).Contents (Elt F)}
    (ha : a = a') (hb : b = b') (hc : c = c') (hd : d = d') (he : e = e') :
    Cert.ReferenceIdeal.Stages.meanR a b c d e = Cert.ReferenceIdeal.Stages.meanR a' b' c' d' e' := by
  subst ha hb hc hd he; rfl

/-! ### After the first stretch -/
theorem at1_v40 (c : Dev nD) : R1 m c (Proc.devRef .tc main_v40) = Cert.KernelIdeal.Stages.gatherCols (cols m c) (table m c) := g_gather (launchContents m c)
theorem at1_v6 (c : Dev nD) : R1 m c (Proc.devRef .tc main_v6) = rows m c := rfl
theorem at1_v7 (c : Dev nD) : R1 m c (Proc.devRef .tc main_v7) = cols m c := rfl
theorem at1_v32 (c : Dev nD) : R1 m c (Proc.devRef .tc main_v32) = weights m c := rfl
theorem at1_v33 (c : Dev nD) : R1 m c (Proc.devRef .tc main_v33) = table m c := rfl
theorem at1_arg3 (c : Dev nD) : R1 m c (Proc.devRef .tc main_arg3) = users m c := rfl
theorem at1_arg4 (c : Dev nD) : R1 m c (Proc.devRef .tc main_arg4) = items m c := rfl

/-! ### After propagation 1 -/
theorem at2_v46 (c : Dev nD) : R2 m c (Proc.devRef .tc main_v46) = layer1 m c :=
  (r1_layer (R1 m c)).trans (congrArg₂ Cert.KernelIdeal.Stages.scatterRows (at1_v6 m c)
    (congrArg₂ mulf (at1_v40 m c) (congrArg Cert.KernelIdeal.Stages.weightsWide (at1_v32 m c))))
theorem at2_v53 (c : Dev nD) : R2 m c (Proc.devRef .tc main_v53) = Cert.KernelIdeal.Stages.gatherCols (cols m c) (layer1 m c) :=
  (r1_gather (R1 m c)).trans (congrArg₂ Cert.KernelIdeal.Stages.gatherCols (at1_v7 m c) (congrArg₂ Cert.KernelIdeal.Stages.scatterRows (at1_v6 m c)
    (congrArg₂ mulf (at1_v40 m c) (congrArg Cert.KernelIdeal.Stages.weightsWide (at1_v32 m c)))))
theorem at2_v6 (c : Dev nD) : R2 m c (Proc.devRef .tc main_v6) = rows m c := (k_opsLayer1_v6 (R1 m c)).trans (at1_v6 m c)
theorem at2_v7 (c : Dev nD) : R2 m c (Proc.devRef .tc main_v7) = cols m c := (k_opsLayer1_v7 (R1 m c)).trans (at1_v7 m c)
theorem at2_v32 (c : Dev nD) : R2 m c (Proc.devRef .tc main_v32) = weights m c := (k_opsLayer1_v32 (R1 m c)).trans (at1_v32 m c)
theorem at2_v33 (c : Dev nD) : R2 m c (Proc.devRef .tc main_v33) = table m c := (k_opsLayer1_v33 (R1 m c)).trans (at1_v33 m c)
theorem at2_arg3 (c : Dev nD) : R2 m c (Proc.devRef .tc main_arg3) = users m c := (k_opsLayer1_arg3 (R1 m c)).trans (at1_arg3 m c)
theorem at2_arg4 (c : Dev nD) : R2 m c (Proc.devRef .tc main_arg4) = items m c := (k_opsLayer1_arg4 (R1 m c)).trans (at1_arg4 m c)

/-! ### After propagation 2 -/
theorem at3_v59 (c : Dev nD) : R3 m c (Proc.devRef .tc main_v59) = layer2 m c :=
  (r2_layer (R2 m c)).trans (congrArg₂ Cert.KernelIdeal.Stages.scatterRows (at2_v6 m c)
    (congrArg₂ mulf (at2_v53 m c) (congrArg Cert.KernelIdeal.Stages.weightsWide (at2_v32 m c))))
theorem at3_v66 (c : Dev nD) : R3 m c (Proc.devRef .tc main_v66) = Cert.KernelIdeal.Stages.gatherCols (cols m c) (layer2 m c) :=
  (r2_gather (R2 m c)).trans (congrArg₂ Cert.KernelIdeal.Stages.gatherCols (at2_v7 m c) (congrArg₂ Cert.KernelIdeal.Stages.scatterRows (at2_v6 m c)
    (congrArg₂ mulf (at2_v53 m c) (congrArg Cert.KernelIdeal.Stages.weightsWide (at2_v32 m c)))))
theorem at3_v6 (c : Dev nD) : R3 m c (Proc.devRef .tc main_v6) = rows m c := (k_opsLayer2_v6 (R2 m c)).trans (at2_v6 m c)
theorem at3_v7 (c : Dev nD) : R3 m c (Proc.devRef .tc main_v7) = cols m c := (k_opsLayer2_v7 (R2 m c)).trans (at2_v7 m c)
theorem at3_v32 (c : Dev nD) : R3 m c (Proc.devRef .tc main_v32) = weights m c := (k_opsLayer2_v32 (R2 m c)).trans (at2_v32 m c)
theorem at3_v33 (c : Dev nD) : R3 m c (Proc.devRef .tc main_v33) = table m c := (k_opsLayer2_v33 (R2 m c)).trans (at2_v33 m c)
theorem at3_v46 (c : Dev nD) : R3 m c (Proc.devRef .tc main_v46) = layer1 m c := (k_opsLayer2_v46 (R2 m c)).trans (at2_v46 m c)
theorem at3_arg3 (c : Dev nD) : R3 m c (Proc.devRef .tc main_arg3) = users m c := (k_opsLayer2_arg3 (R2 m c)).trans (at2_arg3 m c)
theorem at3_arg4 (c : Dev nD) : R3 m c (Proc.devRef .tc main_arg4) = items m c := (k_opsLayer2_arg4 (R2 m c)).trans (at2_arg4 m c)

/-! ### After propagation 3 -/
theorem at4_v72 (c : Dev nD) : R4 m c (Proc.devRef .tc main_v72) = layer3 m c :=
  (r3_layer (R3 m c)).trans (congrArg₂ Cert.KernelIdeal.Stages.scatterRows (at3_v6 m c)
    (congrArg₂ mulf (at3_v66 m c) (congrArg Cert.KernelIdeal.Stages.weightsWide (at3_v32 m c))))
theorem at4_v79 (c : Dev nD) : R4 m c (Proc.devRef .tc main_v79) = Cert.KernelIdeal.Stages.gatherCols (cols m c) (layer3 m c) :=
  (r3_gather (R3 m c)).trans (congrArg₂ Cert.KernelIdeal.Stages.gatherCols (at3_v7 m c) (congrArg₂ Cert.KernelIdeal.Stages.scatterRows (at3_v6 m c)
    (congrArg₂ mulf (at3_v66 m c) (congrArg Cert.KernelIdeal.Stages.weightsWide (at3_v32 m c)))))
theorem at4_v6 (c : Dev nD) : R4 m c (Proc.devRef .tc main_v6) = rows m c := (k_opsLayer3_v6 (R3 m c)).trans (at3_v6 m c)
theorem at4_v32 (c : Dev nD) : R4 m c (Proc.devRef .tc main_v32) = weights m c := (k_opsLayer3_v32 (R3 m c)).trans (at3_v32 m c)
theorem at4_v33 (c : Dev nD) : R4 m c (Proc.devRef .tc main_v33) = table m c := (k_opsLayer3_v33 (R3 m c)).trans (at3_v33 m c)
theorem at4_v46 (c : Dev nD) : R4 m c (Proc.devRef .tc main_v46) = layer1 m c := (k_opsLayer3_v46 (R3 m c)).trans (at3_v46 m c)
theorem at4_v59 (c : Dev nD) : R4 m c (Proc.devRef .tc main_v59) = layer2 m c := (k_opsLayer3_v59 (R3 m c)).trans (at3_v59 m c)
theorem at4_arg3 (c : Dev nD) : R4 m c (Proc.devRef .tc main_arg3) = users m c := (k_opsLayer3_arg3 (R3 m c)).trans (at3_arg3 m c)
theorem at4_arg4 (c : Dev nD) : R4 m c (Proc.devRef .tc main_arg4) = items m c := (k_opsLayer3_arg4 (R3 m c)).trans (at3_arg4 m c)

/-! ### After propagation 4 -/
theorem at5_v85 (c : Dev nD) : R5 m c (Proc.devRef .tc main_v85) = layer4 m c :=
  (r4_layer (R4 m c)).trans (congrArg₂ Cert.KernelIdeal.Stages.scatterRows (at4_v6 m c)
    (congrArg₂ mulf (at4_v79 m c) (congrArg Cert.KernelIdeal.Stages.weightsWide (at4_v32 m c))))
theorem at5_v33 (c : Dev nD) : R5 m c (Proc.devRef .tc main_v33) = table m c := (k_opsLayer4_v33 (R4 m c)).trans (at4_v33 m c)
theorem at5_v46 (c : Dev nD) : R5 m c (Proc.devRef .tc main_v46) = layer1 m c := (k_opsLayer4_v46 (R4 m c)).trans (at4_v46 m c)
theorem at5_v59 (c : Dev nD) : R5 m c (Proc.devRef .tc main_v59) = layer2 m c := (k_opsLayer4_v59 (R4 m c)).trans (at4_v59 m c)
theorem at5_v72 (c : Dev nD) : R5 m c (Proc.devRef .tc main_v72) = layer3 m c := (k_opsLayer4_v72 (R4 m c)).trans (at4_v72 m c)
theorem at5_arg3 (c : Dev nD) : R5 m c (Proc.devRef .tc main_arg3) = users m c := (k_opsLayer4_arg3 (R4 m c)).trans (at4_arg3 m c)
theorem at5_arg4 (c : Dev nD) : R5 m c (Proc.devRef .tc main_arg4) = items m c := (k_opsLayer4_arg4 (R4 m c)).trans (at4_arg4 m c)

/-! ### After the mean, the picks and the score -/
theorem at6_v94 (c : Dev nD) : R6 m c (Proc.devRef .tc main_v94) = meanTable m c :=
  (r_mean (R5 m c)).trans (mean_congr (at5_v33 m c) (at5_v46 m c) (at5_v59 m c) (at5_v72 m c) (at5_v85 m c))
theorem at6_arg3 (c : Dev nD) : R6 m c (Proc.devRef .tc main_arg3) = users m c := (k_opsMean_arg3 (R5 m c)).trans (at5_arg3 m c)
theorem at6_arg4 (c : Dev nD) : R6 m c (Proc.devRef .tc main_arg4) = items m c := (k_opsMean_arg4 (R5 m c)).trans (at5_arg4 m c)
theorem at7_v103 (c : Dev nD) : R7 m c (Proc.devRef .tc main_v103) = Cert.KernelIdeal.Stages.pickUsers (meanTable m c) (users m c) :=
  (r_users (R6 m c)).trans (congrArg₂ Cert.KernelIdeal.Stages.pickUsers (at6_v94 m c) (at6_arg3 m c))
theorem at7_v110 (c : Dev nD) : R7 m c (Proc.devRef .tc main_v110) = Cert.KernelIdeal.Stages.pickItems (meanTable m c) (items m c) :=
  (r_items (R6 m c)).trans (congrArg₂ Cert.KernelIdeal.Stages.pickItems (at6_v94 m c) (at6_arg4 m c))

/-- THE REFERENCE'S RESULT: the score of the picked rows of the mean of the five layers. -/
theorem at8_result (c : Dev nD) : after ops (launchContents m c) (Proc.devRef .tc main_v112) = result m c := by
  rw [after_ops]
  exact (r_score (R7 m c)).trans (congrArg₂ Cert.ReferenceIdeal.Stages.scoreR (at7_v103 m c) (at7_v110 m c))

/-! ## The arguments are never written -/

theorem kept_arg0 (V : Valuation τ sig (Elt F)) : after ops V (Proc.devRef .tc main_arg0) = V (Proc.devRef .tc main_arg0) :=
  after_of_forall_not_mem (b := Proc.devRef .tc main_arg0) _ _ (List.forall_iff_forall_mem.mp (by
    simp only [ops, opsGraph, opsLayer1, opsLayer2, opsLayer3, opsLayer4, opsMean, opsPick, opsScore, List.cons_append, List.nil_append, List.append_assoc,
      List.Forall, nullary_writes, unary_writes, binary_writes, ternary_writes, quaternary_writes, reshape_writes, binaryIndexed_writes, nary_writes, Finset.mem_singleton]
    repeat' apply And.intro
    all_goals exact devRef_ne_of_ne (by decide)))

theorem kept_arg1 (V : Valuation τ sig (Elt F)) : after ops V (Proc.devRef .tc main_arg1) = V (Proc.devRef .tc main_arg1) :=
  after_of_forall_not_mem (b := Proc.devRef .tc main_arg1) _ _ (List.forall_iff_forall_mem.mp (by
    simp only [ops, opsGraph, opsLayer1, opsLayer2, opsLayer3, opsLayer4, opsMean, opsPick, opsScore, List.cons_append, List.nil_append, List.append_assoc,
      List.Forall, nullary_writes, unary_writes, binary_writes, ternary_writes, quaternary_writes, reshape_writes, binaryIndexed_writes, nary_writes, Finset.mem_singleton]
    repeat' apply And.intro
    all_goals exact devRef_ne_of_ne (by decide)))

theorem kept_arg2 (V : Valuation τ sig (Elt F)) : after ops V (Proc.devRef .tc main_arg2) = V (Proc.devRef .tc main_arg2) :=
  after_of_forall_not_mem (b := Proc.devRef .tc main_arg2) _ _ (List.forall_iff_forall_mem.mp (by
    simp only [ops, opsGraph, opsLayer1, opsLayer2, opsLayer3, opsLayer4, opsMean, opsPick, opsScore, List.cons_append, List.nil_append, List.append_assoc,
      List.Forall, nullary_writes, unary_writes, binary_writes, ternary_writes, quaternary_writes, reshape_writes, binaryIndexed_writes, nary_writes, Finset.mem_singleton]
    repeat' apply And.intro
    all_goals exact devRef_ne_of_ne (by decide)))

theorem kept_arg3 (V : Valuation τ sig (Elt F)) : after ops V (Proc.devRef .tc main_arg3) = V (Proc.devRef .tc main_arg3) :=
  after_of_forall_not_mem (b := Proc.devRef .tc main_arg3) _ _ (List.forall_iff_forall_mem.mp (by
    simp only [ops, opsGraph, opsLayer1, opsLayer2, opsLayer3, opsLayer4, opsMean, opsPick, opsScore, List.cons_append, List.nil_append, List.append_assoc,
      List.Forall, nullary_writes, unary_writes, binary_writes, ternary_writes, quaternary_writes, reshape_writes, binaryIndexed_writes, nary_writes, Finset.mem_singleton]
    repeat' apply And.intro
    all_goals exact devRef_ne_of_ne (by decide)))

theorem kept_arg4 (V : Valuation τ sig (Elt F)) : after ops V (Proc.devRef .tc main_arg4) = V (Proc.devRef .tc main_arg4) :=
  after_of_forall_not_mem (b := Proc.devRef .tc main_arg4) _ _ (List.forall_iff_forall_mem.mp (by
    simp only [ops, opsGraph, opsLayer1, opsLayer2, opsLayer3, opsLayer4, opsMean, opsPick, opsScore, List.cons_append, List.nil_append, List.append_assoc,
      List.Forall, nullary_writes, unary_writes, binary_writes, ternary_writes, quaternary_writes, reshape_writes, binaryIndexed_writes, nary_writes, Finset.mem_singleton]
    repeat' apply And.intro
    all_goals exact devRef_ne_of_ne (by decide)))

end Cert.ReferenceIdeal.Fold

end
-- ==== Proof.MeanLaw.lean ====
/-
  The arithmetic that joins the two mean-pools, on the extended reals.

  One program multiplies the sum of five layers by the rational 1/5; the other adds the same sum onto a zero and divides
  by the float 5.0, which denotes the real 5. Adding onto zero changes nothing, and dividing any extended real (finite
  or not) by a nonzero real r is multiplying it by 1/r. So the two means agree on every input, the infinite ones
  included: no finiteness is used.
-/
import Idealize.ShloMosaic.PureOps.Ideal
import Idealize.ShloMosaic.PureOps.Ideal.Laws

noncomputable section

namespace Cert.MeanLaw

open Idealize.ShloMosaic

/-- The float word of `5.0` denotes the real number 5. -/
theorem ofBits_five : Ideal.ofBits .f32 0x40A00000#32 = ((5 : ℝ) : EReal) := by
  simp [Ideal.ofBits, Ideal.ieee, -EReal.coe_mul]; norm_num

/-- A sum added onto zero and divided by 5 is the sum multiplied by 1/5, for every extended real. -/
theorem mean_five (s : EReal) : Ideal.div (0 + s) ((5 : ℝ) : EReal) = s * ((1 / 5 : ℝ) : EReal) := by
  rw [zero_add, Ideal.div_coe (by norm_num : (5 : ℝ) ≠ 0)]

end Cert.MeanLaw

end
-- ==== Proof.Bridges.lean ====
/-
  The second and third bridges, at the ideal instance (floats are extended reals, operations exact).

  THE MEAN. The kernel's pooled entry is (a + b + c + d + e) · 1/5, the named constant denoting the rational 1/5. The
  reference stacks the five layers along a new axis, sums along it starting from the float zero and divides by the float
  5.0: entry by entry that is (0 + (a + b + c + d + e)) / 5, the stack read back slice by slice. The two agree on every
  extended real (`MeanLaw.mean_five`).

  THE SCORE. The kernel's region multiplies the two operands entry by entry, sums each row over its 64 channels, lays the
  sums out as a column, and the host reshapes the column to a vector; the reference multiplies and sums each row starting
  from the float zero. Reshaping there and back is the identity, and both row sums are the same finite sum of products.
-/
import proofs.«156087_j3118146257022_1_alg».proof.Proof.Stages
import proofs.«156087_j3118146257022_1_alg».proof.Proof.PoolRegion
import proofs.«156087_j3118146257022_1_alg».proof.Proof.MeanLaw
import Idealize.ShloMosaic.PureOps.Ideal.Laws
import Idealize.ShloMosaic.PureOps.IdealRules
import Idealize.ShloMosaic.Lib.Pipeline.Value

noncomputable section

namespace Cert.Bridges

open Idealize.ShloMosaic Idealize.ShloMosaic.TcCoe
open Cert.KernelIdeal Cert.KernelIdeal.Gen

/-- The kernel's named fifth denotes the rational 1/5 at the ideal instance, by the certificate's table. -/
theorem fifth : Named.named (F := Ideal) Cert.KernelIdeal.κ "inv_5" (φ := .f32) 0x3E4CCCCD#32 = ((1 / 5 : ℝ) : EReal) :=
  IdealRules.named_const.ideal_named_scalar _ _ _ _ rfl

/-- Where an entry of the table sits in slice k of the five-layer stack. -/
def inStack (i : S100000x64.Idx) (k : Fin 5) : Cert.ReferenceIdeal.S100000x5x64.Idx := fun a => match a with
  | ⟨0, _⟩ => ⟨(i 0).val, (i 0).isLt⟩
  | ⟨1, _⟩ => ⟨k.val, k.isLt⟩
  | ⟨2, _⟩ => ⟨(i 1).val, (i 1).isLt⟩

/-- Where an entry of the table sits in one layer read as a slice. -/
def inSlice (i : S100000x64.Idx) : Cert.ReferenceIdeal.S100000x1x64.Idx := fun a => match a with
  | ⟨0, _⟩ => ⟨(i 0).val, (i 0).isLt⟩
  | ⟨1, _⟩ => ⟨0, Nat.one_pos⟩
  | ⟨2, _⟩ => ⟨(i 1).val, (i 1).isLt⟩

/-- A layer read as a slice holds, at an entry's place, the layer's entry. -/
theorem asSlice_apply (x : S100000x64.Idx → EReal) (i : S100000x64.Idx) :
    Cert.ReferenceIdeal.Stages.asSlice (F := Ideal) x (inSlice i) = x i := by
  unfold Cert.ReferenceIdeal.Stages.asSlice
  exact broadcastInDim_apply (![0, 2] : Fin 2 → Fin 3) Cert.ReferenceIdeal.Gen.bcast_S100000x64_S100000x1x64_0_2 x (inSlice i) i (fun a => match a with
    | ⟨0, _⟩ => by show (i 0).val = if (100000 : Nat) = 1 then 0 else (i 0).val; rw [if_neg (by decide)]
    | ⟨1, _⟩ => by show (i 1).val = if (64 : Nat) = 1 then 0 else (i 1).val; rw [if_neg (by decide)])

/-- The five layers read as slices, in stacking order. -/
def slices (a b c d e : S100000x64.Idx → EReal) : List ((s : Shape) × (s.Idx → EReal)) :=
  [⟨Cert.ReferenceIdeal.S100000x1x64, Cert.ReferenceIdeal.Stages.asSlice (F := Ideal) a⟩,
   ⟨Cert.ReferenceIdeal.S100000x1x64, Cert.ReferenceIdeal.Stages.asSlice (F := Ideal) b⟩,
   ⟨Cert.ReferenceIdeal.S100000x1x64, Cert.ReferenceIdeal.Stages.asSlice (F := Ideal) c⟩,
   ⟨Cert.ReferenceIdeal.S100000x1x64, Cert.ReferenceIdeal.Stages.asSlice (F := Ideal) d⟩,
   ⟨Cert.ReferenceIdeal.S100000x1x64, Cert.ReferenceIdeal.Stages.asSlice (F := Ideal) e⟩]

/-- The stack read at an entry's place in slice k is layer k's entry. -/
theorem stack_apply (a b c d e : S100000x64.Idx → EReal) (i : S100000x64.Idx)
    (h : Shape.Concatenates ((slices a b c d e).map (·.1)) Cert.ReferenceIdeal.S100000x5x64 1) :
    concatenate Cert.ReferenceIdeal.S100000x5x64 1 (slices a b c d e) h (inStack i 0) = a i
    ∧ concatenate Cert.ReferenceIdeal.S100000x5x64 1 (slices a b c d e) h (inStack i 1) = b i
    ∧ concatenate Cert.ReferenceIdeal.S100000x5x64 1 (slices a b c d e) h (inStack i 2) = c i
    ∧ concatenate Cert.ReferenceIdeal.S100000x5x64 1 (slices a b c d e) h (inStack i 3) = d i
    ∧ concatenate Cert.ReferenceIdeal.S100000x5x64 1 (slices a b c d e) h (inStack i 4) = e i := by
  have off : ∀ bb : Fin Cert.ReferenceIdeal.S100000x1x64.rank, bb.cast (rfl : Cert.ReferenceIdeal.S100000x1x64.rank = Cert.ReferenceIdeal.S100000x5x64.rank) ≠ (1 : Fin 3) →
      ∀ k : Fin 5, (inSlice i bb).val = (inStack i k (bb.cast rfl)).val := fun bb hb k => by
    match bb with
    | ⟨0, _⟩ => rfl
    | ⟨1, _⟩ => exact absurd rfl hb
    | ⟨2, _⟩ => rfl
  refine ⟨?_, ?_, ?_, ?_, ?_⟩
  · exact (concatenate_apply_piece (1 : Fin 3) (slices a b c d e) h (inStack i 0) 0 (by show (0 : Nat) < 5; decide) _ _ rfl rfl 0 (by rfl) (inSlice i) (fun bb hb => off bb hb 0) rfl).trans (asSlice_apply a i)
  · exact (concatenate_apply_piece (1 : Fin 3) (slices a b c d e) h (inStack i 1) 1 (by show (1 : Nat) < 5; decide) _ _ rfl rfl 1 (by rfl) (inSlice i) (fun bb hb => off bb hb 1) rfl).trans (asSlice_apply b i)
  · exact (concatenate_apply_piece (1 : Fin 3) (slices a b c d e) h (inStack i 2) 2 (by show (2 : Nat) < 5; decide) _ _ rfl rfl 2 (by rfl) (inSlice i) (fun bb hb => off bb hb 2) rfl).trans (asSlice_apply c i)
  · exact (concatenate_apply_piece (1 : Fin 3) (slices a b c d e) h (inStack i 3) 3 (by show (3 : Nat) < 5; decide) _ _ rfl rfl 3 (by rfl) (inSlice i) (fun bb hb => off bb hb 3) rfl).trans (asSlice_apply d i)
  · exact (concatenate_apply_piece (1 : Fin 3) (slices a b c d e) h (inStack i 4) 4 (by show (4 : Nat) < 5; decide) _ _ rfl rfl 4 (by rfl) (inSlice i) (fun bb hb => off bb hb 4) rfl).trans (asSlice_apply e i)

/-- THE SECOND BRIDGE: the kernel's pooled table is the reference's mean of the five layers. -/
theorem mean_eq (a b c d e : S100000x64.Idx → EReal) :
    Cert.KernelIdeal.Pool.pooled (F := Ideal) a b c d e = Cert.ReferenceIdeal.Stages.meanR (F := Ideal) a b c d e := by
  funext i
  obtain ⟨p0, p1, p2, p3, p4⟩ := stack_apply a b c d e i Cert.ReferenceIdeal.Gen.concatenates_S100000x1x64_S100000x1x64_S100000x1x64_S100000x1x64_S100000x1x64_S100000x5x64_d1
  -- the reference's numerator: zero plus the five layers' entries
  have hnum : Host.reduceAdd (F := Ideal) (concatenate Cert.ReferenceIdeal.S100000x5x64 1 (slices a b c d e) Cert.ReferenceIdeal.Gen.concatenates_S100000x1x64_S100000x1x64_S100000x1x64_S100000x1x64_S100000x1x64_S100000x5x64_d1)
      (constant (F := Ideal) Cert.ReferenceIdeal.S_ .f32 0x00000000#32) Cert.ReferenceIdeal.Gen.reducesTo_S100000x5x64_S100000x64_d1 Cert.ReferenceIdeal.Gen.h_S_ i
      = 0 + (a i + b i + c i + d i + e i) := by
    simp only [Host.reduceAdd, Ideal.hostReduceAdd_def]
    rw [Ideal.hostReduceAdd_single Cert.ReferenceIdeal.Gen.reducesTo_S100000x5x64_S100000x64_d1 (by decide)]
    refine congrArg₂ (· + ·) Ideal.ofBits_zero_f32 ?_
    refine (Fin.sum_univ_five _).trans ?_
    refine (congrArg₂ (· + ·) (congrArg₂ (· + ·) (congrArg₂ (· + ·) (congrArg₂ (· + ·) ?_ ?_) ?_) ?_) ?_)
    · exact (congrArg _ (funext fun aa => Fin.ext (by match aa with | ⟨0, _⟩ => rfl | ⟨1, _⟩ => rfl | ⟨2, _⟩ => rfl))).trans p0
    · exact (congrArg _ (funext fun aa => Fin.ext (by match aa with | ⟨0, _⟩ => rfl | ⟨1, _⟩ => rfl | ⟨2, _⟩ => rfl))).trans p1
    · exact (congrArg _ (funext fun aa => Fin.ext (by match aa with | ⟨0, _⟩ => rfl | ⟨1, _⟩ => rfl | ⟨2, _⟩ => rfl))).trans p2
    · exact (congrArg _ (funext fun aa => Fin.ext (by match aa with | ⟨0, _⟩ => rfl | ⟨1, _⟩ => rfl | ⟨2, _⟩ => rfl))).trans p3
    · exact (congrArg _ (funext fun aa => Fin.ext (by match aa with | ⟨0, _⟩ => rfl | ⟨1, _⟩ => rfl | ⟨2, _⟩ => rfl))).trans p4
  -- the reference's denominator: the float 5.0 everywhere
  have hden : broadcastInDim Cert.ReferenceIdeal.S100000x64 (![] : Fin 0 → Fin 2) Cert.ReferenceIdeal.Gen.bcast_S_S100000x64 (constant (F := Ideal) Cert.ReferenceIdeal.S_ .f32 0x40A00000#32) i = ((5 : ℝ) : EReal) :=
    (broadcastInDim_apply (s := Cert.ReferenceIdeal.S_) (t := Cert.ReferenceIdeal.S100000x64) (![] : Fin 0 → Fin 2) Cert.ReferenceIdeal.Gen.bcast_S_S100000x64
      (constant (F := Ideal) Cert.ReferenceIdeal.S_ .f32 0x40A00000#32) i (fun aa => aa.elim0) (fun aa => aa.elim0)).trans
      (show constant (F := Ideal) Cert.ReferenceIdeal.S_ .f32 0x40A00000#32 (fun aa => aa.elim0) = ((5 : ℝ) : EReal) from MeanLaw.ofBits_five)
  show (a i + b i + c i + d i + e i) * Named.named (F := Ideal) Cert.KernelIdeal.κ "inv_5" (φ := .f32) 0x3E4CCCCD#32
     = Ideal.div (Host.reduceAdd (F := Ideal) (concatenate Cert.ReferenceIdeal.S100000x5x64 1 (slices a b c d e) _) (constant (F := Ideal) Cert.ReferenceIdeal.S_ .f32 0x00000000#32) _ _ i)
        (broadcastInDim Cert.ReferenceIdeal.S100000x64 (![] : Fin 0 → Fin 2) _ (constant (F := Ideal) Cert.ReferenceIdeal.S_ .f32 0x40A00000#32) i)
  rw [hnum, hden, fifth, MeanLaw.mean_five]

/-- THE THIRD BRIDGE: the kernel's score is the reference's score. -/
theorem score_eq (u v : S4096x64.Idx → EReal) :
    Cert.KernelIdeal.Stages.scoreK (F := Ideal) u v = Cert.ReferenceIdeal.Stages.scoreR (F := Ideal) u v := by
  funext j
  have hK : Cert.KernelIdeal.Stages.scoreK (F := Ideal) u v j
      = ∑ k : Fin (S4096x64.size 1), (mulf (F := Ideal) (φ := .f32) u v) (reduces_S4096x64_S4096.lift j k) := by
    unfold Cert.KernelIdeal.Stages.scoreK k5_pay1
    simp only [shapeCast_self, shapeCast_shapeCast]
    exact Ideal.multiReduction_add_single _ _ _ _ _ j
  have hR : Cert.ReferenceIdeal.Stages.scoreR (F := Ideal) u v j
      = 0 + ∑ k : Fin (S4096x64.size 1), (mulf (F := Ideal) (φ := .f32) u v) (reduces_S4096x64_S4096.lift j k) := by
    unfold Cert.ReferenceIdeal.Stages.scoreR
    simp only [Host.reduceAdd, Ideal.hostReduceAdd_def]
    rw [Ideal.hostReduceAdd_single Cert.ReferenceIdeal.Gen.reducesTo_S4096x64_S4096_d1 reduces_S4096x64_S4096]
    exact congrArg (· + _) Ideal.ofBits_zero_f32
  rw [hK, hR, zero_add]

end Cert.Bridges

end
-- ==== Proof.Join.lean ====
/-
  The two results are one function of the arguments, and the five claims.

  Both programs build their graph data, their stacked table and their index arguments by the same host operations from
  arguments that agree, so those six values are equal. Each propagated layer is then equal by the first bridge (a row's
  weight is read at the same edge), the pooled table by the second (a zero-initialised sum divided by 5 is the sum times
  1/5 on every extended real), and the score by the third (the same finite sum of products). The gathers and the
  scatter-adds are the same operations applied to equal operands throughout, and are never opened. No finiteness of
  the inputs is used.
-/
import proofs.«156087_j3118146257022_1_alg».proof.Defs
import proofs.«156087_j3118146257022_1_alg».proof.Proof.Gen.Kernel.Frame
import proofs.«156087_j3118146257022_1_alg».proof.Proof.Gen.Pre_finite_inputs
import proofs.«156087_j3118146257022_1_alg».proof.Proof.Gen.ReferenceIdeal
import proofs.«156087_j3118146257022_1_alg».proof.Proof.Gen.KernelIdeal.Frame
import proofs.«156087_j3118146257022_1_alg».proof.Proof.ResultRun
import proofs.«156087_j3118146257022_1_alg».proof.Proof.KernelFold
import proofs.«156087_j3118146257022_1_alg».proof.Proof.RefRun
import proofs.«156087_j3118146257022_1_alg».proof.Proof.RefFold
import proofs.«156087_j3118146257022_1_alg».proof.Proof.Bridges
import Idealize.ShloMosaic.PureOps.IdealRules

set_option maxRecDepth 16384
set_option maxHeartbeats 8000000

noncomputable section

namespace Cert.Join

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-! ## The graph data, the table and the index arguments agree -/

theorem rows_eq (c : Dev Cert.KernelIdeal.nD) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Fold.rows m ρ c = Cert.ReferenceIdeal.Fold.rows m' c := by
  unfold Cert.KernelIdeal.Fold.rows Cert.ReferenceIdeal.Fold.rows
  simp only [Cert.KernelIdeal.Gen.W3, Cert.KernelIdeal.Gen.W2, Cert.KernelIdeal.Gen.W1, Cert.ReferenceIdeal.Fold.R1, Cert.KernelIdeal.Gen.hostOps0, Cert.KernelIdeal.Gen.hostOps0_1, Cert.KernelIdeal.Gen.hostOps0_2, Cert.ReferenceIdeal.HandRun.opsGraph]
  -- one fast pass, then the operands inside the concatenations' lists, which only rewriting under a motive reaches
  after_results_simp
  try (rw [← after_nil (Cert.KernelIdeal.Gen.W0 m ρ c), ← after_nil (launchContents m' c)]; after_results)
  (rw [show launchContents m' c (Proc.devRef .tc Cert.ReferenceIdeal.main_arg2) = Cert.KernelIdeal.Gen.W0 m ρ c (Proc.devRef .tc Cert.KernelIdeal.main_arg2) from h2]) <;> rfl
theorem cols_eq (c : Dev Cert.KernelIdeal.nD) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Fold.cols m ρ c = Cert.ReferenceIdeal.Fold.cols m' c := by
  unfold Cert.KernelIdeal.Fold.cols Cert.ReferenceIdeal.Fold.cols
  simp only [Cert.KernelIdeal.Gen.W3, Cert.KernelIdeal.Gen.W2, Cert.KernelIdeal.Gen.W1, Cert.ReferenceIdeal.Fold.R1, Cert.KernelIdeal.Gen.hostOps0, Cert.KernelIdeal.Gen.hostOps0_1, Cert.KernelIdeal.Gen.hostOps0_2, Cert.ReferenceIdeal.HandRun.opsGraph]
  -- one fast pass, then the operands inside the concatenations' lists, which only rewriting under a motive reaches
  after_results_simp
  try (rw [← after_nil (Cert.KernelIdeal.Gen.W0 m ρ c), ← after_nil (launchContents m' c)]; after_results)
  (rw [show launchContents m' c (Proc.devRef .tc Cert.ReferenceIdeal.main_arg2) = Cert.KernelIdeal.Gen.W0 m ρ c (Proc.devRef .tc Cert.KernelIdeal.main_arg2) from h2]) <;> rfl
theorem weights_eq (c : Dev Cert.KernelIdeal.nD) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Fold.weights m ρ c = Cert.ReferenceIdeal.Fold.weights m' c := by
  unfold Cert.KernelIdeal.Fold.weights Cert.ReferenceIdeal.Fold.weights
  simp only [Cert.KernelIdeal.Gen.W3, Cert.KernelIdeal.Gen.W2, Cert.KernelIdeal.Gen.W1, Cert.ReferenceIdeal.Fold.R1, Cert.KernelIdeal.Gen.hostOps0, Cert.KernelIdeal.Gen.hostOps0_1, Cert.KernelIdeal.Gen.hostOps0_2, Cert.ReferenceIdeal.HandRun.opsGraph]
  -- one fast pass, then the operands inside the concatenations' lists, which only rewriting under a motive reaches
  after_results_simp
  try (rw [← after_nil (Cert.KernelIdeal.Gen.W0 m ρ c), ← after_nil (launchContents m' c)]; after_results)
  (rw [show launchContents m' c (Proc.devRef .tc Cert.ReferenceIdeal.main_arg2) = Cert.KernelIdeal.Gen.W0 m ρ c (Proc.devRef .tc Cert.KernelIdeal.main_arg2) from h2]) <;> rfl
theorem table_eq (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Fold.table m ρ c = Cert.ReferenceIdeal.Fold.table m' c := by
  unfold Cert.KernelIdeal.Fold.table Cert.ReferenceIdeal.Fold.table
  simp only [Cert.KernelIdeal.Gen.W3, Cert.KernelIdeal.Gen.W2, Cert.KernelIdeal.Gen.W1, Cert.ReferenceIdeal.Fold.R1, Cert.KernelIdeal.Gen.hostOps0, Cert.KernelIdeal.Gen.hostOps0_1, Cert.KernelIdeal.Gen.hostOps0_2, Cert.ReferenceIdeal.HandRun.opsGraph]
  -- one fast pass, then the operands inside the concatenations' lists, which only rewriting under a motive reaches
  after_results_simp
  try (rw [← after_nil (Cert.KernelIdeal.Gen.W0 m ρ c), ← after_nil (launchContents m' c)]; after_results)
  (rw [show launchContents m' c (Proc.devRef .tc Cert.ReferenceIdeal.main_arg0) = Cert.KernelIdeal.Gen.W0 m ρ c (Proc.devRef .tc Cert.KernelIdeal.main_arg0) from h0, show launchContents m' c (Proc.devRef .tc Cert.ReferenceIdeal.main_arg1) = Cert.KernelIdeal.Gen.W0 m ρ c (Proc.devRef .tc Cert.KernelIdeal.main_arg1) from h1]) <;> rfl
theorem users_eq (c : Dev Cert.KernelIdeal.nD) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.Fold.users m ρ c = Cert.ReferenceIdeal.Fold.users m' c := by
  unfold Cert.KernelIdeal.Fold.users Cert.ReferenceIdeal.Fold.users
  simp only [Cert.KernelIdeal.Gen.W3, Cert.KernelIdeal.Gen.W2, Cert.KernelIdeal.Gen.W1, Cert.ReferenceIdeal.Fold.R1, Cert.KernelIdeal.Gen.hostOps0, Cert.KernelIdeal.Gen.hostOps0_1, Cert.KernelIdeal.Gen.hostOps0_2, Cert.ReferenceIdeal.HandRun.opsGraph]
  after_results_simp
  (simp only [show launchContents m' c (Proc.devRef .tc Cert.ReferenceIdeal.main_arg3) = Cert.KernelIdeal.Gen.W0 m ρ c (Proc.devRef .tc Cert.KernelIdeal.main_arg3) from h3]) <;> rfl

theorem items_eq (c : Dev Cert.KernelIdeal.nD) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Fold.items m ρ c = Cert.ReferenceIdeal.Fold.items m' c := by
  unfold Cert.KernelIdeal.Fold.items Cert.ReferenceIdeal.Fold.items
  simp only [Cert.KernelIdeal.Gen.W3, Cert.KernelIdeal.Gen.W2, Cert.KernelIdeal.Gen.W1, Cert.ReferenceIdeal.Fold.R1, Cert.KernelIdeal.Gen.hostOps0, Cert.KernelIdeal.Gen.hostOps0_1, Cert.KernelIdeal.Gen.hostOps0_2, Cert.ReferenceIdeal.HandRun.opsGraph]
  after_results_simp
  (simp only [show launchContents m' c (Proc.devRef .tc Cert.ReferenceIdeal.main_arg4) = Cert.KernelIdeal.Gen.W0 m ρ c (Proc.devRef .tc Cert.KernelIdeal.main_arg4) from h4]) <;> rfl

/-! ## The results agree -/

/-- The reference's layer step respects equal operands. -/
theorem layerR_congr {r r' k k' : (⟨Cert.KernelIdeal.S3200000, .i32⟩ : BufTy).Contents (Elt Ideal)} {w w' : (⟨Cert.KernelIdeal.S3200000, .f32⟩ : BufTy).Contents (Elt Ideal)}
    {x x' : (⟨Cert.KernelIdeal.S100000x64, .f32⟩ : BufTy).Contents (Elt Ideal)} (hr : r = r') (hk : k = k') (hw : w = w') (hx : x = x') :
    Cert.KernelIdeal.Stages.layerR r k w x = Cert.KernelIdeal.Stages.layerR r' k' w' x' := by
  subst hr hk hw hx; rfl

/-- The kernel's result is the reference's result, from arguments that agree. -/
theorem result_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Fold.result m ρ c = Cert.ReferenceIdeal.Fold.result m' c := by
  have hr := rows_eq m ρ m' c h2
  have hc := cols_eq m ρ m' c h2
  have hw := weights_eq m ρ m' c h2
  have ht := table_eq m ρ m' c h0 h1
  have hu := users_eq m ρ m' c h3
  have hi := items_eq m ρ m' c h4
  -- each layer: the first bridge, then equal operands
  have l1 : Cert.KernelIdeal.Fold.layer1 m ρ c = Cert.ReferenceIdeal.Fold.layer1 m' c :=
    (Cert.KernelIdeal.Stages.layer_eq _ _ _ _).trans (layerR_congr hr hc hw ht)
  have l2 : Cert.KernelIdeal.Fold.layer2 m ρ c = Cert.ReferenceIdeal.Fold.layer2 m' c :=
    (Cert.KernelIdeal.Stages.layer_eq _ _ _ _).trans (layerR_congr hr hc hw l1)
  have l3 : Cert.KernelIdeal.Fold.layer3 m ρ c = Cert.ReferenceIdeal.Fold.layer3 m' c :=
    (Cert.KernelIdeal.Stages.layer_eq _ _ _ _).trans (layerR_congr hr hc hw l2)
  have l4 : Cert.KernelIdeal.Fold.layer4 m ρ c = Cert.ReferenceIdeal.Fold.layer4 m' c :=
    (Cert.KernelIdeal.Stages.layer_eq _ _ _ _).trans (layerR_congr hr hc hw l3)
  -- the pooled table: the second bridge, then equal layers
  have hp : Cert.KernelIdeal.Fold.pooledTable m ρ c = Cert.ReferenceIdeal.Fold.meanTable m' c :=
    (Cert.Bridges.mean_eq _ _ _ _ _).trans (Cert.ReferenceIdeal.Fold.mean_congr ht l1 l2 l3 l4)
  -- the score: the third bridge, then equal picked rows
  exact (Cert.Bridges.score_eq _ _).trans (congrArg₂ Cert.ReferenceIdeal.Stages.scoreR
    (congrArg₂ Cert.KernelIdeal.Stages.pickUsers hp hu) (congrArg₂ Cert.KernelIdeal.Stages.pickItems hp hi))

end Cert.Join

/-! ## The claims -/

namespace Cert.Proof.Claims

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference terminates with its arguments unchanged: its fold never writes an argument buffer. -/
theorem frame_ri : Cert.frame_ReferenceIdeal := fun m ρ _ =>
  (θ_run Cert.ReferenceIdeal.defs _ _).mono (fun r h c =>
    ⟨(h c Cert.ReferenceIdeal.main_arg0).trans (Cert.ReferenceIdeal.Fold.kept_arg0 (launchContents m c)),
     (h c Cert.ReferenceIdeal.main_arg1).trans (Cert.ReferenceIdeal.Fold.kept_arg1 (launchContents m c)),
     (h c Cert.ReferenceIdeal.main_arg2).trans (Cert.ReferenceIdeal.Fold.kept_arg2 (launchContents m c)),
     (h c Cert.ReferenceIdeal.main_arg3).trans (Cert.ReferenceIdeal.Fold.kept_arg3 (launchContents m c)),
     (h c Cert.ReferenceIdeal.main_arg4).trans (Cert.ReferenceIdeal.Fold.kept_arg4 (launchContents m c))⟩)
    (Cert.ReferenceIdeal.HandRun.run (F := Ideal) m ρ)

/-- The ledger's one entry: the certificate's table gives "inv_5" the value 1/5, which the printed constant is at the
    ideal instance. -/
theorem preserves : Cert.preserves_Kernel_KernelIdeal :=
  IdealRules.named_const.statement Cert.KernelIdeal.κ "inv_5" .f32 0x3E4CCCCD#32 ((1 / 5 : ℝ) : EReal) rfl

/-- At the ideal instance both programs end with the same result vector, from arguments that agree. -/
theorem algebraic : Cert.algebraic_KernelIdeal_ReferenceIdeal := by
  intro m ρ m' ρ' _ hagree
  refine ⟨fun c => Cert.KernelIdeal.Fold.result (F := Ideal) m ρ c, ?_, ?_⟩
  · exact (θ_run Cert.KernelIdeal.defs _ _).mono (fun r h c => ⟨(h c).1.trans (Cert.KernelIdeal.Fold.at15_result m ρ c), (h c).2⟩)
      (Cert.KernelIdeal.ResultRun.run (F := Ideal) m ρ)
  · refine (θ_run Cert.ReferenceIdeal.defs _ _).mono (fun r h c => ⟨?_,
      (h c Cert.ReferenceIdeal.main_arg0).trans (Cert.ReferenceIdeal.Fold.kept_arg0 (launchContents m' c)),
      (h c Cert.ReferenceIdeal.main_arg1).trans (Cert.ReferenceIdeal.Fold.kept_arg1 (launchContents m' c)),
      (h c Cert.ReferenceIdeal.main_arg2).trans (Cert.ReferenceIdeal.Fold.kept_arg2 (launchContents m' c)),
      (h c Cert.ReferenceIdeal.main_arg3).trans (Cert.ReferenceIdeal.Fold.kept_arg3 (launchContents m' c)),
      (h c Cert.ReferenceIdeal.main_arg4).trans (Cert.ReferenceIdeal.Fold.kept_arg4 (launchContents m' c))⟩)
      (Cert.ReferenceIdeal.HandRun.run (F := Ideal) m' ρ')
    exact (h c Cert.ReferenceIdeal.main_v112).trans ((Cert.ReferenceIdeal.Fold.at8_result m' c).trans
      (Cert.Join.result_eq m ρ m' c (hagree c).1 (hagree c).2.1 (hagree c).2.2.1 (hagree c).2.2.2.1 (hagree c).2.2.2.2).symm)

end Cert.Proof.Claims

end
-- ==== Proof.lean ====
/-
  The proof of the certificate's five claims for the graph-propagation scoring kernel against its jnp reference.

  The kernel propagates embeddings four times over a bipartite graph (gather the source rows, scale by the edge
  weights in a pipelined region, scatter-add into the target rows), averages the five layers in a second kind of region
  (sum times the named 1/5), gathers the queried user and item rows and scores them by a row-wise dot product in a third.
  The reference does the same with host operations: a multiply by the weights spread over the channels, the mean as a
  stacked sum divided by 5.0, the score as a row sum. At the ideal instance the two results are one function of the
  arguments (Proof/Join.lean); the frames are the generated ones and, for the reference, its fold's silence on the
  arguments; the one ledger entry is the named constant's statement.
-/
import proofs.«156087_j3118146257022_1_alg».proof.Defs
import proofs.«156087_j3118146257022_1_alg».proof.Proof.Gen.Kernel
import proofs.«156087_j3118146257022_1_alg».proof.Proof.Gen.KernelIdeal
import proofs.«156087_j3118146257022_1_alg».proof.Proof.Gen.ReferenceIdeal
import proofs.«156087_j3118146257022_1_alg».proof.Proof.Gen.Pre_finite_inputs
import proofs.«156087_j3118146257022_1_alg».proof.Proof.Join

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
